-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S2x6400000 : Shape := ⟨2, ![2, 6400000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S80x40 : Shape := ⟨2, ![80, 40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  bcast_S_S80x40 : S_.BroadcastsInDim S80x40 (![] : Fin 0 → Fin S80x40.rank)
  reducesTo_S80x40_S_d0_1 : S80x40.ReducesTo [0, 1] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S16x40 .f32) (main_arg10 : FVec F S40 .f32) (main_arg11 : FVec F S80x40 .f32) (main_arg12 : FVec F S40 .f32) (main_v33 : IVec S_ 1) : IVec S_ 1 :=
  let main_v34 : FVec F S16x40 .f32 := Host.absf main_arg9
  let main_cst_12 : FVec F S_ .f32 := constant S_ .f32 0x7F800000#32
  let main_v35 : FVec F S16x40 .f32 := broadcastInDim S16x40 ![] bcast_S_S16x40 main_cst_12
  let main_v36 : IVec S16x40 1 := cmpf .olt main_v34 main_v35
  let main_c_13 : IVec S_ 1 := constantI S_ 1 1#1
  let main_v37 : IVec S_ 1 := (fun x v => Host.reduce IntOp.andi x v reducesTo_S16x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S80x40 .f32 := Host.absf main_arg11
  let main_cst_16 : FVec F S_ .f32 := constant S_ .f32 0x7F800000#32
  let main_v45 : FVec F S80x40 .f32 := broadcastInDim S80x40 ![] bcast_S_S80x40 main_cst_16
  let main_v46 : IVec S80x40 1 := cmpf .olt main_v44 main_v45
  let main_c_17 : IVec S_ 1 := constantI S_ 1 1#1
  let main_v47 : IVec S_ 1 := (fun x v => Host.reduce IntOp.andi x v reducesTo_S80x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S40 .f32) (main_arg7 : FVec F S512x16 .f32) (main_arg8 : FVec F S16 .f32) (main_arg9 : FVec F S16x40 .f32) (main_arg10 : FVec F S40 .f32) (main_arg11 : FVec F S80x40 .f32) (main_arg12 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S512x16 .f32 := Host.absf main_arg7
  let main_cst_8 : FVec F S_ .f32 := constant S_ .f32 0x7F800000#32
  let main_v25 : FVec F S512x16 .f32 := broadcastInDim S512x16 ![] bcast_S_S512x16 main_cst_8
  let main_v26 : IVec S512x16 1 := cmpf .olt main_v24 main_v25
  let main_c_9 : IVec S_ 1 := constantI S_ 1 1#1
  let main_v27 : IVec S_ 1 := (fun x v => Host.reduce IntOp.andi x v reducesTo_S512x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x512 .f32) (main_arg1 : IVec S2x3200000 32) (main_arg2 : IVec S2x6400000 32) (main_arg3 : FVec F S512x16 .f32) (main_arg4 : FVec F S16 .f32) (main_arg5 : FVec F S16x40 .f32) (main_arg6 : FVec F S40 .f32) (main_arg7 : FVec F S512x16 .f32) (main_arg8 : FVec F S16 .f32) (main_arg9 : FVec F S16x40 .f32) (main_arg10 : FVec F S40 .f32) (main_arg11 : FVec F S80x40 .f32) (main_arg12 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg3
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg5
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg6 main_arg7 main_arg8 main_arg9 main_arg10 main_arg11 main_arg12 main_v13 main_v16
-- ==== Kernel.lean ====
abbrev S100000x512 : Shape := ⟨2, ![100000, 512]⟩
abbrev S2x3200000 : Shape := ⟨2, ![2, 3200000]⟩
abbrev S2x6400000 : Shape := ⟨2, ![2, 6400000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S80x40 : Shape := ⟨2, ![80, 40]⟩
abbrev S1x3200000 : Shape := ⟨2, ![1, 3200000]⟩
abbrev S3200000 : Shape := ⟨1, ![3200000]⟩
abbrev S1x6400000 : Shape := ⟨2, ![1, 6400000]⟩
abbrev S6400000 : Shape := ⟨1, ![6400000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S6500000 : Shape := ⟨1, ![6500000]⟩
abbrev S6500000x1 : Shape := ⟨2, ![6500000, 1]⟩
abbrev S512x32 : Shape := ⟨2, ![512, 32]⟩
abbrev S100000x32 : Shape := ⟨2, ![100000, 32]⟩
abbrev S4000x512 : Shape := ⟨2, ![4000, 512]⟩
abbrev S4000x32 : Shape := ⟨2, ![4000, 32]⟩
abbrev S100000x16 : Shape := ⟨2, ![100000, 16]⟩
abbrev S3300000x16 : Shape := ⟨2, ![3300000, 16]⟩
abbrev S1x16 : Shape := ⟨2, ![1, 16]⟩
abbrev S6500000x16 : Shape := ⟨2, ![6500000, 16]⟩
abbrev S16x80 : Shape := ⟨2, ![16, 80]⟩
abbrev S32x80 : Shape := ⟨2, ![32, 80]⟩
abbrev S100000x80 : Shape := ⟨2, ![100000, 80]⟩
abbrev S4000x80 : Shape := ⟨2, ![4000, 80]⟩
abbrev S100000x40 : Shape := ⟨2, ![100000, 40]⟩
abbrev S3300000x40 : Shape := ⟨2, ![3300000, 40]⟩
abbrev S1x40 : Shape := ⟨2, ![1, 40]⟩
abbrev S6500000x40 : Shape := ⟨2, ![6500000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 177
  | .vmem => 16
  | .smem => 0
  | _ => 0

abbrev hbmTy0_0 (i : Nat) : BufTy := match i % 128 with
  | 0 => ⟨S100000x512, .f32⟩
  | 1 => ⟨S2x3200000, .i32⟩
  | 2 => ⟨S2x6400000, .i32⟩
  | 3 => ⟨S512x16, .f32⟩
  | 4 => ⟨S16, .f32⟩
  | 5 => ⟨S16x40, .f32⟩
  | 6 => ⟨S40, .f32⟩
  | 7 => ⟨S512x16, .f32⟩
  | 8 => ⟨S16, .f32⟩
  | 9 => ⟨S16x40, .f32⟩
  | 10 => ⟨S40, .f32⟩
  | 11 => ⟨S80x40, .f32⟩
  | 12 => ⟨S40, .f32⟩
  | 13 => ⟨S1x3200000, .i32⟩
  | 14 => ⟨S3200000, .i32⟩
  | 15 => ⟨S1x3200000, .i32⟩
  | 16 => ⟨S3200000, .i32⟩
  | 17 => ⟨S1x6400000, .i32⟩
  | 18 => ⟨S6400000, .i32⟩
  | 19 => ⟨S1x6400000, .i32⟩
  | 20 => ⟨S6400000, .i32⟩
  | 21 => ⟨S100000, .i32⟩
  | 22 => ⟨S3300000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000, .i32⟩
  | 54 => ⟨S6500000, .i32⟩
  | 55 => ⟨S6500000, .i32⟩
  | 56 => ⟨S_, .f32⟩
  | 57 => ⟨S6500000, .f32⟩
  | 58 => ⟨S_, .f32⟩
  | 59 => ⟨S100000, .f32⟩
  | 60 => ⟨S6500000x1, .i32⟩
  | 61 => ⟨S100000, .f32⟩
  | 62 => ⟨S_, .f32⟩
  | 63 => ⟨S100000, .f32⟩
  | 64 => ⟨S100000, .f32⟩
  | 65 => ⟨S100000, .f32⟩
  | 66 => ⟨S_, .i32⟩
  | 67 => ⟨S6500000, .i32⟩
  | 68 => ⟨S6500000, .i1⟩
  | 69 => ⟨S_, .i32⟩
  | 70 => ⟨S6500000, .i32⟩
  | 71 => ⟨S6500000, .i32⟩
  | 72 => ⟨S6500000, .i32⟩
  | 73 => ⟨S6500000x1, .i32⟩
  | 74 => ⟨S6500000, .f32⟩
  | 75 => ⟨S_, .i32⟩
  | 76 => ⟨S6500000, .i32⟩
  | 77 => ⟨S6500000, .i1⟩
  | 78 => ⟨S_, .i32⟩
  | 79 => ⟨S6500000, .i32⟩
  | 80 => ⟨S6500000, .i32⟩
  | 81 => ⟨S6500000, .i32⟩
  | 82 => ⟨S6500000x1, .i32⟩
  | 83 => ⟨S6500000, .f32⟩
  | 84 => ⟨S6500000, .f32⟩
  | 85 => ⟨S512x32, .f32⟩
  | 86 => ⟨S100000x32, .f32⟩
  | 87 => ⟨S100000x16, .f32⟩
  | 88 => ⟨S100000x16, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000x16, .f32⟩
  | 98 => ⟨S3300000x1, .f32⟩
  | 99 => ⟨S3300000x16, .f32⟩
  | 100 => ⟨S3300000x16, .f32⟩
  | 101 => ⟨S_, .f32⟩
  | 102 => ⟨S100000x16, .f32⟩
  | 103 => ⟨S3300000x1, .i32⟩
  | 104 => ⟨S100000x16, .f32⟩
  | 105 => ⟨S1x16, .f32⟩
  | 106 => ⟨S100000x16, .f32⟩
  | 107 => ⟨S100000x16, .f32⟩
  | 108 => ⟨S_, .i32⟩
  | 109 => ⟨S6500000, .i32⟩
  | 110 => ⟨S6500000, .i1⟩
  | 111 => ⟨S_, .i32⟩
  | 112 => ⟨S6500000, .i32⟩
  | 113 => ⟨S6500000, .i32⟩
  | 114 => ⟨S6500000, .i32⟩
  | 115 => ⟨S6500000x1, .i32⟩
  | 116 => ⟨S6500000x16, .f32⟩
  | 117 => ⟨S6500000x1, .f32⟩
  | 118 => ⟨S6500000x16, .f32⟩
  | 119 => ⟨S6500000x16, .f32⟩
  | 120 => ⟨S_, .f32⟩
  | 121 => ⟨S100000x16, .f32⟩
  | 122 => ⟨S6500000x1, .i32⟩
  | 123 => ⟨S100000x16, .f32⟩
  | 124 => ⟨S1x16, .f32⟩
  | 125 => ⟨S100000x16, .f32⟩
  | 126 => ⟨S100000x16, .f32⟩
  | 127 => ⟨S100000x32, .f32⟩
  | _ => ⟨S100000x512, .f32⟩

abbrev hbmTy0_1 (i : Nat) : BufTy := match i % 128 with
  | 0 => ⟨S_, .f32⟩
  | 1 => ⟨S16x40, .f32⟩
  | 2 => ⟨S16x80, .f32⟩
  | 3 => ⟨S16x80, .f32⟩
  | 4 => ⟨S32x80, .f32⟩
  | 5 => ⟨S100000x80, .f32⟩
  | 6 => ⟨S100000x40, .f32⟩
  | 7 => ⟨S100000x40, .f32⟩
  | 8 => ⟨S_, .i32⟩
  | 9 => ⟨S3300000, .i32⟩
  | 10 => ⟨S3300000, .i1⟩
  | 11 => ⟨S_, .i32⟩
  | 12 => ⟨S3300000, .i32⟩
  | 13 => ⟨S3300000, .i32⟩
  | 14 => ⟨S3300000, .i32⟩
  | 15 => ⟨S3300000x1, .i32⟩
  | 16 => ⟨S3300000x40, .f32⟩
  | 17 => ⟨S3300000x1, .f32⟩
  | 18 => ⟨S3300000x40, .f32⟩
  | 19 => ⟨S3300000x40, .f32⟩
  | 20 => ⟨S_, .f32⟩
  | 21 => ⟨S100000x40, .f32⟩
  | 22 => ⟨S3300000x1, .i32⟩
  | 23 => ⟨S100000x40, .f32⟩
  | 24 => ⟨S1x40, .f32⟩
  | 25 => ⟨S100000x40, .f32⟩
  | 26 => ⟨S100000x40, .f32⟩
  | 27 => ⟨S_, .i32⟩
  | 28 => ⟨S6500000, .i32⟩
  | 29 => ⟨S6500000, .i1⟩
  | 30 => ⟨S_, .i32⟩
  | 31 => ⟨S6500000, .i32⟩
  | 32 => ⟨S6500000, .i32⟩
  | 33 => ⟨S6500000, .i32⟩
  | 34 => ⟨S6500000x1, .i32⟩
  | 35 => ⟨S6500000x40, .f32⟩
  | 36 => ⟨S6500000x1, .f32⟩
  | 37 => ⟨S6500000x40, .f32⟩
  | 38 => ⟨S6500000x40, .f32⟩
  | 39 => ⟨S_, .f32⟩
  | 40 => ⟨S100000x40, .f32⟩
  | 41 => ⟨S6500000x1, .i32⟩
  | 42 => ⟨S100000x40, .f32⟩
  | 43 => ⟨S1x40, .f32⟩
  | 44 => ⟨S100000x40, .f32⟩
  | 45 => ⟨S100000x40, .f32⟩
  | 46 => ⟨S100000x80, .f32⟩
  | 47 => ⟨S1x40, .f32⟩
  | 48 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S32x80, .f32⟩
  | .local _ .vmem, ⟨8, _⟩ => ⟨S4000x80, .f32⟩
  | .local _ .vmem, ⟨9, _⟩ => ⟨S4000x80, .f32⟩
  | .local _ .vmem, ⟨10, _⟩ => ⟨S4000x80, .f32⟩
  | .local _ .vmem, ⟨11, _⟩ => ⟨S4000x80, .f32⟩
  | .local _ .vmem, ⟨12, _⟩ => ⟨S80x40, .f32⟩
  | .local _ .vmem, ⟨13, _⟩ => ⟨S1x40, .f32⟩
  | .local _ .vmem, ⟨14, _⟩ => ⟨S4000x40, .f32⟩
  | .local _ .vmem, ⟨15, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_15 : Ref sig .tc := ⟨.hbm, 108, rfl⟩
abbrev main_v78 : Ref sig .tc := ⟨.hbm, 109, rfl⟩
abbrev main_v79 : Ref sig .tc := ⟨.hbm, 110, rfl⟩
abbrev main_c_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_17 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_18 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_19 : Ref sig .tc := ⟨.hbm, 136, rfl⟩
abbrev main_v102 : Ref sig .tc := ⟨.hbm, 137, rfl⟩
abbrev main_v103 : Ref sig .tc := ⟨.hbm, 138, rfl⟩
abbrev main_c_20 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_21 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_22 : Ref sig .tc := ⟨.hbm, 155, rfl⟩
abbrev main_v118 : Ref sig .tc := ⟨.hbm, 156, rfl⟩
abbrev main_v119 : Ref sig .tc := ⟨.hbm, 157, rfl⟩
abbrev main_c_23 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_24 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S80x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  concatenates_S6400000_S100000_S6500000_d0 : Shape.Concatenates [S6400000, S100000] S6500000 0
  bcast_S_S6500000 : S_.BroadcastsInDim S6500000 (![] : Fin 0 → Fin S6500000.rank)
  bcast_S6500000_S6500000x1_0 : S6500000.BroadcastsInDim S6500000x1 (![0] : Fin 1 → Fin S6500000x1.rank)
  concatenates_S512x16_S512x16_S512x32_d1 : Shape.Concatenates [S512x16, S512x16] S512x32 1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S4000x32_S4000x32_0_0 : ∀ a, (![0, 0] : Fin 2 → Nat) a + S4000x32.size a ≤ S4000x32.size a
  h_S4000x32 : 0 < S4000x32.numel
  slices_S100000x32_S100000x16_0_0 : S100000x32.Slices ![0, 0] S100000x16
  slices_S100000x32_S100000x16_0_16 : S100000x32.Slices ![0, 16] S100000x16
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x16_0_1 : S6500000x1.BroadcastsInDim S6500000x16 (![0, 1] : Fin 2 → Fin S6500000x16.rank)
  concatenates_S100000x16_S100000x16_S100000x32_d1 : Shape.Concatenates [S100000x16, S100000x16] S100000x32 1
  bcast_S_S16x40 : S_.BroadcastsInDim S16x40 (![] : Fin 0 → Fin S16x40.rank)
  concatenates_S16x40_S16x40_S16x80_d1 : Shape.Concatenates [S16x40, S16x40] S16x80 1
  concatenates_S16x80_S16x80_S32x80_d0 : Shape.Concatenates [S16x80, S16x80] S32x80 0
  shapeCasts_S4000x32_S4000x32 : S4000x32.ShapeCasts S4000x32
  inb_S32x80_S32x80_0_0 : ∀ a, (![0, 0] : Fin 2 → Nat) a + S32x80.size a ≤ S32x80.size a
  h_S32x80 : 0 < S32x80.numel
  shapeCasts_S32x80_S32x80 : S32x80.ShapeCasts S32x80
  inb_S4000x80_S4000x80_0_0 : ∀ a, (![0, 0] : Fin 2 → Nat) a + S4000x80.size a ≤ S4000x80.size a
  h_S4000x80 : 0 < S4000x80.numel
  slices_S100000x80_S100000x40_0_0 : S100000x80.Slices ![0, 0] S100000x40
  slices_S100000x80_S100000x40_0_40 : S100000x80.Slices ![0, 40] S100000x40
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S6500000x1_S6500000x40_0_1 : S6500000x1.BroadcastsInDim S6500000x40 (![0, 1] : Fin 2 → Fin S6500000x40.rank)
  concatenates_S100000x40_S100000x40_S100000x80_d1 : Shape.Concatenates [S100000x40, S100000x40] S100000x80 1
  shapeCasts_S40_S1x40 : S40.ShapeCasts S1x40
  shapeCasts_S4000x80_S4000x80 : S4000x80.ShapeCasts S4000x80
  inb_S80x40_S80x40_0_0 : ∀ a, (![0, 0] : Fin 2 → Nat) a + S80x40.size a ≤ S80x40.size a
  h_S80x40 : 0 < S80x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S4000x512_S512x32_S4000x32_1_0_0_1_n_n_wf : DotDims.WF S4000x512 S512x32 S4000x32 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S4000x32_S32x80_S4000x80_1_0_0_1_n_n_wf : DotDims.WF S4000x32 S32x80 S4000x80 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  gather_S100000x40_S6500000x1_S6500000x40_1_0_n_n_0_1_140_wf : GatherDims.WF S100000x40 S6500000x1 S6500000x40 [1] [0] [] [0] [] 1 ![1, 40]
  scatter_S100000x40_S6500000x1_S6500000x40_1_0_0_1_wf : ScatterDims.WF S100000x40 S6500000x1 S6500000x40 [1] [0] [0] 1
  dot_S4000x80_S80x40_S4000x40_1_0_0_1_n_n_wf : DotDims.WF S4000x80 S80x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x80.size a ≤ S32x80.size a
  hwx1_1 : ∀ i : grid1.Coords, EltTy.bits .f32 = 32 ∨ (Rect.block (s := S32x80) S32x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x80.size a ≤ S100000x80.size a
  hwx1_2 : ∀ i : grid1.Coords, EltTy.bits .f32 = 32 ∨ (Rect.block (s := S100000x80) S4000x80.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x80.size a ≤ S100000x80.size a
  hwx2_0 : ∀ i : grid2.Coords, EltTy.bits .f32 = 32 ∨ (Rect.block (s := S100000x80) S4000x80.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S80x40.size a ≤ S80x40.size a
  hwx2_1 : ∀ i : grid2.Coords, EltTy.bits .f32 = 32 ∨ (Rect.block (s := S80x40) S80x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x40.size a ≤ S100000x40.size a
  hwx2_3 : ∀ i : grid2.Coords, EltTy.bits .f32 = 32 ∨ (Rect.block (s := S100000x40) S4000x40.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S4000x32_S32x80_S4000x80_1_0_0_1_n_n : DotDims S4000x32 S32x80 S4000x80 where
  lhsContracting := [1]
  rhsContracting := [0]
  lhsNonContracting := [0]
  rhsNonContracting := [1]
  lhsBatch := []
  rhsBatch := []
  wf := dot_S4000x32_S32x80_S4000x80_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf
def gather_S100000x40_S6500000x1_S6500000x40_1_0_n_n_0_1_140 : GatherDims S100000x40 S6500000x1 S6500000x40 where
  offsetDims := [1]
  collapsedSliceDims := [0]
  operandBatchingDims := []
  startIndicesBatchingDims := []
  startIndexMap := [0]
  indexVectorDim := 1
  sliceSizes := ![1, 40]
  wf := gather_S100000x40_S6500000x1_S6500000x40_1_0_n_n_0_1_140_wf
def scatter_S100000x40_S6500000x1_S6500000x40_1_0_0_1 : ScatterDims S100000x40 S6500000x1 S6500000x40 where
  updateWindowDims := [1]
  insertedWindowDims := [0]
  scatterDimsToOperandDims := [0]
  indexVectorDim := 1
  wf := scatter_S100000x40_S6500000x1_S6500000x40_1_0_0_1_wf
def dot_S4000x80_S80x40_S4000x40_1_0_0_1_n_n : DotDims S4000x80 S80x40 S4000x40 where
  lhsContracting := [1]
  rhsContracting := [0]
  lhsNonContracting := [0]
  rhsNonContracting := [1]
  lhsBatch := []
  rhsBatch := []
  wf := dot_S4000x80_S80x40_S4000x40_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v94) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v98) S32x80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v99) S4000x80.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v134) S4000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S80x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v135) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v136) S4000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S2x6400000 : Shape := ⟨2, ![2, 6400000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S80x40 : Shape := ⟨2, ![80, 40]⟩
abbrev S1x3200000 : Shape := ⟨2, ![1, 3200000]⟩
abbrev S3200000 : Shape := ⟨1, ![3200000]⟩
abbrev S1x6400000 : Shape := ⟨2, ![1, 6400000]⟩
abbrev S6400000 : Shape := ⟨1, ![6400000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S6500000 : Shape := ⟨1, ![6500000]⟩
abbrev S6500000x1 : Shape := ⟨2, ![6500000, 1]⟩
abbrev S6500000x16 : Shape := ⟨2, ![6500000, 16]⟩
abbrev S6500000x40 : Shape := ⟨2, ![6500000, 40]⟩
abbrev S100000x80 : Shape := ⟨2, ![100000, 80]⟩
abbrev S100000x1 : Shape := ⟨2, ![100000, 1]⟩

abbrev nBuf : Space → Nat
  | .hbm => 279
  | .vmem => 0
  | .smem => 0
  | _ => 0

abbrev hbmTy0_0 (i : Nat) : BufTy := match i % 128 with
  | 0 => ⟨S100000x512, .f32⟩
  | 1 => ⟨S2x3200000, .i32⟩
  | 2 => ⟨S2x6400000, .i32⟩
  | 3 => ⟨S512x16, .f32⟩
  | 4 => ⟨S16, .f32⟩
  | 5 => ⟨S16x40, .f32⟩
  | 6 => ⟨S40, .f32⟩
  | 7 => ⟨S512x16, .f32⟩
  | 8 => ⟨S16, .f32⟩
  | 9 => ⟨S16x40, .f32⟩
  | 10 => ⟨S40, .f32⟩
  | 11 => ⟨S80x40, .f32⟩
  | 12 => ⟨S40, .f32⟩
  | 13 => ⟨S1x3200000, .i32⟩
  | 14 => ⟨S3200000, .i32⟩
  | 15 => ⟨S1x3200000, .i32⟩
  | 16 => ⟨S3200000, .i32⟩
  | 17 => ⟨S1x6400000, .i32⟩
  | 18 => ⟨S6400000, .i32⟩
  | 19 => ⟨S1x6400000, .i32⟩
  | 20 => ⟨S6400000, .i32⟩
  | 21 => ⟨S100000, .i32⟩
  | 22 => ⟨S3300000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x16, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x16, .f32⟩
  | 63 => ⟨S3300000x1, .f32⟩
  | 64 => ⟨S3300000x16, .f32⟩
  | 65 => ⟨S3300000x16, .f32⟩
  | 66 => ⟨S_, .f32⟩
  | 67 => ⟨S100000x16, .f32⟩
  | 68 => ⟨S3300000x1, .i32⟩
  | 69 => ⟨S100000x16, .f32⟩
  | 70 => ⟨S1x16, .f32⟩
  | 71 => ⟨S100000x16, .f32⟩
  | 72 => ⟨S100000x16, .f32⟩
  | 73 => ⟨S_, .f32⟩
  | 74 => ⟨S100000x16, .f32⟩
  | 75 => ⟨S100000x16, .i1⟩
  | 76 => ⟨S_, .f32⟩
  | 77 => ⟨S100000x16, .f32⟩
  | 78 => ⟨S100000x16, .i1⟩
  | 79 => ⟨S_, .f32⟩
  | 80 => ⟨S_, .f32⟩
  | 81 => ⟨S100000x16, .f32⟩
  | 82 => ⟨S100000x16, .f32⟩
  | 83 => ⟨S100000x16, .f32⟩
  | 84 => ⟨S_, .f32⟩
  | 85 => ⟨S100000x16, .f32⟩
  | 86 => ⟨S100000x16, .f32⟩
  | 87 => ⟨S100000x16, .f32⟩
  | 88 => ⟨S100000, .i32⟩
  | 89 => ⟨S3300000, .i32⟩
  | 90 => ⟨S3300000, .i32⟩
  | 91 => ⟨S_, .f32⟩
  | 92 => ⟨S3300000, .f32⟩
  | 93 => ⟨S_, .f32⟩
  | 94 => ⟨S100000, .f32⟩
  | 95 => ⟨S3300000x1, .i32⟩
  | 96 => ⟨S100000, .f32⟩
  | 97 => ⟨S_, .f32⟩
  | 98 => ⟨S100000, .f32⟩
  | 99 => ⟨S100000, .f32⟩
  | 100 => ⟨S100000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000, .f32⟩
  | 119 => ⟨S3300000, .f32⟩
  | 120 => ⟨S100000x40, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x512, .f32⟩

abbrev hbmTy0_1 (i : Nat) : BufTy := match i % 128 with
  | 0 => ⟨S3300000x1, .i32⟩
  | 1 => ⟨S3300000x40, .f32⟩
  | 2 => ⟨S3300000x1, .f32⟩
  | 3 => ⟨S3300000x40, .f32⟩
  | 4 => ⟨S3300000x40, .f32⟩
  | 5 => ⟨S_, .f32⟩
  | 6 => ⟨S100000x40, .f32⟩
  | 7 => ⟨S3300000x1, .i32⟩
  | 8 => ⟨S100000x40, .f32⟩
  | 9 => ⟨S1x40, .f32⟩
  | 10 => ⟨S100000x40, .f32⟩
  | 11 => ⟨S100000x40, .f32⟩
  | 12 => ⟨S100000, .i32⟩
  | 13 => ⟨S6500000, .i32⟩
  | 14 => ⟨S6500000, .i32⟩
  | 15 => ⟨S_, .f32⟩
  | 16 => ⟨S6500000, .f32⟩
  | 17 => ⟨S_, .f32⟩
  | 18 => ⟨S100000, .f32⟩
  | 19 => ⟨S6500000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S6500000, .i32⟩
  | 27 => ⟨S6500000, .i1⟩
  | 28 => ⟨S_, .i32⟩
  | 29 => ⟨S6500000, .i32⟩
  | 30 => ⟨S6500000, .i32⟩
  | 31 => ⟨S6500000, .i32⟩
  | 32 => ⟨S6500000x1, .i32⟩
  | 33 => ⟨S6500000, .f32⟩
  | 34 => ⟨S_, .i32⟩
  | 35 => ⟨S6500000, .i32⟩
  | 36 => ⟨S6500000, .i1⟩
  | 37 => ⟨S_, .i32⟩
  | 38 => ⟨S6500000, .i32⟩
  | 39 => ⟨S6500000, .i32⟩
  | 40 => ⟨S6500000, .i32⟩
  | 41 => ⟨S6500000x1, .i32⟩
  | 42 => ⟨S6500000, .f32⟩
  | 43 => ⟨S6500000, .f32⟩
  | 44 => ⟨S100000x16, .f32⟩
  | 45 => ⟨S_, .i32⟩
  | 46 => ⟨S6500000, .i32⟩
  | 47 => ⟨S6500000, .i1⟩
  | 48 => ⟨S_, .i32⟩
  | 49 => ⟨S6500000, .i32⟩
  | 50 => ⟨S6500000, .i32⟩
  | 51 => ⟨S6500000, .i32⟩
  | 52 => ⟨S6500000x1, .i32⟩
  | 53 => ⟨S6500000x16, .f32⟩
  | 54 => ⟨S6500000x1, .f32⟩
  | 55 => ⟨S6500000x16, .f32⟩
  | 56 => ⟨S6500000x16, .f32⟩
  | 57 => ⟨S_, .f32⟩
  | 58 => ⟨S100000x16, .f32⟩
  | 59 => ⟨S6500000x1, .i32⟩
  | 60 => ⟨S100000x16, .f32⟩
  | 61 => ⟨S1x16, .f32⟩
  | 62 => ⟨S100000x16, .f32⟩
  | 63 => ⟨S100000x16, .f32⟩
  | 64 => ⟨S_, .f32⟩
  | 65 => ⟨S100000x16, .f32⟩
  | 66 => ⟨S100000x16, .i1⟩
  | 67 => ⟨S_, .f32⟩
  | 68 => ⟨S100000x16, .f32⟩
  | 69 => ⟨S100000x16, .i1⟩
  | 70 => ⟨S_, .f32⟩
  | 71 => ⟨S_, .f32⟩
  | 72 => ⟨S100000x16, .f32⟩
  | 73 => ⟨S100000x16, .f32⟩
  | 74 => ⟨S100000x16, .f32⟩
  | 75 => ⟨S_, .f32⟩
  | 76 => ⟨S100000x16, .f32⟩
  | 77 => ⟨S100000x16, .f32⟩
  | 78 => ⟨S100000x16, .f32⟩
  | 79 => ⟨S100000, .i32⟩
  | 80 => ⟨S6500000, .i32⟩
  | 81 => ⟨S6500000, .i32⟩
  | 82 => ⟨S_, .f32⟩
  | 83 => ⟨S6500000, .f32⟩
  | 84 => ⟨S_, .f32⟩
  | 85 => ⟨S100000, .f32⟩
  | 86 => ⟨S6500000x1, .i32⟩
  | 87 => ⟨S100000, .f32⟩
  | 88 => ⟨S_, .f32⟩
  | 89 => ⟨S100000, .f32⟩
  | 90 => ⟨S100000, .f32⟩
  | 91 => ⟨S100000, .f32⟩
  | 92 => ⟨S_, .i32⟩
  | 93 => ⟨S6500000, .i32⟩
  | 94 => ⟨S6500000, .i1⟩
  | 95 => ⟨S_, .i32⟩
  | 96 => ⟨S6500000, .i32⟩
  | 97 => ⟨S6500000, .i32⟩
  | 98 => ⟨S6500000, .i32⟩
  | 99 => ⟨S6500000x1, .i32⟩
  | 100 => ⟨S6500000, .f32⟩
  | 101 => ⟨S_, .i32⟩
  | 102 => ⟨S6500000, .i32⟩
  | 103 => ⟨S6500000, .i1⟩
  | 104 => ⟨S_, .i32⟩
  | 105 => ⟨S6500000, .i32⟩
  | 106 => ⟨S6500000, .i32⟩
  | 107 => ⟨S6500000, .i32⟩
  | 108 => ⟨S6500000x1, .i32⟩
  | 109 => ⟨S6500000, .f32⟩
  | 110 => ⟨S6500000, .f32⟩
  | 111 => ⟨S100000x40, .f32⟩
  | 112 => ⟨S_, .i32⟩
  | 113 => ⟨S6500000, .i32⟩
  | 114 => ⟨S6500000, .i1⟩
  | 115 => ⟨S_, .i32⟩
  | 116 => ⟨S6500000, .i32⟩
  | 117 => ⟨S6500000, .i32⟩
  | 118 => ⟨S6500000, .i32⟩
  | 119 => ⟨S6500000x1, .i32⟩
  | 120 => ⟨S6500000x40, .f32⟩
  | 121 => ⟨S6500000x1, .f32⟩
  | 122 => ⟨S6500000x40, .f32⟩
  | 123 => ⟨S6500000x40, .f32⟩
  | 124 => ⟨S_, .f32⟩
  | 125 => ⟨S100000x40, .f32⟩
  | 126 => ⟨S6500000x1, .i32⟩
  | 127 => ⟨S100000x40, .f32⟩
  | _ => ⟨S100000x512, .f32⟩

abbrev hbmTy0_2 (i : Nat) : BufTy := match i % 128 with
  | 0 => ⟨S1x40, .f32⟩
  | 1 => ⟨S100000x40, .f32⟩
  | 2 => ⟨S100000x40, .f32⟩
  | 3 => ⟨S100000x80, .f32⟩
  | 4 => ⟨S100000x40, .f32⟩
  | 5 => ⟨S1x40, .f32⟩
  | 6 => ⟨S100000x40, .f32⟩
  | 7 => ⟨S100000x40, .f32⟩
  | 8 => ⟨S_, .f32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x40, .f32⟩
  | 15 => ⟨S100000x40, .f32⟩
  | 16 => ⟨S100000x40, .f32⟩
  | 17 => ⟨S_, .f32⟩
  | 18 => ⟨S100000, .f32⟩
  | 19 => ⟨S100000x1, .f32⟩
  | 20 => ⟨S100000x1, .f32⟩
  | 21 => ⟨S100000x40, .f32⟩
  | 22 => ⟨S100000x40, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_cst_0 : Ref sig .tc := ⟨.hbm, 76, rfl⟩
abbrev main_call0_v2 : Ref sig .tc := ⟨.hbm, 77, rfl⟩
abbrev main_call0_v3 : Ref sig .tc := ⟨.hbm, 78, rfl⟩
abbrev main_call0_cst_1 : Ref sig .tc := ⟨.hbm, 79, rfl⟩
abbrev main_call0_call0_v0 : Ref sig .tc := ⟨.hbm, 80, rfl⟩
abbrev main_call0_call0_v1 : Ref sig .tc := ⟨.hbm, 81, rfl⟩
abbrev main_call0_v4 : Ref sig .tc := ⟨.hbm, 82, rfl⟩
abbrev main_call0_v5 : Ref sig .tc := ⟨.hbm, 83, rfl⟩
abbrev main_call0_cst_2 : Ref sig .tc := ⟨.hbm, 84, rfl⟩
abbrev main_call0_v6 : Ref sig .tc := ⟨.hbm, 85, rfl⟩
abbrev main_call0_v7 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_8 : Ref sig .tc := ⟨.hbm, 91, rfl⟩
abbrev main_v54 : Ref sig .tc := ⟨.hbm, 92, rfl⟩
abbrev main_cst_9 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_10 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_c_11 : Ref sig .tc := ⟨.hbm, 101, rfl⟩
abbrev main_v61 : Ref sig .tc := ⟨.hbm, 102, rfl⟩
abbrev main_v62 : Ref sig .tc := ⟨.hbm, 103, rfl⟩
abbrev main_c_12 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_c_13 : Ref sig .tc := ⟨.hbm, 110, rfl⟩
abbrev main_v68 : Ref sig .tc := ⟨.hbm, 111, rfl⟩
abbrev main_v69 : Ref sig .tc := ⟨.hbm, 112, rfl⟩
abbrev main_c_14 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_15 : Ref sig .tc := ⟨.hbm, 121, rfl⟩
abbrev main_v77 : Ref sig .tc := ⟨.hbm, 122, rfl⟩
abbrev main_v78 : Ref sig .tc := ⟨.hbm, 123, rfl⟩
abbrev main_c_16 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_17 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_18 : Ref sig .tc := ⟨.hbm, 143, rfl⟩
abbrev main_v96 : Ref sig .tc := ⟨.hbm, 144, rfl⟩
abbrev main_cst_19 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_20 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_21 : Ref sig .tc := ⟨.hbm, 153, rfl⟩
abbrev main_v103 : Ref sig .tc := ⟨.hbm, 154, rfl⟩
abbrev main_v104 : Ref sig .tc := ⟨.hbm, 155, rfl⟩
abbrev main_c_22 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_c_23 : Ref sig .tc := ⟨.hbm, 162, rfl⟩
abbrev main_v110 : Ref sig .tc := ⟨.hbm, 163, rfl⟩
abbrev main_v111 : Ref sig .tc := ⟨.hbm, 164, rfl⟩
abbrev main_c_24 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c_25 : Ref sig .tc := ⟨.hbm, 173, rfl⟩
abbrev main_v119 : Ref sig .tc := ⟨.hbm, 174, rfl⟩
abbrev main_v120 : Ref sig .tc := ⟨.hbm, 175, rfl⟩
abbrev main_c_26 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_27 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_call1_cst : Ref sig .tc := ⟨.hbm, 192, rfl⟩
abbrev main_call1_v0 : Ref sig .tc := ⟨.hbm, 193, rfl⟩
abbrev main_call1_v1 : Ref sig .tc := ⟨.hbm, 194, rfl⟩
abbrev main_call1_cst_0 : Ref sig .tc := ⟨.hbm, 195, rfl⟩
abbrev main_call1_v2 : Ref sig .tc := ⟨.hbm, 196, rfl⟩
abbrev main_call1_v3 : Ref sig .tc := ⟨.hbm, 197, rfl⟩
abbrev main_call1_cst_1 : Ref sig .tc := ⟨.hbm, 198, rfl⟩
abbrev main_call1_call0_v0 : Ref sig .tc := ⟨.hbm, 199, rfl⟩
abbrev main_call1_call0_v1 : Ref sig .tc := ⟨.hbm, 200, rfl⟩
abbrev main_call1_v4 : Ref sig .tc := ⟨.hbm, 201, rfl⟩
abbrev main_call1_v5 : Ref sig .tc := ⟨.hbm, 202, rfl⟩
abbrev main_call1_cst_2 : Ref sig .tc := ⟨.hbm, 203, rfl⟩
abbrev main_call1_v6 : Ref sig .tc := ⟨.hbm, 204, rfl⟩
abbrev main_call1_v7 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_28 : Ref sig .tc := ⟨.hbm, 210, rfl⟩
abbrev main_v139 : Ref sig .tc := ⟨.hbm, 211, rfl⟩
abbrev main_cst_29 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_30 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_c_31 : Ref sig .tc := ⟨.hbm, 220, rfl⟩
abbrev main_v146 : Ref sig .tc := ⟨.hbm, 221, rfl⟩
abbrev main_v147 : Ref sig .tc := ⟨.hbm, 222, rfl⟩
abbrev main_c_32 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_c_33 : Ref sig .tc := ⟨.hbm, 229, rfl⟩
abbrev main_v153 : Ref sig .tc := ⟨.hbm, 230, rfl⟩
abbrev main_v154 : Ref sig .tc := ⟨.hbm, 231, rfl⟩
abbrev main_c_34 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_c_35 : Ref sig .tc := ⟨.hbm, 240, rfl⟩
abbrev main_v162 : Ref sig .tc := ⟨.hbm, 241, rfl⟩
abbrev main_v163 : Ref sig .tc := ⟨.hbm, 242, rfl⟩
abbrev main_c_36 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_cst_37 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_call2_cst : Ref sig .tc := ⟨.hbm, 264, rfl⟩
abbrev main_call2_v0 : Ref sig .tc := ⟨.hbm, 265, rfl⟩
abbrev main_call2_cst_0 : Ref sig .tc := ⟨.hbm, 266, rfl⟩
abbrev main_call2_v1 : Ref sig .tc := ⟨.hbm, 267, rfl⟩
abbrev main_call2_v2 : Ref sig .tc := ⟨.hbm, 268, rfl⟩
abbrev main_call2_v3 : Ref sig .tc := ⟨.hbm, 269, rfl⟩
abbrev main_call2_v4 : Ref sig .tc := ⟨.hbm, 270, rfl⟩
abbrev main_call2_v5 : Ref sig .tc := ⟨.hbm, 271, rfl⟩
abbrev main_call2_v6 : Ref sig .tc := ⟨.hbm, 272, rfl⟩
abbrev main_call2_cst_1 : Ref sig .tc := ⟨.hbm, 273, rfl⟩
abbrev main_call2_v7 : Ref sig .tc := ⟨.hbm, 274, rfl⟩
abbrev main_call2_v8 : Ref sig .tc := ⟨.hbm, 275, rfl⟩
abbrev main_call2_v9 : Ref sig .tc := ⟨.hbm, 276, rfl⟩
abbrev main_call2_v10 : Ref sig .tc := ⟨.hbm, 277, rfl⟩
abbrev main_v183 : Ref sig .tc := ⟨.hbm, 278, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  concatenates_S6400000_S100000_S6500000_d0 : Shape.Concatenates [S6400000, S100000] S6500000 0
  bcast_S_S6500000 : S_.BroadcastsInDim S6500000 (![] : Fin 0 → Fin S6500000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S6500000x1_S6500000x40_0_1 : S6500000x1.BroadcastsInDim S6500000x40 (![0, 1] : Fin 2 → Fin S6500000x40.rank)
  concatenates_S100000x40_S100000x40_S100000x80_d1 : Shape.Concatenates [S100000x40, S100000x40] S100000x80 1
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  gather_S100000x40_S6500000x1_S6500000x40_1_0_n_n_0_1_140_wf : GatherDims.WF S100000x40 S6500000x1 S6500000x40 [1] [0] [] [0] [] 1 ![1, 40]
  scatter_S100000x40_S6500000x1_S6500000x40_1_0_0_1_wf : ScatterDims.WF S100000x40 S6500000x1 S6500000x40 [1] [0] [0] 1
  dot_S100000x80_S80x40_S100000x40_1_0_0_1_n_n_wf : DotDims.WF S100000x80 S80x40 S100000x40 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf
def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def gather_S100000x40_S6500000x1_S6500000x40_1_0_n_n_0_1_140 : GatherDims S100000x40 S6500000x1 S6500000x40 where
  offsetDims := [1]
  collapsedSliceDims := [0]
  operandBatchingDims := []
  startIndicesBatchingDims := []
  startIndexMap := [0]
  indexVectorDim := 1
  sliceSizes := ![1, 40]
  wf := gather_S100000x40_S6500000x1_S6500000x40_1_0_n_n_0_1_140_wf
def scatter_S100000x40_S6500000x1_S6500000x40_1_0_0_1 : ScatterDims S100000x40 S6500000x1 S6500000x40 where
  updateWindowDims := [1]
  insertedWindowDims := [0]
  scatterDimsToOperandDims := [0]
  indexVectorDim := 1
  wf := scatter_S100000x40_S6500000x1_S6500000x40_1_0_0_1_wf
def dot_S100000x80_S80x40_S100000x40_1_0_0_1_n_n : DotDims S100000x80 S80x40 S100000x40 where
  lhsContracting := [1]
  rhsContracting := [0]
  lhsNonContracting := [0]
  rhsNonContracting := [1]
  lhsBatch := []
  rhsBatch := []
  wf := dot_S100000x80_S80x40_S100000x40_1_0_0_1_n_n_wf

class Facts : Prop extends Facts₀ where

variable [Facts]
-- ==== Proof.KerRun.lean ====
/-
  The idealized kernel's run with its result named.

  @main is six segments: three stretches of host operations and three grid computations in between. The
  contents of every buffer at each segment boundary are a fold from the launch memory (a stretch applies its
  operations; a grid computation leaves its output array at what its 25 write-backs leave and every other
  buffer as it found it). Every weakly fair execution terminates in a state whose unscoped buffers hold the
  last boundary's contents; read at the result buffer this names the result, and read at the thirteen
  argument buffers it gives them back unchanged.
-/
import proofs.«135999_j48524540510799_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer then holds the last
    boundary's contents at it, and every argument buffer what it held at launch. -/
theorem run_value : θ_run defs (onTc (τ := τ) (main (F := F))) ⟨m, fun _ => 0, ρ⟩ (fun r => ∀ c : Dev nD,
      r.2.mem ((c.tc : Thread nD τ).loc main_v136) = W6 m ρ c (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v136 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.KerRun

end
-- ==== Proof.Stages.lean ====
/-
  The stages the two programs share, as functions of whole arrays, and the reference's value.

  Both programs compute, per graph, the edge list with self loops, the symmetric normalisation
  deg^(-1/2) · deg^(-1/2), and the aggregation "gather the sources' rows, weigh, scatter-add into the
  destinations' rows, add the bias" with the same host operations; they are named here once and never opened:
  the two programs are compared by showing that the arrays going INTO these stages agree.
  The reference's dense parts are host operations too: three matrix products, the exponential linear unit
  written with `expm1` of a guarded argument, and the log-softmax.
-/
import proofs.«135999_j48524540510799_1_alg».proof.ReferenceIdeal

noncomputable section

namespace Cert.Stages

open Idealize.ShloMosaic Cert.ReferenceIdeal

variable {F : FTy → Type} [FloatOps F] [Cert.ReferenceIdeal.Facts₀]

open Cert.ReferenceIdeal.Facts₀

/-! ## Graph A: 3200000 edges and the 100000 self loops -/

/-- The sources of graph A's edges (row 0 of the edge list) followed by the self loops 0 … 99999. -/
def srcA (adj : (⟨S2x3200000, .i32⟩ : BufTy).Contents (Elt F)) : (⟨S3300000, .i32⟩ : BufTy).Contents (Elt F) :=
  concatenate S3300000 0 [⟨S3200000, shapeCast S3200000 (extractStridedSlice S1x3200000 ![0, 0] adj slices_S2x3200000_S1x3200000_0_0) shapeCasts_S1x3200000_S3200000⟩, ⟨S100000, iotaInDim S100000 32 0⟩] concatenates_S3200000_S100000_S3300000_d0

/-- The destinations (row 1) followed by the self loops. -/
def dstA (adj : (⟨S2x3200000, .i32⟩ : BufTy).Contents (Elt F)) : (⟨S3300000, .i32⟩ : BufTy).Contents (Elt F) :=
  concatenate S3300000 0 [⟨S3200000, shapeCast S3200000 (extractStridedSlice S1x3200000 ![1, 0] adj slices_S2x3200000_S1x3200000_1_0) shapeCasts_S1x3200000_S3200000⟩, ⟨S100000, iotaInDim S100000 32 0⟩] concatenates_S3200000_S100000_S3300000_d0

/-- A list of node numbers as a column of gather indices: a negative number counts from the end (100000 is
    added to it), as an indexing `x[s]` does. -/
def idxA (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32) : (⟨S3300000, .i32⟩ : BufTy).Contents (Elt F))) (addi s (broadcastInDim S3300000 ![] bcast_S_S3300000 (constantI S_ 32 100000#32) : (⟨S3300000, .i32⟩ : BufTy).Contents (Elt F))) s)

/-- The symmetric normalisation of graph A: with deg(v) the number of edges (self loop included) that end
    in v, floored at 1, each edge s → d weighs deg(s)^(-1/2) · deg(d)^(-1/2). -/
def normA (s d : (⟨S3300000, .i32⟩ : BufTy).Contents (Elt F)) : (⟨S3300000, .f32⟩ : BufTy).Contents (Elt F) :=
  mulf
    (Host.gather gather_S100000_S3300000x1_S3300000_n_0_n_n_0_1_1
      (Host.rsqrt (maximumf
        (Host.scatterAdd scatter_S100000_S3300000x1_S3300000_n_0_0_1
          (broadcastInDim S100000 ![] bcast_S_S100000 (constant S_ .f32 0x00000000#32) : (⟨S100000, .f32⟩ : BufTy).Contents (Elt F))
          (broadcastInDim S3300000x1 ![0] bcast_S3300000_S3300000x1_0 d : (⟨S3300000x1, .i32⟩ : BufTy).Contents (Elt F))
          (broadcastInDim S3300000 ![] bcast_S_S3300000 (constant S_ .f32 0x3F800000#32) : (⟨S3300000, .f32⟩ : BufTy).Contents (Elt F)))
        (broadcastInDim S100000 ![] bcast_S_S100000 (constant S_ .f32 0x3F800000#32) : (⟨S100000, .f32⟩ : BufTy).Contents (Elt F))))
      (idxA s))
    (Host.gather gather_S100000_S3300000x1_S3300000_n_0_n_n_0_1_1
      (Host.rsqrt (maximumf
        (Host.scatterAdd scatter_S100000_S3300000x1_S3300000_n_0_0_1
          (broadcastInDim S100000 ![] bcast_S_S100000 (constant S_ .f32 0x00000000#32) : (⟨S100000, .f32⟩ : BufTy).Contents (Elt F))
          (broadcastInDim S3300000x1 ![0] bcast_S3300000_S3300000x1_0 d : (⟨S3300000x1, .i32⟩ : BufTy).Contents (Elt F))
          (broadcastInDim S3300000 ![] bcast_S_S3300000 (constant S_ .f32 0x3F800000#32) : (⟨S3300000, .f32⟩ : BufTy).Contents (Elt F)))
        (broadcastInDim S100000 ![] bcast_S_S100000 (constant S_ .f32 0x3F800000#32) : (⟨S100000, .f32⟩ : BufTy).Contents (Elt F))))
      (idxA d))

/-- Graph A's aggregation of 16-wide node features: row v of the result is the bias plus the sum, over the
    edges s → v, of the edge's weight times row s of `h`. -/
def aggA16 (s d : (⟨S3300000, .i32⟩ : BufTy).Contents (Elt F)) (nrm : (⟨S3300000, .f32⟩ : BufTy).Contents (Elt F)) (h : (⟨S100000x16, .f32⟩ : BufTy).Contents (Elt F)) (b : (⟨S16, .f32⟩ : BufTy).Contents (Elt F)) :
    (⟨S100000x16, .f32⟩ : BufTy).Contents (Elt F) :=
  addf
    (Host.scatterAdd scatter_S100000x16_S3300000x1_S3300000x16_1_0_0_1
      (broadcastInDim S100000x16 ![] bcast_S_S100000x16 (constant S_ .f32 0x00000000#32) : (⟨S100000x16, .f32⟩ : BufTy).Contents (Elt F))
      (broadcastInDim S3300000x1 ![0] bcast_S3300000_S3300000x1_0 d : (⟨S3300000x1, .i32⟩ : BufTy).Contents (Elt F))
      (mulf (Host.gather gather_S100000x16_S3300000x1_S3300000x16_1_0_n_n_0_1_116 h (idxA s))
        (broadcastInDim S3300000x16 ![0, 1] bcast_S3300000x1_S3300000x16_0_1
          (broadcastInDim S3300000x1 ![0] bcast_S3300000_S3300000x1_0 nrm : (⟨S3300000x1, .f32⟩ : BufTy).Contents (Elt F)))))
    (broadcastInDim S100000x16 ![0, 1] bcast_S1x16_S100000x16_0_1
      (broadcastInDim S1x16 ![1] bcast_S16_S1x16_1 b : (⟨S1x16, .f32⟩ : BufTy).Contents (Elt F)))

/-- One graph-convolution layer on graph A at width 16, from the edge list: the aggregation with the graph's own
    sources, destinations and normalisation. -/
def gcnA16 (adj : (⟨S2x3200000, .i32⟩ : BufTy).Contents (Elt F)) (h : (⟨S100000x16, .f32⟩ : BufTy).Contents (Elt F)) (b : (⟨S16, .f32⟩ : BufTy).Contents (Elt F)) : (⟨S100000x16, .f32⟩ : BufTy).Contents (Elt F) :=
  aggA16 (srcA adj) (dstA adj) (normA (srcA adj) (dstA adj)) h b

/-- Graph A's aggregation of 40-wide node features: row v of the result is the bias plus the sum, over the
    edges s → v, of the edge's weight times row s of `h`. -/
def aggA40 (s d : (⟨S3300000, .i32⟩ : BufTy).Contents (Elt F)) (nrm : (⟨S3300000, .f32⟩ : BufTy).Contents (Elt F)) (h : (⟨S100000x40, .f32⟩ : BufTy).Contents (Elt F)) (b : (⟨S40, .f32⟩ : BufTy).Contents (Elt F)) :
    (⟨S100000x40, .f32⟩ : BufTy).Contents (Elt F) :=
  addf
    (Host.scatterAdd scatter_S100000x40_S3300000x1_S3300000x40_1_0_0_1
      (broadcastInDim S100000x40 ![] bcast_S_S100000x40 (constant S_ .f32 0x00000000#32) : (⟨S100000x40, .f32⟩ : BufTy).Contents (Elt F))
      (broadcastInDim S3300000x1 ![0] bcast_S3300000_S3300000x1_0 d : (⟨S3300000x1, .i32⟩ : BufTy).Contents (Elt F))
      (mulf (Host.gather gather_S100000x40_S3300000x1_S3300000x40_1_0_n_n_0_1_140 h (idxA s))
        (broadcastInDim S3300000x40 ![0, 1] bcast_S3300000x1_S3300000x40_0_1
          (broadcastInDim S3300000x1 ![0] bcast_S3300000_S3300000x1_0 nrm : (⟨S3300000x1, .f32⟩ : BufTy).Contents (Elt F)))))
    (broadcastInDim S100000x40 ![0, 1] bcast_S1x40_S100000x40_0_1
      (broadcastInDim S1x40 ![1] bcast_S40_S1x40_1 b : (⟨S1x40, .f32⟩ : BufTy).Contents (Elt F)))

/-- One graph-convolution layer on graph A at width 40, from the edge list: the aggregation with the graph's own
    sources, destinations and normalisation. -/
def gcnA40 (adj : (⟨S2x3200000, .i32⟩ : BufTy).Contents (Elt F)) (h : (⟨S100000x40, .f32⟩ : BufTy).Contents (Elt F)) (b : (⟨S40, .f32⟩ : BufTy).Contents (Elt F)) : (⟨S100000x40, .f32⟩ : BufTy).Contents (Elt F) :=
  aggA40 (srcA adj) (dstA adj) (normA (srcA adj) (dstA adj)) h b

/-! ## Graph B: 6400000 edges and the 100000 self loops -/

/-- The sources of graph B's edges (row 0 of the edge list) followed by the self loops 0 … 99999. -/
def srcB (adj : (⟨S2x6400000, .i32⟩ : BufTy).Contents (Elt F)) : (⟨S6500000, .i32⟩ : BufTy).Contents (Elt F) :=
  concatenate S6500000 0 [⟨S6400000, shapeCast S6400000 (extractStridedSlice S1x6400000 ![0, 0] adj slices_S2x6400000_S1x6400000_0_0) shapeCasts_S1x6400000_S6400000⟩, ⟨S100000, iotaInDim S100000 32 0⟩] concatenates_S6400000_S100000_S6500000_d0

/-- The destinations (row 1) followed by the self loops. -/
def dstB (adj : (⟨S2x6400000, .i32⟩ : BufTy).Contents (Elt F)) : (⟨S6500000, .i32⟩ : BufTy).Contents (Elt F) :=
  concatenate S6500000 0 [⟨S6400000, shapeCast S6400000 (extractStridedSlice S1x6400000 ![1, 0] adj slices_S2x6400000_S1x6400000_1_0) shapeCasts_S1x6400000_S6400000⟩, ⟨S100000, iotaInDim S100000 32 0⟩] concatenates_S6400000_S100000_S6500000_d0

/-- A list of node numbers as a column of gather indices: a negative number counts from the end (100000 is
    added to it), as an indexing `x[s]` does. -/
def idxB (s : (⟨S6500000, .i32⟩ : BufTy).Contents (Elt F)) : (⟨S6500000x1, .i32⟩ : BufTy).Contents (Elt F) :=
  broadcastInDim S6500000x1 ![0] bcast_S6500000_S6500000x1_0
    (select (cmpi .slt s (broadcastInDim S6500000 ![] bcast_S_S6500000 (constantI S_ 32 0#32) : (⟨S6500000, .i32⟩ : BufTy).Contents (Elt F))) (addi s (broadcastInDim S6500000 ![] bcast_S_S6500000 (constantI S_ 32 100000#32) : (⟨S6500000, .i32⟩ : BufTy).Contents (Elt F))) s)

/-- The symmetric normalisation of graph B: with deg(v) the number of edges (self loop included) that end
    in v, floored at 1, each edge s → d weighs deg(s)^(-1/2) · deg(d)^(-1/2). -/
def normB (s d : (⟨S6500000, .i32⟩ : BufTy).Contents (Elt F)) : (⟨S6500000, .f32⟩ : BufTy).Contents (Elt F) :=
  mulf
    (Host.gather gather_S100000_S6500000x1_S6500000_n_0_n_n_0_1_1
      (Host.rsqrt (maximumf
        (Host.scatterAdd scatter_S100000_S6500000x1_S6500000_n_0_0_1
          (broadcastInDim S100000 ![] bcast_S_S100000 (constant S_ .f32 0x00000000#32) : (⟨S100000, .f32⟩ : BufTy).Contents (Elt F))
          (broadcastInDim S6500000x1 ![0] bcast_S6500000_S6500000x1_0 d : (⟨S6500000x1, .i32⟩ : BufTy).Contents (Elt F))
          (broadcastInDim S6500000 ![] bcast_S_S6500000 (constant S_ .f32 0x3F800000#32) : (⟨S6500000, .f32⟩ : BufTy).Contents (Elt F)))
        (broadcastInDim S100000 ![] bcast_S_S100000 (constant S_ .f32 0x3F800000#32) : (⟨S100000, .f32⟩ : BufTy).Contents (Elt F))))
      (idxB s))
    (Host.gather gather_S100000_S6500000x1_S6500000_n_0_n_n_0_1_1
      (Host.rsqrt (maximumf
        (Host.scatterAdd scatter_S100000_S6500000x1_S6500000_n_0_0_1
          (broadcastInDim S100000 ![] bcast_S_S100000 (constant S_ .f32 0x00000000#32) : (⟨S100000, .f32⟩ : BufTy).Contents (Elt F))
          (broadcastInDim S6500000x1 ![0] bcast_S6500000_S6500000x1_0 d : (⟨S6500000x1, .i32⟩ : BufTy).Contents (Elt F))
          (broadcastInDim S6500000 ![] bcast_S_S6500000 (constant S_ .f32 0x3F800000#32) : (⟨S6500000, .f32⟩ : BufTy).Contents (Elt F)))
        (broadcastInDim S100000 ![] bcast_S_S100000 (constant S_ .f32 0x3F800000#32) : (⟨S100000, .f32⟩ : BufTy).Contents (Elt F))))
      (idxB d))

/-- Graph B's aggregation of 16-wide node features: row v of the result is the bias plus the sum, over the
    edges s → v, of the edge's weight times row s of `h`. -/
def aggB16 (s d : (⟨S6500000, .i32⟩ : BufTy).Contents (Elt F)) (nrm : (⟨S6500000, .f32⟩ : BufTy).Contents (Elt F)) (h : (⟨S100000x16, .f32⟩ : BufTy).Contents (Elt F)) (b : (⟨S16, .f32⟩ : BufTy).Contents (Elt F)) :
    (⟨S100000x16, .f32⟩ : BufTy).Contents (Elt F) :=
  addf
    (Host.scatterAdd scatter_S100000x16_S6500000x1_S6500000x16_1_0_0_1
      (broadcastInDim S100000x16 ![] bcast_S_S100000x16 (constant S_ .f32 0x00000000#32) : (⟨S100000x16, .f32⟩ : BufTy).Contents (Elt F))
      (broadcastInDim S6500000x1 ![0] bcast_S6500000_S6500000x1_0 d : (⟨S6500000x1, .i32⟩ : BufTy).Contents (Elt F))
      (mulf (Host.gather gather_S100000x16_S6500000x1_S6500000x16_1_0_n_n_0_1_116 h (idxB s))
        (broadcastInDim S6500000x16 ![0, 1] bcast_S6500000x1_S6500000x16_0_1
          (broadcastInDim S6500000x1 ![0] bcast_S6500000_S6500000x1_0 nrm : (⟨S6500000x1, .f32⟩ : BufTy).Contents (Elt F)))))
    (broadcastInDim S100000x16 ![0, 1] bcast_S1x16_S100000x16_0_1
      (broadcastInDim S1x16 ![1] bcast_S16_S1x16_1 b : (⟨S1x16, .f32⟩ : BufTy).Contents (Elt F)))

/-- One graph-convolution layer on graph B at width 16, from the edge list: the aggregation with the graph's own
    sources, destinations and normalisation. -/
def gcnB16 (adj : (⟨S2x6400000, .i32⟩ : BufTy).Contents (Elt F)) (h : (⟨S100000x16, .f32⟩ : BufTy).Contents (Elt F)) (b : (⟨S16, .f32⟩ : BufTy).Contents (Elt F)) : (⟨S100000x16, .f32⟩ : BufTy).Contents (Elt F) :=
  aggB16 (srcB adj) (dstB adj) (normB (srcB adj) (dstB adj)) h b

/-- Graph B's aggregation of 40-wide node features: row v of the result is the bias plus the sum, over the
    edges s → v, of the edge's weight times row s of `h`. -/
def aggB40 (s d : (⟨S6500000, .i32⟩ : BufTy).Contents (Elt F)) (nrm : (⟨S6500000, .f32⟩ : BufTy).Contents (Elt F)) (h : (⟨S100000x40, .f32⟩ : BufTy).Contents (Elt F)) (b : (⟨S40, .f32⟩ : BufTy).Contents (Elt F)) :
    (⟨S100000x40, .f32⟩ : BufTy).Contents (Elt F) :=
  addf
    (Host.scatterAdd scatter_S100000x40_S6500000x1_S6500000x40_1_0_0_1
      (broadcastInDim S100000x40 ![] bcast_S_S100000x40 (constant S_ .f32 0x00000000#32) : (⟨S100000x40, .f32⟩ : BufTy).Contents (Elt F))
      (broadcastInDim S6500000x1 ![0] bcast_S6500000_S6500000x1_0 d : (⟨S6500000x1, .i32⟩ : BufTy).Contents (Elt F))
      (mulf (Host.gather gather_S100000x40_S6500000x1_S6500000x40_1_0_n_n_0_1_140 h (idxB s))
        (broadcastInDim S6500000x40 ![0, 1] bcast_S6500000x1_S6500000x40_0_1
          (broadcastInDim S6500000x1 ![0] bcast_S6500000_S6500000x1_0 nrm : (⟨S6500000x1, .f32⟩ : BufTy).Contents (Elt F)))))
    (broadcastInDim S100000x40 ![0, 1] bcast_S1x40_S100000x40_0_1
      (broadcastInDim S1x40 ![1] bcast_S40_S1x40_1 b : (⟨S1x40, .f32⟩ : BufTy).Contents (Elt F)))

/-- One graph-convolution layer on graph B at width 40, from the edge list: the aggregation with the graph's own
    sources, destinations and normalisation. -/
def gcnB40 (adj : (⟨S2x6400000, .i32⟩ : BufTy).Contents (Elt F)) (h : (⟨S100000x40, .f32⟩ : BufTy).Contents (Elt F)) (b : (⟨S40, .f32⟩ : BufTy).Contents (Elt F)) : (⟨S100000x40, .f32⟩ : BufTy).Contents (Elt F) :=
  aggB40 (srcB adj) (dstB adj) (normB (srcB adj) (dstB adj)) h b

/-! ## The reference's dense stages -/

/-- The reference's exponential linear unit on a 100000 × 16 array: x where x > 0, and elsewhere
    1 · expm1 of the guarded argument (0 where x > 0, x elsewhere). -/
def eluR (x : (⟨S100000x16, .f32⟩ : BufTy).Contents (Elt F)) : (⟨S100000x16, .f32⟩ : BufTy).Contents (Elt F) :=
  select (cmpf .ogt x (broadcastInDim S100000x16 ![] bcast_S_S100000x16 (constant S_ .f32 0x00000000#32) : (⟨S100000x16, .f32⟩ : BufTy).Contents (Elt F))) x
    (mulf (broadcastInDim S100000x16 ![] bcast_S_S100000x16 (constant S_ .f32 0x3F800000#32) : (⟨S100000x16, .f32⟩ : BufTy).Contents (Elt F))
      (Host.expm1
        (select (cmpf .ogt x (broadcastInDim S100000x16 ![] bcast_S_S100000x16 (constant S_ .f32 0x00000000#32) : (⟨S100000x16, .f32⟩ : BufTy).Contents (Elt F)))
          (broadcastInDim S100000x16 ![] bcast_S_S100000x16 (id (constant S_ .f32 0x00000000#32 : (⟨S_, .f32⟩ : BufTy).Contents (Elt F))) : (⟨S100000x16, .f32⟩ : BufTy).Contents (Elt F))
          x)))

/-- The reference's shifted rows x − max of the row (the maximum a host reduction from −∞, joined once more with −∞). -/
def shiftR (x : (⟨S100000x40, .f32⟩ : BufTy).Contents (Elt F)) : (⟨S100000x40, .f32⟩ : BufTy).Contents (Elt F) :=
  subf x
    (broadcastInDim S100000x40 ![0, 1] bcast_S100000x1_S100000x40_0_1
      (broadcastInDim S100000x1 ![0] bcast_S100000_S100000x1_0
        (maximumf (broadcastInDim S100000 ![] bcast_S_S100000 (constant S_ .f32 0xFF800000#32) : (⟨S100000, .f32⟩ : BufTy).Contents (Elt F))
          (Host.reduce FloatOps.maximumf x (constant S_ .f32 0xFF800000#32 : (⟨S_, .f32⟩ : BufTy).Contents (Elt F)) reducesTo_S100000x40_S100000_d1 h_S_)
          : (⟨S100000, .f32⟩ : BufTy).Contents (Elt F)) : (⟨S100000x1, .f32⟩ : BufTy).Contents (Elt F)))

/-- The reference's log-softmax of a 100000 × 40 array: the shifted rows minus the logarithm of the sum of their
    exponentials. -/
def lsmR (x : (⟨S100000x40, .f32⟩ : BufTy).Contents (Elt F)) : (⟨S100000x40, .f32⟩ : BufTy).Contents (Elt F) :=
  subf (shiftR x)
    (broadcastInDim S100000x40 ![0, 1] bcast_S100000x1_S100000x40_0_1
      (Host.log
        (broadcastInDim S100000x1 ![0] bcast_S100000_S100000x1_0
          (Host.reduceAdd (Host.exp (shiftR x)) (constant S_ .f32 0x00000000#32 : (⟨S_, .f32⟩ : BufTy).Contents (Elt F)) reducesTo_S100000x40_S100000_d1 h_S_
            : (⟨S100000, .f32⟩ : BufTy).Contents (Elt F)) : (⟨S100000x1, .f32⟩ : BufTy).Contents (Elt F))))

/-- The first-layer product x · W, 100000 × 512 by 512 × 16. -/
def dotIn (x : (⟨S100000x512, .f32⟩ : BufTy).Contents (Elt F)) (w : (⟨S512x16, .f32⟩ : BufTy).Contents (Elt F)) : (⟨S100000x16, .f32⟩ : BufTy).Contents (Elt F) :=
  Host.dotGeneral dot_S100000x512_S512x16_S100000x16_1_0_0_1_n_n none x w

/-- The second-layer product h · W, 100000 × 16 by 16 × 40. -/
def dotMid (h : (⟨S100000x16, .f32⟩ : BufTy).Contents (Elt F)) (w : (⟨S16x40, .f32⟩ : BufTy).Contents (Elt F)) : (⟨S100000x40, .f32⟩ : BufTy).Contents (Elt F) :=
  Host.dotGeneral dot_S100000x16_S16x40_S100000x40_1_0_0_1_n_n none h w

/-- The combining affine map [c1 | c2] · Wc + bc on the two codings side by side. -/
def combineR (c1 c2 : (⟨S100000x40, .f32⟩ : BufTy).Contents (Elt F)) (wc : (⟨S80x40, .f32⟩ : BufTy).Contents (Elt F)) (bc : (⟨S40, .f32⟩ : BufTy).Contents (Elt F)) : (⟨S100000x40, .f32⟩ : BufTy).Contents (Elt F) :=
  addf
    (Host.dotGeneral dot_S100000x80_S80x40_S100000x40_1_0_0_1_n_n none
      (concatenate S100000x80 1 [⟨S100000x40, c1⟩, ⟨S100000x40, c2⟩] concatenates_S100000x40_S100000x40_S100000x80_d1 : (⟨S100000x80, .f32⟩ : BufTy).Contents (Elt F)) wc)
    (broadcastInDim S100000x40 ![0, 1] bcast_S1x40_S100000x40_0_1
      (broadcastInDim S1x40 ![1] bcast_S40_S1x40_1 bc : (⟨S1x40, .f32⟩ : BufTy).Contents (Elt F)))

/-- The reference's value: per graph two convolution layers with the unit between them, the two codings
    combined and log-softmaxed. -/
def refVal (x : (⟨S100000x512, .f32⟩ : BufTy).Contents (Elt F)) (adjA : (⟨S2x3200000, .i32⟩ : BufTy).Contents (Elt F)) (adjB : (⟨S2x6400000, .i32⟩ : BufTy).Contents (Elt F))
    (w11 : (⟨S512x16, .f32⟩ : BufTy).Contents (Elt F)) (b11 : (⟨S16, .f32⟩ : BufTy).Contents (Elt F)) (w12 : (⟨S16x40, .f32⟩ : BufTy).Contents (Elt F)) (b12 : (⟨S40, .f32⟩ : BufTy).Contents (Elt F))
    (w21 : (⟨S512x16, .f32⟩ : BufTy).Contents (Elt F)) (b21 : (⟨S16, .f32⟩ : BufTy).Contents (Elt F)) (w22 : (⟨S16x40, .f32⟩ : BufTy).Contents (Elt F)) (b22 : (⟨S40, .f32⟩ : BufTy).Contents (Elt F))
    (wc : (⟨S80x40, .f32⟩ : BufTy).Contents (Elt F)) (bc : (⟨S40, .f32⟩ : BufTy).Contents (Elt F)) : (⟨S100000x40, .f32⟩ : BufTy).Contents (Elt F) :=
  lsmR (combineR
    (gcnA40 adjA (dotMid (eluR (gcnA16 adjA (dotIn x w11) b11)) w12) b12)
    (gcnB40 adjB (dotMid (eluR (gcnB16 adjB (dotIn x w21) b21)) w22) b22)
    wc bc)

end Cert.Stages

end
-- ==== Proof.Spec.lean ====
/-
  The three dense stages of the two-order graph network, as functions of whole arrays read index by index
  over the extended reals.

  * `mm x w`      — the matrix product: entry (i, j) is the sum over k of x(i, k) · w(k, j).
  * `eluK y`      — the exponential linear unit on one extended real: y where y > 0, and e^y − 1 elsewhere.
  * `logits x w b` — the affine map x · w + b, the bias b a single row added to every row.
  * `lsm z`       — the row-wise log-softmax: with M the maximum of row i (a fold of `max` from the
                     pattern of −∞), entry (i, j) is (z(i, j) − M) − log (sum over l of e^(z(i, l) − M)).

  Nothing here mentions a program: the kernel's three grid computations are shown elsewhere to be restrictions
  of these functions to blocks of 4000 rows, and the reference's host operations to be the same functions.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shape of an a × b matrix. -/
abbrev Sh (a b : Nat) : Shape := ⟨2, ![a, b]⟩

/-- The matrix product of an n × a by an a × b matrix: entry (i, j) is the sum over k of x(i, k) · w(k, j). -/
def mm {n a b : Nat} (x : FVec Ideal (Sh n a) .f32) (w : FVec Ideal (Sh a b) .f32) : FVec Ideal (Sh n b) .f32 :=
  fun j => ∑ k : Fin a, x (ix2 (j 0) k) * w (ix2 k (j 1))

/-- The exponential linear unit on one extended real, spelled with the comparison and the selection the
    programs use: y where y > 0 (the zero being the f32 zero pattern's value), e^y − 1 elsewhere (the one
    being the f32 pattern 0x3F800000's value). -/
def eluK (y : Ideal .f32) : Ideal .f32 :=
  Scalar.select (Scalar.cmpf .ogt y (Scalar.ofBits (F := Ideal) .f32 0x00000000#32)) y
    (Scalar.subf (FloatOps.exp y) (Scalar.ofBits (F := Ideal) .f32 0x3F800000#32))

/-- The unit applied to every entry of an array. -/
def eluAll {s : Shape} (x : FVec Ideal s .f32) : FVec Ideal s .f32 := fun i => eluK (x i)

/-- The affine map x · w + b: the bias is one row, added to every row of the product. -/
def logits {n a b : Nat} (x : FVec Ideal (Sh n a) .f32) (w : FVec Ideal (Sh a b) .f32) (bias : FVec Ideal (Sh 1 b) .f32) :
    FVec Ideal (Sh n b) .f32 :=
  fun j => mm x w j + bias (ix2 0 (j 1))

/-- Row i's maximum: the fold of `max` over the row's entries from the value of the −∞ pattern. -/
def rowMax {n b : Nat} (z : FVec Ideal (Sh n b) .f32) (i : Fin n) : EReal :=
  (Finset.univ : Finset (Fin b)).fold max (FloatOps.ofBits (F := Ideal) .f32 0xFF800000#32) (fun l => z (ix2 i l))

/-- The row-wise log-softmax: (z(i, j) − M_i) − log (sum over l of e^(z(i, l) − M_i)), M_i row i's maximum. -/
def lsm {n b : Nat} (z : FVec Ideal (Sh n b) .f32) : FVec Ideal (Sh n b) .f32 :=
  fun j => (z j - rowMax z (j 0)) - Ideal.log (∑ l : Fin b, Ideal.exp (z (ix2 (j 0) l) - rowMax z (j 0)))

end Cert.Spec

end
-- ==== Proof.KerStages.lean ====
/-
  The idealized kernel's value as one function of the thirteen arguments.

  Between its three grid computations the kernel's host code lays arrays side by side and cuts them apart again:
  the two first-layer weights side by side (one product serves both graphs), the two aggregated halves side by
  side, the two second-layer weights on the diagonal of a 32 × 80 matrix whose other two blocks are zero, the two
  codings side by side. The aggregation stages between them are the reference's own (Stages.lean).
-/
import proofs.«135999_j48524540510799_1_alg».proof.KernelIdeal
import proofs.«135999_j48524540510799_1_alg».proof.Proof.Stages
import proofs.«135999_j48524540510799_1_alg».proof.Proof.Spec

noncomputable section

namespace Cert.KerStages

open Idealize.ShloMosaic Cert.KernelIdeal

variable [Cert.KernelIdeal.Facts₀] [Cert.ReferenceIdeal.Facts₀]

open Cert.KernelIdeal.Facts₀

/-- The two first-layer weights side by side: 512 × 32. -/
def wcat (w11 w21 : (⟨S512x16, .f32⟩ : BufTy).Contents (Elt Ideal)) : (⟨S512x32, .f32⟩ : BufTy).Contents (Elt Ideal) :=
  concatenate S512x32 1 [⟨S512x16, w11⟩, ⟨S512x16, w21⟩] concatenates_S512x16_S512x16_S512x32_d1

/-- The 16 × 40 block of zeros. -/
def zeroBlk : (⟨S16x40, .f32⟩ : BufTy).Contents (Elt Ideal) :=
  broadcastInDim S16x40 ![] bcast_S_S16x40 (constant (F := Ideal) S_ .f32 0x00000000#32)

/-- The two second-layer weights on the diagonal of a 32 × 80 matrix, zeros off it. -/
def wbd (w12 w22 : (⟨S16x40, .f32⟩ : BufTy).Contents (Elt Ideal)) : (⟨S32x80, .f32⟩ : BufTy).Contents (Elt Ideal) :=
  concatenate S32x80 0
    [⟨S16x80, (concatenate S16x80 1 [⟨S16x40, w12⟩, ⟨S16x40, zeroBlk⟩] concatenates_S16x40_S16x40_S16x80_d1 : (⟨S16x80, .f32⟩ : BufTy).Contents (Elt Ideal))⟩,
     ⟨S16x80, (concatenate S16x80 1 [⟨S16x40, zeroBlk⟩, ⟨S16x40, w22⟩] concatenates_S16x40_S16x40_S16x80_d1 : (⟨S16x80, .f32⟩ : BufTy).Contents (Elt Ideal))⟩]
    concatenates_S16x80_S16x80_S32x80_d0

/-- Columns 0 … 15 of a 100000 × 32 array. -/
def left16 (p : (⟨S100000x32, .f32⟩ : BufTy).Contents (Elt Ideal)) : (⟨S100000x16, .f32⟩ : BufTy).Contents (Elt Ideal) :=
  extractStridedSlice S100000x16 ![0, 0] p slices_S100000x32_S100000x16_0_0
/-- Columns 16 … 31. -/
def right16 (p : (⟨S100000x32, .f32⟩ : BufTy).Contents (Elt Ideal)) : (⟨S100000x16, .f32⟩ : BufTy).Contents (Elt Ideal) :=
  extractStridedSlice S100000x16 ![0, 16] p slices_S100000x32_S100000x16_0_16
/-- Columns 0 … 39 of a 100000 × 80 array. -/
def left40 (p : (⟨S100000x80, .f32⟩ : BufTy).Contents (Elt Ideal)) : (⟨S100000x40, .f32⟩ : BufTy).Contents (Elt Ideal) :=
  extractStridedSlice S100000x40 ![0, 0] p slices_S100000x80_S100000x40_0_0
/-- Columns 40 … 79. -/
def right40 (p : (⟨S100000x80, .f32⟩ : BufTy).Contents (Elt Ideal)) : (⟨S100000x40, .f32⟩ : BufTy).Contents (Elt Ideal) :=
  extractStridedSlice S100000x40 ![0, 40] p slices_S100000x80_S100000x40_0_40

/-- Two 100000 × 16 arrays side by side. -/
def cat16 (a b : (⟨S100000x16, .f32⟩ : BufTy).Contents (Elt Ideal)) : (⟨S100000x32, .f32⟩ : BufTy).Contents (Elt Ideal) :=
  concatenate S100000x32 1 [⟨S100000x16, a⟩, ⟨S100000x16, b⟩] concatenates_S100000x16_S100000x16_S100000x32_d1
/-- Two 100000 × 40 arrays side by side. -/
def cat40 (a b : (⟨S100000x40, .f32⟩ : BufTy).Contents (Elt Ideal)) : (⟨S100000x80, .f32⟩ : BufTy).Contents (Elt Ideal) :=
  concatenate S100000x80 1 [⟨S100000x40, a⟩, ⟨S100000x40, b⟩] concatenates_S100000x40_S100000x40_S100000x80_d1

/-- The bias vector as one row. -/
def biasRow (bc : (⟨S40, .f32⟩ : BufTy).Contents (Elt Ideal)) : (⟨S1x40, .f32⟩ : BufTy).Contents (Elt Ideal) :=
  shapeCast S1x40 bc shapeCasts_S40_S1x40

/-- The first grid computation's array: x · [W11 | W21]. -/
def proj (x : (⟨S100000x512, .f32⟩ : BufTy).Contents (Elt Ideal)) (w11 w21 : (⟨S512x16, .f32⟩ : BufTy).Contents (Elt Ideal)) : (⟨S100000x32, .f32⟩ : BufTy).Contents (Elt Ideal) :=
  Cert.Spec.mm (n := 100000) (a := 512) (b := 32) x (wcat w11 w21)

/-- The aggregated halves side by side: what the second grid computation reads. -/
def hidden (x : (⟨S100000x512, .f32⟩ : BufTy).Contents (Elt Ideal)) (adjA : (⟨S2x3200000, .i32⟩ : BufTy).Contents (Elt Ideal)) (adjB : (⟨S2x6400000, .i32⟩ : BufTy).Contents (Elt Ideal))
    (w11 : (⟨S512x16, .f32⟩ : BufTy).Contents (Elt Ideal)) (b11 : (⟨S16, .f32⟩ : BufTy).Contents (Elt Ideal)) (w21 : (⟨S512x16, .f32⟩ : BufTy).Contents (Elt Ideal)) (b21 : (⟨S16, .f32⟩ : BufTy).Contents (Elt Ideal)) : (⟨S100000x32, .f32⟩ : BufTy).Contents (Elt Ideal) :=
  cat16 (Cert.Stages.gcnA16 (F := Ideal) adjA (left16 (proj x w11 w21)) b11)
        (Cert.Stages.gcnB16 (F := Ideal) adjB (right16 (proj x w11 w21)) b21)

/-- The second grid computation's array: the unit applied to the halves, times the block-diagonal weight. -/
def coded (h : (⟨S100000x32, .f32⟩ : BufTy).Contents (Elt Ideal)) (w12 w22 : (⟨S16x40, .f32⟩ : BufTy).Contents (Elt Ideal)) : (⟨S100000x80, .f32⟩ : BufTy).Contents (Elt Ideal) :=
  Cert.Spec.mm (n := 100000) (a := 32) (b := 80) (Cert.Spec.eluAll (s := Cert.Spec.Sh 100000 32) h) (wbd w12 w22)

/-- The two codings side by side: what the third grid computation reads. -/
def codings (p : (⟨S100000x80, .f32⟩ : BufTy).Contents (Elt Ideal)) (adjA : (⟨S2x3200000, .i32⟩ : BufTy).Contents (Elt Ideal)) (adjB : (⟨S2x6400000, .i32⟩ : BufTy).Contents (Elt Ideal))
    (b12 b22 : (⟨S40, .f32⟩ : BufTy).Contents (Elt Ideal)) : (⟨S100000x80, .f32⟩ : BufTy).Contents (Elt Ideal) :=
  cat40 (Cert.Stages.gcnA40 (F := Ideal) adjA (left40 p) b12) (Cert.Stages.gcnB40 (F := Ideal) adjB (right40 p) b22)

/-- The kernel's value. -/
def kerVal (x : (⟨S100000x512, .f32⟩ : BufTy).Contents (Elt Ideal)) (adjA : (⟨S2x3200000, .i32⟩ : BufTy).Contents (Elt Ideal)) (adjB : (⟨S2x6400000, .i32⟩ : BufTy).Contents (Elt Ideal))
    (w11 : (⟨S512x16, .f32⟩ : BufTy).Contents (Elt Ideal)) (b11 : (⟨S16, .f32⟩ : BufTy).Contents (Elt Ideal)) (w12 : (⟨S16x40, .f32⟩ : BufTy).Contents (Elt Ideal)) (b12 : (⟨S40, .f32⟩ : BufTy).Contents (Elt Ideal))
    (w21 : (⟨S512x16, .f32⟩ : BufTy).Contents (Elt Ideal)) (b21 : (⟨S16, .f32⟩ : BufTy).Contents (Elt Ideal)) (w22 : (⟨S16x40, .f32⟩ : BufTy).Contents (Elt Ideal)) (b22 : (⟨S40, .f32⟩ : BufTy).Contents (Elt Ideal))
    (wc : (⟨S80x40, .f32⟩ : BufTy).Contents (Elt Ideal)) (bc : (⟨S40, .f32⟩ : BufTy).Contents (Elt Ideal)) : (⟨S100000x40, .f32⟩ : BufTy).Contents (Elt Ideal) :=
  Cert.Spec.lsm (n := 100000) (b := 40)
    (Cert.Spec.logits (n := 100000) (a := 80) (b := 40)
      (codings (coded (hidden x adjA adjB w11 b11 w21 b21) w12 w22) adjA adjB b12 b22) wc (biasRow bc))

end Cert.KerStages

end
-- ==== Proof.KerHost0.lean ====
/-
  Stretch 0 of the idealized kernel's host operations, read as functions: for ANY contents W of the buffers when it
  starts, it leaves, per graph, the edge sources, destinations (self loops appended) and the symmetric normalisation as
  stage functions of the edge list, and the two first-layer weights side by side; it writes no argument.
-/
import proofs.«135999_j48524540510799_1_alg».proof.Proof.Gen.KernelIdeal.Launch
import proofs.«135999_j48524540510799_1_alg».proof.Proof.Gen.KernelIdeal
import proofs.«135999_j48524540510799_1_alg».proof.Proof.Gen.ReferenceIdeal
import proofs.«135999_j48524540510799_1_alg».proof.Proof.KerStages
import Idealize.ShloMosaic.Lib.StableHlo.Run

set_option maxRecDepth 16384
set_option maxHeartbeats 4000000

noncomputable section

namespace Cert.KernelIdeal.KerHost0

open Idealize.ShloMosaic Idealize.ShloMosaic.TcCoe Idealize.SL.Sem Idealize.ShloMosaic.StableHlo
open Cert.KernelIdeal Cert.KernelIdeal.Gen Cert.KerStages Cert.Stages

attribute [local irreducible] Host.scatterAdd Host.gather in
/-- Graph A's sources. -/
theorem srcA_eq (W : Valuation τ sig (Elt Ideal)) :
    StableHlo.after (hostOps0 (F := Ideal)) W (Proc.devRef .tc main_v9 : DevRef τ sig) = srcA (F := Ideal) (W (Proc.devRef .tc main_arg1 : DevRef τ sig)) := by
  after_results_simp
  rfl

attribute [local irreducible] Host.scatterAdd Host.gather in
/-- Graph A's destinations. -/
theorem dstA_eq (W : Valuation τ sig (Elt Ideal)) :
    StableHlo.after (hostOps0 (F := Ideal)) W (Proc.devRef .tc main_v10 : DevRef τ sig) = dstA (F := Ideal) (W (Proc.devRef .tc main_arg1 : DevRef τ sig)) := by
  after_results_simp
  rfl

attribute [local irreducible] Host.scatterAdd Host.gather in
/-- Graph A's normalisation. -/
theorem normA_eq (W : Valuation τ sig (Elt Ideal)) :
    StableHlo.after (hostOps0 (F := Ideal)) W (Proc.devRef .tc main_v32 : DevRef τ sig)
      = normA (F := Ideal) (srcA (F := Ideal) (W (Proc.devRef .tc main_arg1 : DevRef τ sig))) (dstA (F := Ideal) (W (Proc.devRef .tc main_arg1 : DevRef τ sig))) := by
  after_results_simp
  rfl

attribute [local irreducible] Host.scatterAdd Host.gather in
/-- Graph B's sources. -/
theorem srcB_eq (W : Valuation τ sig (Elt Ideal)) :
    StableHlo.after (hostOps0 (F := Ideal)) W (Proc.devRef .tc main_v34 : DevRef τ sig) = srcB (F := Ideal) (W (Proc.devRef .tc main_arg2 : DevRef τ sig)) := by
  after_results_simp
  rfl

attribute [local irreducible] Host.scatterAdd Host.gather in
/-- Graph B's destinations. -/
theorem dstB_eq (W : Valuation τ sig (Elt Ideal)) :
    StableHlo.after (hostOps0 (F := Ideal)) W (Proc.devRef .tc main_v35 : DevRef τ sig) = dstB (F := Ideal) (W (Proc.devRef .tc main_arg2 : DevRef τ sig)) := by
  after_results_simp
  rfl

attribute [local irreducible] Host.scatterAdd Host.gather in
/-- Graph B's normalisation. -/
theorem normB_eq (W : Valuation τ sig (Elt Ideal)) :
    StableHlo.after (hostOps0 (F := Ideal)) W (Proc.devRef .tc main_v57 : DevRef τ sig)
      = normB (F := Ideal) (srcB (F := Ideal) (W (Proc.devRef .tc main_arg2 : DevRef τ sig))) (dstB (F := Ideal) (W (Proc.devRef .tc main_arg2 : DevRef τ sig))) := by
  after_results_simp
  rfl

/-- The two first-layer weights side by side. -/
theorem wcat_eq (W : Valuation τ sig (Elt Ideal)) :
    StableHlo.after (hostOps0 (F := Ideal)) W (Proc.devRef .tc main_v58 : DevRef τ sig) = wcat (W (Proc.devRef .tc main_arg3 : DevRef τ sig)) (W (Proc.devRef .tc main_arg7 : DevRef τ sig)) := by
  after_results_simp
  rfl

/-- Stretch 0 does not write this buffer. -/
theorem keep_arg0 (W : Valuation τ sig (Elt Ideal)) :
    StableHlo.after (hostOps0 (F := Ideal)) W (Proc.devRef .tc main_arg0 : DevRef τ sig) = W (Proc.devRef .tc main_arg0 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 0 does not write this buffer. -/
theorem keep_arg4 (W : Valuation τ sig (Elt Ideal)) :
    StableHlo.after (hostOps0 (F := Ideal)) W (Proc.devRef .tc main_arg4 : DevRef τ sig) = W (Proc.devRef .tc main_arg4 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 0 does not write this buffer. -/
theorem keep_arg5 (W : Valuation τ sig (Elt Ideal)) :
    StableHlo.after (hostOps0 (F := Ideal)) W (Proc.devRef .tc main_arg5 : DevRef τ sig) = W (Proc.devRef .tc main_arg5 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 0 does not write this buffer. -/
theorem keep_arg6 (W : Valuation τ sig (Elt Ideal)) :
    StableHlo.after (hostOps0 (F := Ideal)) W (Proc.devRef .tc main_arg6 : DevRef τ sig) = W (Proc.devRef .tc main_arg6 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 0 does not write this buffer. -/
theorem keep_arg8 (W : Valuation τ sig (Elt Ideal)) :
    StableHlo.after (hostOps0 (F := Ideal)) W (Proc.devRef .tc main_arg8 : DevRef τ sig) = W (Proc.devRef .tc main_arg8 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 0 does not write this buffer. -/
theorem keep_arg9 (W : Valuation τ sig (Elt Ideal)) :
    StableHlo.after (hostOps0 (F := Ideal)) W (Proc.devRef .tc main_arg9 : DevRef τ sig) = W (Proc.devRef .tc main_arg9 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 0 does not write this buffer. -/
theorem keep_arg10 (W : Valuation τ sig (Elt Ideal)) :
    StableHlo.after (hostOps0 (F := Ideal)) W (Proc.devRef .tc main_arg10 : DevRef τ sig) = W (Proc.devRef .tc main_arg10 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 0 does not write this buffer. -/
theorem keep_arg11 (W : Valuation τ sig (Elt Ideal)) :
    StableHlo.after (hostOps0 (F := Ideal)) W (Proc.devRef .tc main_arg11 : DevRef τ sig) = W (Proc.devRef .tc main_arg11 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 0 does not write this buffer. -/
theorem keep_arg12 (W : Valuation τ sig (Elt Ideal)) :
    StableHlo.after (hostOps0 (F := Ideal)) W (Proc.devRef .tc main_arg12 : DevRef τ sig) = W (Proc.devRef .tc main_arg12 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.KerHost0

end
-- ==== Proof.KerHost1.lean ====
/-
  Stretch 1 of the idealized kernel's host operations (between the first and the second grid computation), read as
  functions: for ANY contents W when it starts, it leaves the two aggregated halves of the first product side by side,
  and the block-diagonal second-layer weight; it writes none of the graph buffers and no argument.
-/
import proofs.«135999_j48524540510799_1_alg».proof.Proof.Gen.KernelIdeal.Launch
import proofs.«135999_j48524540510799_1_alg».proof.Proof.Gen.KernelIdeal
import proofs.«135999_j48524540510799_1_alg».proof.Proof.Gen.ReferenceIdeal
import proofs.«135999_j48524540510799_1_alg».proof.Proof.KerStages
import Idealize.ShloMosaic.Lib.StableHlo.Run

set_option maxRecDepth 16384
set_option maxHeartbeats 4000000

noncomputable section

namespace Cert.KernelIdeal.KerHost1

open Idealize.ShloMosaic Idealize.ShloMosaic.TcCoe Idealize.SL.Sem Idealize.ShloMosaic.StableHlo
open Cert.KernelIdeal Cert.KernelIdeal.Gen Cert.KerStages Cert.Stages

attribute [local irreducible] Host.scatterAdd Host.gather in
/-- The aggregated halves side by side. -/
theorem hidden_eq (W : Valuation τ sig (Elt Ideal)) :
    StableHlo.after (hostOps1 (F := Ideal)) W (Proc.devRef .tc main_v94 : DevRef τ sig)
      = cat16
          (aggA16 (F := Ideal) (W (Proc.devRef .tc main_v9 : DevRef τ sig)) (W (Proc.devRef .tc main_v10 : DevRef τ sig)) (W (Proc.devRef .tc main_v32 : DevRef τ sig)) (left16 (W (Proc.devRef .tc main_v59 : DevRef τ sig))) (W (Proc.devRef .tc main_arg4 : DevRef τ sig)))
          (aggB16 (F := Ideal) (W (Proc.devRef .tc main_v34 : DevRef τ sig)) (W (Proc.devRef .tc main_v35 : DevRef τ sig)) (W (Proc.devRef .tc main_v57 : DevRef τ sig)) (right16 (W (Proc.devRef .tc main_v59 : DevRef τ sig))) (W (Proc.devRef .tc main_arg8 : DevRef τ sig))) := by
  after_results_simp
  unfold cat16
  refine congrArg₂ (fun a b : (⟨S100000x16, .f32⟩ : BufTy).Contents (Elt Ideal) =>
    (concatenate S100000x32 1 [⟨S100000x16, a⟩, ⟨S100000x16, b⟩] Cert.KernelIdeal.Facts₀.concatenates_S100000x16_S100000x16_S100000x32_d1
      : (⟨S100000x32, .f32⟩ : BufTy).Contents (Elt Ideal))) ?_ ?_
  · after_results_simp
    rfl
  · after_results_simp
    rfl

/-- The block-diagonal second-layer weight. -/
theorem wbd_eq (W : Valuation τ sig (Elt Ideal)) :
    StableHlo.after (hostOps1 (F := Ideal)) W (Proc.devRef .tc main_v98 : DevRef τ sig) = wbd (W (Proc.devRef .tc main_arg5 : DevRef τ sig)) (W (Proc.devRef .tc main_arg9 : DevRef τ sig)) := by
  after_results_simp
  rfl

/-- Stretch 1 does not write this buffer. -/
theorem keep_v9 (W : Valuation τ sig (Elt Ideal)) :
    StableHlo.after (hostOps1 (F := Ideal)) W (Proc.devRef .tc main_v9 : DevRef τ sig) = W (Proc.devRef .tc main_v9 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 1 does not write this buffer. -/
theorem keep_v10 (W : Valuation τ sig (Elt Ideal)) :
    StableHlo.after (hostOps1 (F := Ideal)) W (Proc.devRef .tc main_v10 : DevRef τ sig) = W (Proc.devRef .tc main_v10 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 1 does not write this buffer. -/
theorem keep_v32 (W : Valuation τ sig (Elt Ideal)) :
    StableHlo.after (hostOps1 (F := Ideal)) W (Proc.devRef .tc main_v32 : DevRef τ sig) = W (Proc.devRef .tc main_v32 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 1 does not write this buffer. -/
theorem keep_v34 (W : Valuation τ sig (Elt Ideal)) :
    StableHlo.after (hostOps1 (F := Ideal)) W (Proc.devRef .tc main_v34 : DevRef τ sig) = W (Proc.devRef .tc main_v34 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 1 does not write this buffer. -/
theorem keep_v35 (W : Valuation τ sig (Elt Ideal)) :
    StableHlo.after (hostOps1 (F := Ideal)) W (Proc.devRef .tc main_v35 : DevRef τ sig) = W (Proc.devRef .tc main_v35 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 1 does not write this buffer. -/
theorem keep_v57 (W : Valuation τ sig (Elt Ideal)) :
    StableHlo.after (hostOps1 (F := Ideal)) W (Proc.devRef .tc main_v57 : DevRef τ sig) = W (Proc.devRef .tc main_v57 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 1 does not write this buffer. -/
theorem keep_arg6 (W : Valuation τ sig (Elt Ideal)) :
    StableHlo.after (hostOps1 (F := Ideal)) W (Proc.devRef .tc main_arg6 : DevRef τ sig) = W (Proc.devRef .tc main_arg6 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 1 does not write this buffer. -/
theorem keep_arg10 (W : Valuation τ sig (Elt Ideal)) :
    StableHlo.after (hostOps1 (F := Ideal)) W (Proc.devRef .tc main_arg10 : DevRef τ sig) = W (Proc.devRef .tc main_arg10 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 1 does not write this buffer. -/
theorem keep_arg11 (W : Valuation τ sig (Elt Ideal)) :
    StableHlo.after (hostOps1 (F := Ideal)) W (Proc.devRef .tc main_arg11 : DevRef τ sig) = W (Proc.devRef .tc main_arg11 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Stretch 1 does not write this buffer. -/
theorem keep_arg12 (W : Valuation τ sig (Elt Ideal)) :
    StableHlo.after (hostOps1 (F := Ideal)) W (Proc.devRef .tc main_arg12 : DevRef τ sig) = W (Proc.devRef .tc main_arg12 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.KerHost1

end
-- ==== Proof.KerHost2.lean ====
/-
  Stretch 2 of the idealized kernel's host operations (between the second and the third grid computation), read as
  functions: for ANY contents W when it starts, it leaves the two aggregated halves of the second product (the codings)
  side by side and the last bias viewed as a row; it does not write the combining weight.
-/
import proofs.«135999_j48524540510799_1_alg».proof.Proof.Gen.KernelIdeal.Launch
import proofs.«135999_j48524540510799_1_alg».proof.Proof.Gen.KernelIdeal
import proofs.«135999_j48524540510799_1_alg».proof.Proof.Gen.ReferenceIdeal
import proofs.«135999_j48524540510799_1_alg».proof.Proof.KerStages
import Idealize.ShloMosaic.Lib.StableHlo.Run

set_option maxRecDepth 16384
set_option maxHeartbeats 4000000

noncomputable section

namespace Cert.KernelIdeal.KerHost2

open Idealize.ShloMosaic Idealize.ShloMosaic.TcCoe Idealize.SL.Sem Idealize.ShloMosaic.StableHlo
open Cert.KernelIdeal Cert.KernelIdeal.Gen Cert.KerStages Cert.Stages

attribute [local irreducible] Host.scatterAdd Host.gather in
/-- The codings side by side. -/
theorem codings_eq (W : Valuation τ sig (Elt Ideal)) :
    StableHlo.after (hostOps2 (F := Ideal)) W (Proc.devRef .tc main_v134 : DevRef τ sig)
      = cat40
          (aggA40 (F := Ideal) (W (Proc.devRef .tc main_v9 : DevRef τ sig)) (W (Proc.devRef .tc main_v10 : DevRef τ sig)) (W (Proc.devRef .tc main_v32 : DevRef τ sig)) (left40 (W (Proc.devRef .tc main_v99 : DevRef τ sig))) (W (Proc.devRef .tc main_arg6 : DevRef τ sig)))
          (aggB40 (F := Ideal) (W (Proc.devRef .tc main_v34 : DevRef τ sig)) (W (Proc.devRef .tc main_v35 : DevRef τ sig)) (W (Proc.devRef .tc main_v57 : DevRef τ sig)) (right40 (W (Proc.devRef .tc main_v99 : DevRef τ sig))) (W (Proc.devRef .tc main_arg10 : DevRef τ sig))) := by
  after_results_simp
  unfold cat40
  refine congrArg₂ (fun a b : (⟨S100000x40, .f32⟩ : BufTy).Contents (Elt Ideal) =>
    (concatenate S100000x80 1 [⟨S100000x40, a⟩, ⟨S100000x40, b⟩] Cert.KernelIdeal.Facts₀.concatenates_S100000x40_S100000x40_S100000x80_d1
      : (⟨S100000x80, .f32⟩ : BufTy).Contents (Elt Ideal))) ?_ ?_
  · after_results_simp
    rfl
  · after_results_simp
    rfl

/-- The last bias as a row. -/
theorem biasRow_eq (W : Valuation τ sig (Elt Ideal)) :
    StableHlo.after (hostOps2 (F := Ideal)) W (Proc.devRef .tc main_v135 : DevRef τ sig) = biasRow (W (Proc.devRef .tc main_arg12 : DevRef τ sig)) := by
  after_results_simp
  rfl

/-- Stretch 2 does not write this buffer. -/
theorem keep_arg11 (W : Valuation τ sig (Elt Ideal)) :
    StableHlo.after (hostOps2 (F := Ideal)) W (Proc.devRef .tc main_arg11 : DevRef τ sig) = W (Proc.devRef .tc main_arg11 : DevRef τ sig) :=
  (StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.KerHost2

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.Region0Pay.lean ====
/-
  The first grid computation's arithmetic on one block, read entry by entry over the extended reals.

  On a block x of 4000 rows (4000 × 512) and the whole weight w (512 × 32) the body converts both to the
  narrower float format — the identity on extended reals —, re-views w at its own shape — the identity —,
  and multiplies them on the matrix unit into the all-zero 4000 × 32 accumulator. Entry (p, q) of the
  result is therefore the sum over k < 512 of x(p, k) · w(k, q).
-/
import proofs.«135999_j48524540510799_1_alg».proof.Proof.Gen.KernelIdeal.Skeleton
import proofs.«135999_j48524540510799_1_alg».proof.Proof.LibPlainDot
import Idealize.ShloMosaic.Lib.Pipeline.Value

noncomputable section

open scoped BigOperators

namespace Cert.KernelIdeal.RegionValue

open Idealize.ShloMosaic Idealize.ShloMosaic.ValueIdx Cert.KernelIdeal

/-- Entry (p, q) of the block product: the sum over the 512 shared coordinates. -/
theorem pay0_ix (x : Vec Ideal S4000x512 .f32) (w : Vec Ideal S512x32 .f32) (p : Fin 4000) (q : Fin 32) :
    Gen.k0_pay1 (F := Ideal) x w (ix2 p q) = ∑ k : Fin 512, x (ix2 p k) * w (ix2 k q) := by
  unfold Gen.k0_pay1
  have e : shapeCast S512x32 w Gen.shapeCasts_S512x32_S512x32 = w := shapeCast_self _ _
  show matmul (φ₁ := .f32) (φ₂ := .f32) (DotDims.plain 4000 512 32) none x (shapeCast S512x32 w Gen.shapeCasts_S512x32_S512x32)
    (constant (F := Ideal) S4000x32 .f32 0x00000000#32) (ix2 p q) = _
  rw [e]
  exact Cert.LibPlainDot.matmul_zero_apply (n := 4000) (a := 512) (b := 32) none x w p q

/-- The same at an arbitrary index j of the block: row j 0 of x against column j 1 of w. -/
theorem pay0_apply (x : Vec Ideal S4000x512 .f32) (w : Vec Ideal S512x32 .f32) (j : S4000x32.Idx) :
    Gen.k0_pay1 (F := Ideal) x w j = ∑ k : Fin 512, x (ix2 (j 0) k) * w (ix2 k (j 1)) := by
  obtain ⟨p, q, rfl⟩ : ∃ (p : Fin 4000) (q : Fin 32), j = ix2 p q := ⟨j 0, j 1, eq_ix2 j⟩
  exact pay0_ix x w p q

end Cert.KernelIdeal.RegionValue

end
-- ==== Proof.Region0Blocks.lean ====
/-
  The first grid computation, block by block.

  The grid has 25 points. At point t the pipeline stages rows 4000·t … 4000·t + 3999 of the 100000 × 512
  array and the whole 512 × 32 weight, runs the body on them, and writes the 4000 × 32 result back to rows
  4000·t … 4000·t + 3999 of the 100000 × 32 output. Entry (p, q) of that result is the sum over k of
  x(4000·t + p, k) · w(k, q): row 4000·t + p of the product of the two whole arrays. So what each point
  writes back is the restriction, to its rows, of ONE whole-array function — the matrix product.
-/
import proofs.«135999_j48524540510799_1_alg».proof.Proof.Gen.KernelIdeal.Frame
import proofs.«135999_j48524540510799_1_alg».proof.Proof.Spec
import proofs.«135999_j48524540510799_1_alg».proof.Proof.Region0Pay
import Idealize.ShloMosaic.Lib.Pipeline.Value

noncomputable section

open scoped BigOperators

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-block access, as the constant function. -/
theorem off0 : (![0, 0] : Fin 2 → Nat) = fun _ => 0 := funext fun a => by fin_cases a <;> rfl

/-- The printed index maps, decided once over the 25 grid points: at point t the row-block windows (the
    input rows and the output rows) sit at block (t, 0), the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point t is rows 4000·t … 4000·t + 3999 of the 100000 × 512 array. -/
theorem iblk0_0_apply (t : Fin cfg0.N) (y : S4000x512.Idx) (i : S100000x512.Idx)
    (h0 : (i 0).val = 4000 * t.val + (y 0).val) (h1 : (i 1).val = (y 1).val) :
    (Gen.iblk0 (F := Ideal) V c 0 t : Vec Ideal S4000x512 .f32) y = (V c (Pipeline.arrRef spec0 0) : S100000x512.Idx → EReal) i := by
  obtain ⟨e0, e1, e2, e3, e4, e5⟩ := idx_facts0 t
  unfold Gen.iblk0
  rw [View.read_apply]
  show (V c (Pipeline.arrRef spec0 0) : S100000x512.Idx → EReal) _ = _
  congr 1
  funext a
  apply Fin.ext
  match a with
  | ⟨0, _⟩ => show win0_0.index t (0 : Fin 2) * 4000 + 1 * (y 0).val = (i 0).val; omega
  | ⟨1, _⟩ => show win0_0.index t (1 : Fin 2) * 512 + 1 * (y 1).val = (i 1).val; omega

/-- The weight window's block at every point is the whole 512 × 32 array. -/
theorem iblk0_1_apply (t : Fin cfg0.N) (y i : S512x32.Idx) (h0 : (i 0).val = (y 0).val) (h1 : (i 1).val = (y 1).val) :
    (Gen.iblk0 (F := Ideal) V c 1 t : Vec Ideal S512x32 .f32) y = (V c (Pipeline.arrRef spec0 1) : S512x32.Idx → EReal) i := by
  obtain ⟨e0, e1, e2, e3, e4, e5⟩ := idx_facts0 t
  unfold Gen.iblk0
  rw [View.read_apply]
  show (V c (Pipeline.arrRef spec0 1) : S512x32.Idx → EReal) _ = _
  congr 1
  funext a
  apply Fin.ext
  match a with
  | ⟨0, _⟩ => show win0_1.index t (0 : Fin 2) * 512 + 1 * (y 0).val = (i 0).val; omega
  | ⟨1, _⟩ => show win0_1.index t (1 : Fin 2) * 32 + 1 * (y 1).val = (i 1).val; omega

/-- The whole-array function the blocks are restrictions of: the product of the two arrays as the
    region finds them. -/
abbrev G0 : S100000x32.Idx → EReal :=
  Cert.Spec.mm (n := 100000) (a := 512) (b := 32) (V c (Pipeline.arrRef spec0 0)) (V c (Pipeline.arrRef spec0 1))

/-- What point t writes back is block t of the product: its entry (p, q) is row 4000·t + p of the first
    array against column q of the second. -/
theorem flushed0_eq (t : Fin cfg0.N) :
    (Gen.dat0 (F := Ideal) V c).flushed 2 t = ((cfg0.win 2).blk t).view.read (Elt Ideal) (G0 V c) := by
  show (cfg0.win 2).cut (grid0.coords t) ((Gen.dat0 (F := Ideal) V c).after 2 t) = _
  rw [Gen.after0_2]
  unfold Gen.out0_2
  rw [View.canon_unit_zero off0]
  simp only [View.ld_unit_zero (S := S4000x512) off0, View.ld_unit_zero (S := S512x32) off0]
  obtain ⟨e0, e1, e2, e3, e4, e5⟩ := idx_facts0 t
  funext j
  show Gen.k0_pay1 (F := Ideal) (Gen.iblk0 V c 0 t) (Gen.iblk0 V c 1 t) j = G0 V c (((cfg0.win 2).blk t).view.emb j)
  refine (pay0_apply _ _ j).trans ?_
  refine Finset.sum_congr rfl fun k _ => ?_
  refine congrArg₂ (· * ·) (iblk0_0_apply V c t _ _ ?_ ?_) (iblk0_1_apply V c t _ _ ?_ ?_)
  · show win0_2.index t (0 : Fin 2) * 4000 + 1 * (j 0).val = 4000 * t.val + (j 0).val
    omega
  · rfl
  · rfl
  · show win0_2.index t (1 : Fin 2) * 32 + 1 * (j 1).val = (j 1).val
    omega

end Cert.KernelIdeal.RegionValue

end
-- ==== Proof.Region0.lean ====
/-
  The first grid computation as a whole: the output array after the 25 points is the matrix product.

  Row r of the 100000-row output lies in the block of point r / 4000 (rows 4000·(r / 4000) … + 3999, all
  32 columns), and every point writes its block back; each block written is the restriction of the matrix
  product of the two input arrays to its rows. Blocks that cover the array and agree with one function
  leave the array holding that function.
-/
import proofs.«135999_j48524540510799_1_alg».proof.Proof.Gen.KernelIdeal.Frame
import proofs.«135999_j48524540510799_1_alg».proof.Proof.Spec
import proofs.«135999_j48524540510799_1_alg».proof.Proof.Region0Blocks
import Idealize.ShloMosaic.Lib.Pipeline.Value

noncomputable section

open scoped BigOperators

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- An index of the 100000 × 32 array lies in point t's block iff each coordinate lies in the block's
    range on its axis. -/
theorem mem_blk0 (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v59).slice (win0_2.rect t)).set ↔ _
  rw [View.set_slice_whole, Rect.mem_set_unit]
  exact Iff.rfl

/-- Every row r of the array is written back by some point: the point r / 4000, whose block is rows
    4000·(r / 4000) … 4000·(r / 4000) + 3999 and all 32 columns. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 25 := N_0
  have hlt : (i 0).val / 4000 < cfg0.N := by rw [hN]; omega
  obtain ⟨e0, e1, e2, e3, e4, e5⟩ := idx_facts0 ⟨(i 0).val / 4000, hlt⟩
  have e4' : win0_2.index ⟨(i 0).val / 4000, hlt⟩ (0 : Fin 2) = (i 0).val / 4000 := e4
  refine ⟨⟨(i 0).val / 4000, hlt⟩, flush0_2 _, ?_⟩
  rw [mem_blk0]
  intro a
  match a with
  | ⟨0, _⟩ =>
    show win0_2.index ⟨(i 0).val / 4000, hlt⟩ (0 : Fin 2) * 4000 ≤ (i 0).val ∧ (i 0).val < win0_2.index ⟨(i 0).val / 4000, hlt⟩ (0 : Fin 2) * 4000 + 4000
    omega
  | ⟨1, _⟩ =>
    show win0_2.index ⟨(i 0).val / 4000, hlt⟩ (1 : Fin 2) * 32 ≤ (i 1).val ∧ (i 1).val < win0_2.index ⟨(i 0).val / 4000, hlt⟩ (1 : Fin 2) * 32 + 32
    omega

/-- THE FIRST REGION'S VALUE: after its 25 points the output array holds the matrix product of the two
    arrays the region found — every block written back is the restriction of that one product, and the
    blocks cover the array. -/
theorem region0 : (Gen.dat0 (F := Ideal) V c).arrAt 2 cfg0.N
    = Cert.Spec.mm (n := 100000) (a := 512) (b := 32) (V c (Pipeline.arrRef spec0 0)) (V c (Pipeline.arrRef spec0 1)) :=
  (Gen.dat0 (F := Ideal) V c).arrAt_eq_of_cover 2 (G0 V c) (fun t _ => flushed0_eq V c t) cover0

end Cert.KernelIdeal.RegionValue

end
-- ==== Proof.Region1Pay.lean ====
/-
  The second grid computation's arithmetic on one block, read entry by entry over the extended reals.

  On a block x of 4000 rows (4000 × 32) and the whole weight w (32 × 80) the body applies the exponential
  linear unit to every entry of x — the entry itself where it exceeds zero, e^entry − 1 elsewhere, written
  with a comparison against the zero word, a subtraction of the word of 1 and a selection —, converts both
  operands to the narrower float format (the identity on extended reals), and multiplies them on the matrix
  unit into the all-zero 4000 × 80 accumulator. Entry (p, q) of the result is therefore the sum over k < 32
  of elu(x(p, k)) · w(k, q).
-/
import proofs.«135999_j48524540510799_1_alg».proof.Proof.Gen.KernelIdeal.Skeleton
import proofs.«135999_j48524540510799_1_alg».proof.Proof.LibPlainDot
import proofs.«135999_j48524540510799_1_alg».proof.Proof.Spec
import Idealize.ShloMosaic.Lib.Pipeline.Value

noncomputable section

open scoped BigOperators

namespace Cert.KernelIdeal.RegionValue

open Idealize.ShloMosaic Idealize.ShloMosaic.ValueIdx Cert.KernelIdeal

/-- Entry (p, q) of the block product: the sum over the 32 shared coordinates, the left factor passed
    through the unit. -/
theorem pay1_ix (x : Vec Ideal S4000x32 .f32) (w : Vec Ideal S32x80 .f32) (p : Fin 4000) (q : Fin 80) :
    Gen.k1_pay1 (F := Ideal) x w (ix2 p q) = ∑ k : Fin 32, Cert.Spec.eluK (x (ix2 p k)) * w (ix2 k q) := by
  unfold Gen.k1_pay1
  have e1 : shapeCast S4000x32 x Gen.shapeCasts_S4000x32_S4000x32 = x := shapeCast_self _ _
  have e2 : shapeCast S32x80 w Gen.shapeCasts_S32x80_S32x80 = w := shapeCast_self _ _
  show matmul (φ₁ := .f32) (φ₂ := .f32) (DotDims.plain 4000 32 80) none
    (fun i => Cert.Spec.eluK (shapeCast S4000x32 x Gen.shapeCasts_S4000x32_S4000x32 i))
    (shapeCast S32x80 w Gen.shapeCasts_S32x80_S32x80)
    (constant (F := Ideal) S4000x80 .f32 0x00000000#32) (ix2 p q) = _
  rw [e1, e2]
  exact Cert.LibPlainDot.matmul_zero_apply (n := 4000) (a := 32) (b := 80) none (fun i => Cert.Spec.eluK (x i)) w p q

/-- The same at an arbitrary index j of the block. -/
theorem pay1_apply (x : Vec Ideal S4000x32 .f32) (w : Vec Ideal S32x80 .f32) (j : S4000x80.Idx) :
    Gen.k1_pay1 (F := Ideal) x w j = ∑ k : Fin 32, Cert.Spec.eluK (x (ix2 (j 0) k)) * w (ix2 k (j 1)) := by
  obtain ⟨p, q, rfl⟩ : ∃ (p : Fin 4000) (q : Fin 80), j = ix2 p q := ⟨j 0, j 1, eq_ix2 j⟩
  exact pay1_ix x w p q

end Cert.KernelIdeal.RegionValue

end
-- ==== Proof.Region1Blocks.lean ====
/-
  The second grid computation, block by block.

  The grid has 25 points. At point t the pipeline stages rows 4000·t … 4000·t + 3999 of the 100000 × 32
  array and the whole 32 × 80 weight, runs the body on them, and writes the 4000 × 80 result back to rows
  4000·t … 4000·t + 3999 of the 100000 × 80 output. Entry (p, q) of that result is the sum over k of
  elu(x(4000·t + p, k)) · w(k, q), elu the exponential linear unit: row 4000·t + p of the product of the
  first array, passed entry by entry through the unit, with the second. So what each point writes back is
  the restriction, to its rows, of ONE whole-array function.
-/
import proofs.«135999_j48524540510799_1_alg».proof.Proof.Gen.KernelIdeal.Frame
import proofs.«135999_j48524540510799_1_alg».proof.Proof.Spec
import proofs.«135999_j48524540510799_1_alg».proof.Proof.Region1Pay
import Idealize.ShloMosaic.Lib.Pipeline.Value

noncomputable section

open scoped BigOperators

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-block access, as the constant function. -/
theorem offz1 : (![0, 0] : Fin 2 → Nat) = fun _ => 0 := funext fun a => by fin_cases a <;> rfl

/-- The printed index maps, decided once over the 25 grid points: at point t the row-block windows (the
    input rows and the output rows) sit at block (t, 0), the weight window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input window's block at point t is rows 4000·t … 4000·t + 3999 of the 100000 × 32 array. -/
theorem iblk1_0_apply (t : Fin cfg1.N) (y : S4000x32.Idx) (i : S100000x32.Idx)
    (h0 : (i 0).val = 4000 * t.val + (y 0).val) (h1 : (i 1).val = (y 1).val) :
    (Gen.iblk1 (F := Ideal) V c 0 t : Vec Ideal S4000x32 .f32) y = (V c (Pipeline.arrRef spec1 0) : S100000x32.Idx → EReal) i := by
  obtain ⟨e0, e1, e2, e3, e4, e5⟩ := idx_facts1 t
  unfold Gen.iblk1
  rw [View.read_apply]
  show (V c (Pipeline.arrRef spec1 0) : S100000x32.Idx → EReal) _ = _
  congr 1
  funext a
  apply Fin.ext
  match a with
  | ⟨0, _⟩ => show win1_0.index t (0 : Fin 2) * 4000 + 1 * (y 0).val = (i 0).val; omega
  | ⟨1, _⟩ => show win1_0.index t (1 : Fin 2) * 32 + 1 * (y 1).val = (i 1).val; omega

/-- The weight window's block at every point is the whole 32 × 80 array. -/
theorem iblk1_1_apply (t : Fin cfg1.N) (y i : S32x80.Idx) (h0 : (i 0).val = (y 0).val) (h1 : (i 1).val = (y 1).val) :
    (Gen.iblk1 (F := Ideal) V c 1 t : Vec Ideal S32x80 .f32) y = (V c (Pipeline.arrRef spec1 1) : S32x80.Idx → EReal) i := by
  obtain ⟨e0, e1, e2, e3, e4, e5⟩ := idx_facts1 t
  unfold Gen.iblk1
  rw [View.read_apply]
  show (V c (Pipeline.arrRef spec1 1) : S32x80.Idx → EReal) _ = _
  congr 1
  funext a
  apply Fin.ext
  match a with
  | ⟨0, _⟩ => show win1_1.index t (0 : Fin 2) * 32 + 1 * (y 0).val = (i 0).val; omega
  | ⟨1, _⟩ => show win1_1.index t (1 : Fin 2) * 80 + 1 * (y 1).val = (i 1).val; omega

/-- The whole-array function the blocks are restrictions of: the unit applied to every entry of the first
    array the region finds, times the second. -/
abbrev G1 : S100000x80.Idx → EReal :=
  Cert.Spec.mm (n := 100000) (a := 32) (b := 80) (Cert.Spec.eluAll (s := Cert.Spec.Sh 100000 32) (V c (Pipeline.arrRef spec1 0)))
    (V c (Pipeline.arrRef spec1 1))

/-- What point t writes back is block t of that function: its entry (p, q) is row 4000·t + p of the first
    array, passed through the unit, against column q of the second. -/
theorem flushed1_eq (t : Fin cfg1.N) :
    (Gen.dat1 (F := Ideal) V c).flushed 2 t = ((cfg1.win 2).blk t).view.read (Elt Ideal) (G1 V c) := by
  show (cfg1.win 2).cut (grid1.coords t) ((Gen.dat1 (F := Ideal) V c).after 2 t) = _
  rw [Gen.after1_2]
  unfold Gen.out1_2
  rw [View.canon_unit_zero offz1]
  simp only [View.ld_unit_zero (S := S4000x32) offz1, View.ld_unit_zero (S := S32x80) offz1]
  obtain ⟨e0, e1, e2, e3, e4, e5⟩ := idx_facts1 t
  funext j
  show Gen.k1_pay1 (F := Ideal) (Gen.iblk1 V c 0 t) (Gen.iblk1 V c 1 t) j = G1 V c (((cfg1.win 2).blk t).view.emb j)
  refine (pay1_apply _ _ j).trans ?_
  refine Finset.sum_congr rfl fun k _ => ?_
  refine congrArg₂ (· * ·) (congrArg Cert.Spec.eluK (iblk1_0_apply V c t _ _ ?_ ?_)) (iblk1_1_apply V c t _ _ ?_ ?_)
  · show win1_2.index t (0 : Fin 2) * 4000 + 1 * (j 0).val = 4000 * t.val + (j 0).val
    omega
  · rfl
  · rfl
  · show win1_2.index t (1 : Fin 2) * 80 + 1 * (j 1).val = (j 1).val
    omega

end Cert.KernelIdeal.RegionValue

end
-- ==== Proof.Region1.lean ====
/-
  The second grid computation as a whole: the output array after the 25 points is the matrix product of
  the first input, passed entry by entry through the exponential linear unit, with the second.

  Row r of the 100000-row output lies in the block of point r / 4000 (rows 4000·(r / 4000) … + 3999, all
  80 columns), and every point writes its block back; each block written is the restriction of that one
  function to its rows. Blocks that cover the array and agree with one function leave the array holding
  that function.
-/
import proofs.«135999_j48524540510799_1_alg».proof.Proof.Gen.KernelIdeal.Frame
import proofs.«135999_j48524540510799_1_alg».proof.Proof.Spec
import proofs.«135999_j48524540510799_1_alg».proof.Proof.Region1Blocks
import Idealize.ShloMosaic.Lib.Pipeline.Value

noncomputable section

open scoped BigOperators

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- An index of the 100000 × 80 array lies in point t's block iff each coordinate lies in the block's
    range on its axis. -/
theorem mem_blk1 (t : Fin cfg1.N) (i : S100000x80.Idx) :
    i ∈ ((cfg1.win 2).blk t).view.set ↔ ∀ a : Fin 2, win1_2.index t a * S4000x80.size a ≤ (i a).val ∧ (i a).val < win1_2.index t a * S4000x80.size a + S4000x80.size a := by
  show i ∈ ((View.whole main_v99).slice (win1_2.rect t)).set ↔ _
  rw [View.set_slice_whole, Rect.mem_set_unit]
  exact Iff.rfl

/-- Every row r of the array is written back by some point: the point r / 4000, whose block is rows
    4000·(r / 4000) … 4000·(r / 4000) + 3999 and all 80 columns. -/
theorem cover1 (i : S100000x80.Idx) :
    ∃ t : Fin cfg1.N, (cfg1.win 2).flush t = true ∧ i ∈ ((cfg1.win 2).blk t).view.set := by
  have hi0 : (i 0).val < 100000 := (i 0).isLt
  have hi1 : (i 1).val < 80 := (i 1).isLt
  have hN : cfg1.N = 25 := N_1
  have hlt : (i 0).val / 4000 < cfg1.N := by rw [hN]; omega
  obtain ⟨e0, e1, e2, e3, e4, e5⟩ := idx_facts1 ⟨(i 0).val / 4000, hlt⟩
  have e4' : win1_2.index ⟨(i 0).val / 4000, hlt⟩ (0 : Fin 2) = (i 0).val / 4000 := e4
  refine ⟨⟨(i 0).val / 4000, hlt⟩, flush1_2 _, ?_⟩
  rw [mem_blk1]
  intro a
  match a with
  | ⟨0, _⟩ =>
    show win1_2.index ⟨(i 0).val / 4000, hlt⟩ (0 : Fin 2) * 4000 ≤ (i 0).val ∧ (i 0).val < win1_2.index ⟨(i 0).val / 4000, hlt⟩ (0 : Fin 2) * 4000 + 4000
    omega
  | ⟨1, _⟩ =>
    show win1_2.index ⟨(i 0).val / 4000, hlt⟩ (1 : Fin 2) * 80 ≤ (i 1).val ∧ (i 1).val < win1_2.index ⟨(i 0).val / 4000, hlt⟩ (1 : Fin 2) * 80 + 80
    omega

/-- THE SECOND REGION'S VALUE: after its 25 points the output array holds the matrix product of the first
    array the region found, passed entry by entry through the exponential linear unit, with the second —
    every block written back is the restriction of that one function, and the blocks cover the array. -/
theorem region1 : (Gen.dat1 (F := Ideal) V c).arrAt 2 cfg1.N
    = Cert.Spec.mm (n := 100000) (a := 32) (b := 80) (Cert.Spec.eluAll (s := Cert.Spec.Sh 100000 32) (V c (Pipeline.arrRef spec1 0))) (V c (Pipeline.arrRef spec1 1)) :=
  (Gen.dat1 (F := Ideal) V c).arrAt_eq_of_cover 2 (G1 V c) (fun t _ => flushed1_eq V c t) cover1

end Cert.KernelIdeal.RegionValue

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.Region2Pay.lean ====
/-
  One 4000-row block of the third grid computation, read as mathematics.

  The body takes a 4000 × 80 block x, the 80 × 40 weight w and the 1 × 40 bias row, and stores

      z = x · w + bias            (the bias row added to every row of the product),
      s = z − M,   M(p) = max over the 40 lanes of row p of z   (a fold of max from −∞),
      s − log (sum over the 40 lanes of row p of e^s).

  Every step acts on a row at a time, so the stored block is the row-wise log-softmax of the affine map — the
  specification's `lsm (logits x w bias)` at 4000 rows. The format changes on the way into the matrix unit are the
  identity on extended reals; the maximum and the sum over the lanes are a fold of `max` and a finite sum over the
  lane coordinate; the two "kept as a column" steps (a 4000-vector viewed as a 4000 × 1 column, then repeated along
  the 40 lanes) read the per-row quantity of row p at every entry (p, c).
-/
import proofs.«135999_j48524540510799_1_alg».proof.Proof.Gen.KernelIdeal.Skeleton
import proofs.«135999_j48524540510799_1_alg».proof.Proof.Spec
import proofs.«135999_j48524540510799_1_alg».proof.Proof.LibPlainDot
import proofs.«135999_j48524540510799_1_alg».proof.Proof.LibKeepDims
import Idealize.ShloMosaic.Lib.ValueLayout

noncomputable section

open scoped BigOperators

namespace Cert.KernelIdeal.Region2Pay

open Idealize.ShloMosaic Idealize.ShloMosaic.ValueIdx Cert.KernelIdeal Cert.KernelIdeal.Gen

/-! ## The body's value as three named stages -/

/-- The affine stage: the product of the block with the weight, into the zero accumulator, plus the bias row
    repeated along the rows. -/
def affine (x0 : Vec Ideal S4000x80 .f32) (x1 : Vec Ideal S80x40 .f32) (x2 : Vec Ideal S1x40 .f32) : FVec Ideal S4000x40 .f32 :=
  addf
    (matmul dot_S4000x80_S80x40_S4000x40_1_0_0_1_n_n none
      (truncf .bf16 (shapeCast S4000x80 x0 shapeCasts_S4000x80_S4000x80) bitsLt_bf16_f32)
      (truncf .bf16 x1 bitsLt_bf16_f32) (constant S4000x40 .f32 0x00000000#32))
    (broadcastTo S4000x40 (shapeCast S1x40 x2 shapeCasts_S1x40_S1x40) broadcasts_S1x40_S4000x40)

/-- Each row's maximum over the lanes, kept as a column and repeated along the lanes. -/
def rowMaxCol (z : FVec Ideal S4000x40 .f32) : FVec Ideal S4000x40 .f32 :=
  broadcastTo S4000x40
    (shapeCast S4000x1 (multiReduction .maximumf [1] S4000 z 0xFF800000#32 reduces_S4000x40_S4000 (.inl rfl) rfl)
      shapeCasts_S4000_S4000x1)
    broadcasts_S4000x1_S4000x40

/-- The normalizing stage: subtract the row maximum, then the logarithm of the row's sum of exponentials. -/
def normalize (z : FVec Ideal S4000x40 .f32) : FVec Ideal S4000x40 .f32 :=
  subf (subf z (rowMaxCol z))
    (broadcastTo S4000x40
      (log (shapeCast S4000x1
        (multiReduction .add [1] S4000 (exp (subf z (rowMaxCol z))) 0x00000000#32 reduces_S4000x40_S4000 (.inl rfl) rfl)
        shapeCasts_S4000_S4000x1))
      broadcasts_S4000x1_S4000x40)

/-- The stored value is the normalizing stage of the affine stage. -/
theorem pay_stages (x0 : Vec Ideal S4000x80 .f32) (x1 : Vec Ideal S80x40 .f32) (x2 : Vec Ideal S1x40 .f32) :
    k2_pay1 (F := Ideal) x0 x1 x2 = normalize (affine x0 x1 x2) := rfl

/-! ## The affine stage is the specification's -/

/-- Entry (p, q) of the affine stage: the sum over k of x(p, k) · w(k, q), plus the bias row's entry q. The format
    changes are the identity on extended reals, the product is read through its one contracted coordinate, and the
    bias row is read at row 0 whatever the row p. -/
theorem affine_eq (x0 : Vec Ideal S4000x80 .f32) (x1 : Vec Ideal S80x40 .f32) (x2 : Vec Ideal S1x40 .f32) :
    affine x0 x1 x2 = Cert.Spec.logits (n := 4000) (a := 80) (b := 40) x0 x1 x2 := by
  funext j
  obtain ⟨p, q, rfl⟩ : ∃ (p : Fin 4000) (q : Fin 40), j = ix2 p q := ⟨j 0, j 1, eq_ix2 j⟩
  refine congrArg₂ (· + ·) ((Cert.LibPlainDot.matmul_zero_apply none _ _ p q).trans ?_) ?_
  · refine Finset.sum_congr rfl fun k _ => ?_
    show shapeCast S4000x80 x0 shapeCasts_S4000x80_S4000x80 (ix2 p k) * x1 (ix2 k q) = x0 (ix2 p k) * x1 (ix2 k q)
    rw [shapeCast_self]
  · refine (broadcastTo_1b_ab_apply _ _ p q).trans ?_
    rw [shapeCast_self]

/-! ## The normalizing stage is the specification's -/

/-- The source index of lane l of row p, as the lane reduction names it, is (p, l). -/
theorem lift_row (p : Fin 4000) (l : Fin 40) : reduces_S4000x40_S4000.lift (ix1 p) l = ix2 p l :=
  funext fun c => Fin.ext (by match c with | ⟨0, _⟩ => rfl | ⟨1, _⟩ => rfl)

/-- The repeated column of row maxima reads, at (p, c), row p's maximum: the fold of `max` from the value of the
    −∞ pattern over the row's 40 entries. -/
theorem rowMaxCol_apply (z : FVec Ideal S4000x40 .f32) (p : Fin 4000) (c : Fin 40) :
    rowMaxCol z (ix2 p c) = Cert.Spec.rowMax (n := 4000) (b := 40) z p := by
  refine (Cert.Lib.KeepDims.broadcastTo_a1_ab_apply _ _ p c).trans ?_
  refine (Cert.Lib.KeepDims.shapeCast_a_a1_apply _ _ p 0).trans ?_
  refine (Ideal.multiReduction_maximumf_single z 0xFF800000#32 reduces_S4000x40_S4000 (.inl rfl) rfl (ix1 p)).trans ?_
  have e : (z ∘ reduces_S4000x40_S4000.lift (ix1 p)) = fun l : Fin 40 => z (ix2 p l) :=
    funext fun l => congrArg z (lift_row p l)
  rw [e]
  rfl

/-- Entry (p, q) of the normalizing stage: (z(p, q) − M) − log (sum over l of e^(z(p, l) − M)), M row p's maximum. -/
theorem normalize_eq (z : FVec Ideal S4000x40 .f32) : normalize z = Cert.Spec.lsm (n := 4000) (b := 40) z := by
  funext j
  obtain ⟨p, q, rfl⟩ : ∃ (p : Fin 4000) (q : Fin 40), j = ix2 p q := ⟨j 0, j 1, eq_ix2 j⟩
  show (z (ix2 p q) - rowMaxCol z (ix2 p q)) - _ = (z (ix2 p q) - Cert.Spec.rowMax z p) - _
  rw [rowMaxCol_apply z p q]
  refine congrArg (fun t => (z (ix2 p q) - Cert.Spec.rowMax (n := 4000) (b := 40) z p) - t) ?_
  refine (Cert.Lib.KeepDims.broadcastTo_a1_ab_apply _ _ p q).trans ?_
  refine congrArg Ideal.log ?_
  refine (Cert.Lib.KeepDims.shapeCast_a_a1_apply _ _ p 0).trans ?_
  refine (Ideal.multiReduction_add_single (exp (subf z (rowMaxCol z))) 0x00000000#32 reduces_S4000x40_S4000 (.inl rfl) rfl (ix1 p)).trans ?_
  refine Finset.sum_congr rfl fun l _ => ?_
  rw [lift_row p l]
  show Ideal.exp (z (ix2 p l) - rowMaxCol z (ix2 p l)) = _
  rw [rowMaxCol_apply z p l]

/-! ## The block -/

/-- The value the body stores is the row-wise log-softmax of the affine map of the three loaded blocks. -/
theorem pay_eq (x0 : Vec Ideal S4000x80 .f32) (x1 : Vec Ideal S80x40 .f32) (x2 : Vec Ideal S1x40 .f32) :
    k2_pay1 (F := Ideal) x0 x1 x2
      = Cert.Spec.lsm (n := 4000) (b := 40) (Cert.Spec.logits (n := 4000) (a := 80) (b := 40) x0 x1 x2) := by
  rw [pay_stages, affine_eq, normalize_eq]

end Cert.KernelIdeal.Region2Pay

end
-- ==== Proof.Region2Rows.lean ====
/-
  The affine map followed by the row-wise log-softmax acts on each row by itself: row r of
  `lsm (logits x w bias)` depends on x through row r of x only (and on the whole of w and bias).

  So if row p of an operand x agrees with row r of another operand x' — as row p of a block of rows agrees with
  the row of the whole array it was cut from — then the two results agree on those rows, lane by lane: the two
  rows of logits are the same sums, hence have the same maximum and the same sum of exponentials.
-/
import proofs.«135999_j48524540510799_1_alg».proof.Proof.Spec

noncomputable section

open scoped BigOperators

namespace Cert.Region2Rows

open Idealize.ShloMosaic Idealize.ShloMosaic.ValueIdx Cert.Spec

/-- Rows that agree give the same row of the result, whatever the two operands' numbers of rows. -/
theorem lsm_logits_row {n n' a b : Nat} (x : FVec Ideal (Sh n a) .f32) (x' : FVec Ideal (Sh n' a) .f32)
    (w : FVec Ideal (Sh a b) .f32) (bias : FVec Ideal (Sh 1 b) .f32) (p : Fin n) (r : Fin n')
    (h : ∀ k : Fin a, x (ix2 p k) = x' (ix2 r k)) (q : Fin b) :
    lsm (logits x w bias) (ix2 p q) = lsm (logits x' w bias) (ix2 r q) := by
  have hz : ∀ l : Fin b, logits x w bias (ix2 p l) = logits x' w bias (ix2 r l) := fun l => by
    show (∑ k : Fin a, x (ix2 p k) * w (ix2 k l)) + bias (ix2 0 l) = (∑ k : Fin a, x' (ix2 r k) * w (ix2 k l)) + bias (ix2 0 l)
    simp only [h]
  have hM : rowMax (logits x w bias) p = rowMax (logits x' w bias) r := by
    unfold rowMax
    simp only [hz]
  show (logits x w bias (ix2 p q) - rowMax (logits x w bias) p)
        - Ideal.log (∑ l : Fin b, Ideal.exp (logits x w bias (ix2 p l) - rowMax (logits x w bias) p))
      = (logits x' w bias (ix2 r q) - rowMax (logits x' w bias) r)
        - Ideal.log (∑ l : Fin b, Ideal.exp (logits x' w bias (ix2 r l) - rowMax (logits x' w bias) r))
  simp only [hz, hM]

/-- The same for a block of 4000 rows cut from 100000 at row offset `T · 4000`: entry `y` of the block's result is
    entry `i` of the whole array's result when `i` is `y` moved down by the offset. -/
theorem lsm_logits_block (X : FVec Ideal (Sh 100000 80) .f32) (w : FVec Ideal (Sh 80 40) .f32) (bias : FVec Ideal (Sh 1 40) .f32)
    (x0 : FVec Ideal (Sh 4000 80) .f32) (T : Nat)
    (h0 : ∀ (p : Fin 4000) (k : Fin 80) (r : Fin 100000), r.val = T * 4000 + p.val → x0 (ix2 p k) = X (ix2 r k))
    (y : (Sh 4000 40).Idx) (i : (Sh 100000 40).Idx) (hi0 : (i 0).val = T * 4000 + (y 0).val) (hi1 : (i 1).val = (y 1).val) :
    lsm (logits x0 w bias) y = lsm (logits X w bias) i := by
  obtain ⟨p, q, rfl⟩ : ∃ (p : Fin 4000) (q : Fin 40), y = ix2 p q := ⟨y 0, y 1, eq_ix2 y⟩
  obtain ⟨r, q', rfl⟩ : ∃ (r : Fin 100000) (q' : Fin 40), i = ix2 r q' := ⟨i 0, i 1, eq_ix2 i⟩
  obtain rfl : q' = q := Fin.ext hi1
  exact lsm_logits_row x0 X w bias p r (fun k => h0 p k r hi0) q'

end Cert.Region2Rows

end
-- ==== Proof.Region2.lean ====
/-
  The third grid computation's output array: every 4000-row block of it is written once, with the row-wise
  log-softmax of the affine map of the matching 4000 rows of the first operand, so the whole array ends holding
  `lsm (logits x w bias)` of the arrays the computation found on entry.

  * Grid point t (of 25) reads rows 4000·t … 4000·t + 3999 of the 100000 × 80 operand, the whole weight and the whole
    bias row, and writes rows 4000·t … 4000·t + 3999 of the 100000 × 40 output (the index maps, decided over the grid).
  * What it writes is the block computation's value at those blocks, which is `lsm (logits ·)` of the blocks; that
    function acts row by row, so the written block is the same rows of `lsm (logits ·)` of the whole arrays.
  * Row r of the output is covered by point r / 4000, so the blocks cover the array.
-/
import proofs.«135999_j48524540510799_1_alg».proof.Proof.Gen.KernelIdeal.Frame
import proofs.«135999_j48524540510799_1_alg».proof.Proof.Spec
import proofs.«135999_j48524540510799_1_alg».proof.Proof.Region2Pay
import proofs.«135999_j48524540510799_1_alg».proof.Proof.Region2Rows
import Idealize.ShloMosaic.Lib.Pipeline.Value

noncomputable section

namespace Cert.KernelIdeal.Region2Blocks

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

theorem zeros2 : (![0, 0] : Fin 2 → Nat) = fun _ => 0 := funext fun a => by fin_cases a <;> rfl

/-- The index maps over the 25 grid points: the row-block operand and the output move one block of rows per point,
    the weight and the bias row stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the output array ends holding: the specification's function of the three arrays found on entry. -/
abbrev G : FVec Ideal (Cert.Spec.Sh 100000 40) .f32 :=
  Cert.Spec.lsm (n := 100000) (b := 40) (Cert.Spec.logits (n := 100000) (a := 80) (b := 40)
    (V c (Pipeline.arrRef spec2 0)) (V c (Pipeline.arrRef spec2 1)) (V c (Pipeline.arrRef spec2 2)))

/-- Entry (p, k) of the first operand's block at point t is entry (4000·t + p, k) of the array. -/
theorem blk0_apply (t : Fin cfg2.N) (p : Fin 4000) (k : Fin 80) (r : Fin 100000) (hr : r.val = t.val * 4000 + p.val) :
    (iblk2 V c 0 t : Vec Ideal S4000x80 .f32) (ix2 p k)
      = (V c (Pipeline.arrRef spec2 0) : FVec Ideal (Cert.Spec.Sh 100000 80) .f32) (ix2 r k) := by
  obtain ⟨e0, e1, -⟩ := idx_facts t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 4000 + 1 * p.val = r.val; omega
  | ⟨1, _⟩ => show win2_0.index t (1 : Fin 2) * 80 + 1 * k.val = k.val; omega

/-- The weight's block at every point is the whole weight. -/
theorem blk1_eq (t : Fin cfg2.N) : (iblk2 V c 1 t : Vec Ideal S80x40 .f32) = V c (Pipeline.arrRef spec2 1) := by
  obtain ⟨-, -, e2, e3, -⟩ := idx_facts t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 80 + 1 * (y 0).val = (y 0).val; omega
  | ⟨1, _⟩ => show win2_1.index t (1 : Fin 2) * 40 + 1 * (y 1).val = (y 1).val; omega

/-- The bias row's block at every point is the whole bias row. -/
theorem blk2_eq (t : Fin cfg2.N) : (iblk2 V c 2 t : Vec Ideal S1x40 .f32) = V c (Pipeline.arrRef spec2 2) := by
  obtain ⟨-, -, -, -, e4, e5, -⟩ := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 40 + 1 * (y 1).val = (y 1).val; omega

/-- Grid point t writes back rows 4000·t … 4000·t + 3999 of `G`: the block computation's value at the point's three
    blocks is `lsm (logits ·)` of them, and that function acts row by row. -/
theorem flushed_eq (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero zeros2]
  simp only [View.ld_unit_zero (S := S4000x80) zeros2, View.ld_unit_zero (S := S80x40) zeros2,
    View.ld_unit_zero (S := S1x40) zeros2]
  obtain ⟨-, -, -, -, -, -, e6, e7⟩ := idx_facts t
  funext j
  show k2_pay1 (F := Ideal) (iblk2 V c 0 t) (iblk2 V c 1 t) (iblk2 V c 2 t) j = G V c (((cfg2.win 3).blk t).view.emb j)
  refine (congrFun (Cert.KernelIdeal.Region2Pay.pay_eq (iblk2 V c 0 t) (iblk2 V c 1 t) (iblk2 V c 2 t)) j).trans ?_
  rw [blk1_eq V c t, blk2_eq V c t]
  exact Cert.Region2Rows.lsm_logits_block (V c (Pipeline.arrRef spec2 0)) (V c (Pipeline.arrRef spec2 1))
    (V c (Pipeline.arrRef spec2 2)) (iblk2 V c 0 t) t.val (fun p k r hr => blk0_apply V c t p k r hr) j
    (((cfg2.win 3).blk t).view.emb j)
    (by show win2_3.index t (0 : Fin 2) * 4000 + 1 * (j 0).val = t.val * 4000 + (j 0).val; omega)
    (by show win2_3.index t (1 : Fin 2) * 40 + 1 * (j 1).val = (j 1).val; omega)

/-- Membership in point t's output block, coordinate by coordinate: on each axis the coordinate lies in the range
    [index · size, index · size + size) of the block. -/
theorem mem_blk (t : Fin cfg2.N) (i : S100000x40.Idx) :
    i ∈ ((cfg2.win 3).blk t).view.set ↔ ∀ a : Fin 2, win2_3.index t a * S4000x40.size a ≤ (i a).val ∧ (i a).val < win2_3.index t a * S4000x40.size a + S4000x40.size a := by
  show i ∈ ((View.whole main_v136).slice (win2_3.rect t)).set ↔ _
  rw [View.set_slice_whole, Rect.mem_set_unit]
  exact Iff.rfl

/-- Row r is in the block of point r / 4000: the 25 blocks cover the array. -/
theorem cover (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : grid2.N = 25 := N_2
  obtain ⟨t, ht⟩ : ∃ t : Fin cfg2.N, t.val = (i 0).val / 4000 :=
    ⟨⟨(i 0).val / 4000, by show (i 0).val / 4000 < grid2.N; omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 40 ≤ (i 1).val ∧ (i 1).val < win2_3.index t (1 : Fin 2) * 40 + 40; omega

end Cert.KernelIdeal.Region2Blocks

namespace Cert.KernelIdeal.RegionValue

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

/-- After its 25 points the third grid computation's output array holds the row-wise log-softmax of the affine map
    of the arrays it found on entry: every point writes its rows of that function, and the points' blocks cover the array. -/
theorem region2 : (Gen.dat2 (F := Ideal) V c).arrAt 3 cfg2.N
    = Cert.Spec.lsm (n := 100000) (b := 40) (Cert.Spec.logits (n := 100000) (a := 80) (b := 40) (V c (Pipeline.arrRef spec2 0)) (V c (Pipeline.arrRef spec2 1)) (V c (Pipeline.arrRef spec2 2))) :=
  (dat2 V c).arrAt_eq_of_cover 3 (Cert.KernelIdeal.Region2Blocks.G V c)
    (fun t _ => Cert.KernelIdeal.Region2Blocks.flushed_eq V c t) Cert.KernelIdeal.Region2Blocks.cover

end Cert.KernelIdeal.RegionValue

end
-- ==== Proof.KerValue.lean ====
/-
  The idealized kernel's result as a function of its thirteen arguments.

  The contents of the result buffer at the last segment boundary are walked back: the third grid computation's output array
  is the log-softmax of the affine map of what it read (the region's value); what it read are stretch 2's stage functions of
  the second grid computation's output and of the graph buffers; and so on back to the launch memory. The graph buffers (per
  graph: sources, destinations, normalisation) are written once, in stretch 0, and are carried unchanged across every later
  boundary, as are the biases and the combining weight.
-/
import proofs.«135999_j48524540510799_1_alg».proof.Proof.KerHost0
import proofs.«135999_j48524540510799_1_alg».proof.Proof.KerHost1
import proofs.«135999_j48524540510799_1_alg».proof.Proof.KerHost2
import proofs.«135999_j48524540510799_1_alg».proof.Proof.Region0
import proofs.«135999_j48524540510799_1_alg».proof.Proof.Region1
import proofs.«135999_j48524540510799_1_alg».proof.Proof.Region2
import proofs.«135999_j48524540510799_1_alg».proof.Proof.Gen.KernelIdeal.Frame

set_option maxRecDepth 16384

noncomputable section

namespace Cert.KernelIdeal.KerValue

open Idealize.ShloMosaic Idealize.ShloMosaic.TcCoe Idealize.SL.Sem Idealize.ShloMosaic.StableHlo
open Cert.KernelIdeal Cert.KernelIdeal.Gen Cert.KerStages Cert.Stages

/-- Equal arguments, equal values: for a function of three arguments. -/
theorem congr3 {α β γ δ : Sort _} (f : α → β → γ → δ) {a a' : α} {b b' : β} {d d' : γ} (ha : a = a') (hb : b = b') (hd : d = d') :
    f a b d = f a' b' d' := by
  subst ha hb hd
  rfl

variable (m : (ℓ : Loc nD τ sig) → Buf (Elt Ideal) ℓ) (ρ : Dev nD → PrngReg) (c : Dev nD)

/-- The graph buffers, the late biases and the combining weight hold, in the contents W, what stretch 0 left in them
    (stage functions of the two edge lists) and what was launched. -/
structure Carried (W : Valuation τ sig (Elt Ideal)) : Prop where
  v9 : W (Proc.devRef .tc main_v9 : DevRef τ sig) = srcA (F := Ideal) (m ((c.tc : Thread nD τ).loc main_arg1))
  v10 : W (Proc.devRef .tc main_v10 : DevRef τ sig) = dstA (F := Ideal) (m ((c.tc : Thread nD τ).loc main_arg1))
  v32 : W (Proc.devRef .tc main_v32 : DevRef τ sig) = normA (F := Ideal) (srcA (F := Ideal) (m ((c.tc : Thread nD τ).loc main_arg1))) (dstA (F := Ideal) (m ((c.tc : Thread nD τ).loc main_arg1)))
  v34 : W (Proc.devRef .tc main_v34 : DevRef τ sig) = srcB (F := Ideal) (m ((c.tc : Thread nD τ).loc main_arg2))
  v35 : W (Proc.devRef .tc main_v35 : DevRef τ sig) = dstB (F := Ideal) (m ((c.tc : Thread nD τ).loc main_arg2))
  v57 : W (Proc.devRef .tc main_v57 : DevRef τ sig) = normB (F := Ideal) (srcB (F := Ideal) (m ((c.tc : Thread nD τ).loc main_arg2))) (dstB (F := Ideal) (m ((c.tc : Thread nD τ).loc main_arg2)))
  a6 : W (Proc.devRef .tc main_arg6 : DevRef τ sig) = (m ((c.tc : Thread nD τ).loc main_arg6))
  a10 : W (Proc.devRef .tc main_arg10 : DevRef τ sig) = (m ((c.tc : Thread nD τ).loc main_arg10))
  a11 : W (Proc.devRef .tc main_arg11 : DevRef τ sig) = (m ((c.tc : Thread nD τ).loc main_arg11))
  a12 : W (Proc.devRef .tc main_arg12 : DevRef τ sig) = (m ((c.tc : Thread nD τ).loc main_arg12))

/-- After stretch 0. -/
theorem carried1 : Carried m c (W1 m ρ c) where
  v9 := KerHost0.srcA_eq (W0 m ρ c)
  v10 := KerHost0.dstA_eq (W0 m ρ c)
  v32 := KerHost0.normA_eq (W0 m ρ c)
  v34 := KerHost0.srcB_eq (W0 m ρ c)
  v35 := KerHost0.dstB_eq (W0 m ρ c)
  v57 := KerHost0.normB_eq (W0 m ρ c)
  a6 := KerHost0.keep_arg6 (W0 m ρ c)
  a10 := KerHost0.keep_arg10 (W0 m ρ c)
  a11 := KerHost0.keep_arg11 (W0 m ρ c)
  a12 := KerHost0.keep_arg12 (W0 m ρ c)

/-- The first grid computation writes none of them. -/
theorem carried2 : Carried m c (W2 m ρ c) where
  v9 := (W2_of_ne m ρ c main_v9 (by decide)).trans (carried1 m ρ c).v9
  v10 := (W2_of_ne m ρ c main_v10 (by decide)).trans (carried1 m ρ c).v10
  v32 := (W2_of_ne m ρ c main_v32 (by decide)).trans (carried1 m ρ c).v32
  v34 := (W2_of_ne m ρ c main_v34 (by decide)).trans (carried1 m ρ c).v34
  v35 := (W2_of_ne m ρ c main_v35 (by decide)).trans (carried1 m ρ c).v35
  v57 := (W2_of_ne m ρ c main_v57 (by decide)).trans (carried1 m ρ c).v57
  a6 := (W2_of_ne m ρ c main_arg6 (by decide)).trans (carried1 m ρ c).a6
  a10 := (W2_of_ne m ρ c main_arg10 (by decide)).trans (carried1 m ρ c).a10
  a11 := (W2_of_ne m ρ c main_arg11 (by decide)).trans (carried1 m ρ c).a11
  a12 := (W2_of_ne m ρ c main_arg12 (by decide)).trans (carried1 m ρ c).a12

/-- Nor does stretch 1. -/
theorem carried3 : Carried m c (W3 m ρ c) where
  v9 := (KerHost1.keep_v9 (W2 m ρ c)).trans (carried2 m ρ c).v9
  v10 := (KerHost1.keep_v10 (W2 m ρ c)).trans (carried2 m ρ c).v10
  v32 := (KerHost1.keep_v32 (W2 m ρ c)).trans (carried2 m ρ c).v32
  v34 := (KerHost1.keep_v34 (W2 m ρ c)).trans (carried2 m ρ c).v34
  v35 := (KerHost1.keep_v35 (W2 m ρ c)).trans (carried2 m ρ c).v35
  v57 := (KerHost1.keep_v57 (W2 m ρ c)).trans (carried2 m ρ c).v57
  a6 := (KerHost1.keep_arg6 (W2 m ρ c)).trans (carried2 m ρ c).a6
  a10 := (KerHost1.keep_arg10 (W2 m ρ c)).trans (carried2 m ρ c).a10
  a11 := (KerHost1.keep_arg11 (W2 m ρ c)).trans (carried2 m ρ c).a11
  a12 := (KerHost1.keep_arg12 (W2 m ρ c)).trans (carried2 m ρ c).a12

/-- Nor the second grid computation. -/
theorem carried4 : Carried m c (W4 m ρ c) where
  v9 := (W4_of_ne m ρ c main_v9 (by decide)).trans (carried3 m ρ c).v9
  v10 := (W4_of_ne m ρ c main_v10 (by decide)).trans (carried3 m ρ c).v10
  v32 := (W4_of_ne m ρ c main_v32 (by decide)).trans (carried3 m ρ c).v32
  v34 := (W4_of_ne m ρ c main_v34 (by decide)).trans (carried3 m ρ c).v34
  v35 := (W4_of_ne m ρ c main_v35 (by decide)).trans (carried3 m ρ c).v35
  v57 := (W4_of_ne m ρ c main_v57 (by decide)).trans (carried3 m ρ c).v57
  a6 := (W4_of_ne m ρ c main_arg6 (by decide)).trans (carried3 m ρ c).a6
  a10 := (W4_of_ne m ρ c main_arg10 (by decide)).trans (carried3 m ρ c).a10
  a11 := (W4_of_ne m ρ c main_arg11 (by decide)).trans (carried3 m ρ c).a11
  a12 := (W4_of_ne m ρ c main_arg12 (by decide)).trans (carried3 m ρ c).a12

/-! ## The first grid computation -/

/-- Its output array: x · [W11 | W21]. -/
theorem proj_eq : W2 m ρ c (Proc.devRef .tc main_v59 : DevRef τ sig) = proj (m ((c.tc : Thread nD τ).loc main_arg0)) (m ((c.tc : Thread nD τ).loc main_arg3)) (m ((c.tc : Thread nD τ).loc main_arg7)) := by
  refine (W2_arr m ρ c 2).trans ?_
  refine (Cert.KernelIdeal.RegionValue.region0 (V1 m ρ) c).trans ?_
  unfold proj
  refine congrArg₂ (Cert.Spec.mm (n := 100000) (a := 512) (b := 32)) ?_ ?_
  · exact KerHost0.keep_arg0 (W0 m ρ c)
  · exact KerHost0.wcat_eq (W0 m ρ c)

/-! ## Stretch 1 and the second grid computation -/

/-- What the second grid computation reads as its first array: the aggregated halves side by side. -/
theorem hidden_eq : W3 m ρ c (Proc.devRef .tc main_v94 : DevRef τ sig)
    = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  refine (KerHost1.hidden_eq (W2 m ρ c)).trans ?_
  rw [(carried2 m ρ c).v9, (carried2 m ρ c).v10, (carried2 m ρ c).v32, (carried2 m ρ c).v34, (carried2 m ρ c).v35,
    (carried2 m ρ c).v57, proj_eq m ρ c,
    show W2 m ρ c (Proc.devRef .tc main_arg4 : DevRef τ sig) = (m ((c.tc : Thread nD τ).loc main_arg4)) from (W2_of_ne m ρ c main_arg4 (by decide)).trans (KerHost0.keep_arg4 (W0 m ρ c)),
    show W2 m ρ c (Proc.devRef .tc main_arg8 : DevRef τ sig) = (m ((c.tc : Thread nD τ).loc main_arg8)) from (W2_of_ne m ρ c main_arg8 (by decide)).trans (KerHost0.keep_arg8 (W0 m ρ c))]
  rfl

/-- … and as its second: the block-diagonal weight. -/
theorem wbd_eq : W3 m ρ c (Proc.devRef .tc main_v98 : DevRef τ sig) = wbd (m ((c.tc : Thread nD τ).loc main_arg5)) (m ((c.tc : Thread nD τ).loc main_arg9)) := by
  refine (KerHost1.wbd_eq (W2 m ρ c)).trans ?_
  rw [show W2 m ρ c (Proc.devRef .tc main_arg5 : DevRef τ sig) = (m ((c.tc : Thread nD τ).loc main_arg5)) from (W2_of_ne m ρ c main_arg5 (by decide)).trans (KerHost0.keep_arg5 (W0 m ρ c)),
    show W2 m ρ c (Proc.devRef .tc main_arg9 : DevRef τ sig) = (m ((c.tc : Thread nD τ).loc main_arg9)) from (W2_of_ne m ρ c main_arg9 (by decide)).trans (KerHost0.keep_arg9 (W0 m ρ c))]

/-- The second grid computation's output array. -/
theorem coded_eq : W4 m ρ c (Proc.devRef .tc main_v99 : DevRef τ sig)
    = coded (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))) (m ((c.tc : Thread nD τ).loc main_arg5)) (m ((c.tc : Thread nD τ).loc main_arg9)) := by
  refine (W4_arr m ρ c 2).trans ?_
  refine (Cert.KernelIdeal.RegionValue.region1 (V3 m ρ) c).trans ?_
  unfold coded
  refine congrArg₂ (fun h w => Cert.Spec.mm (n := 100000) (a := 32) (b := 80) (Cert.Spec.eluAll (s := Cert.Spec.Sh 100000 32) h) w) ?_ ?_
  · exact hidden_eq m ρ c
  · exact wbd_eq m ρ c

/-! ## Stretch 2 and the third grid computation -/

/-- What the third grid computation reads as its first array: the codings side by side. -/
theorem codings_eq : W5 m ρ c (Proc.devRef .tc main_v134 : DevRef τ sig)
    = codings (coded (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))) (m ((c.tc : Thread nD τ).loc main_arg5)) (m ((c.tc : Thread nD τ).loc main_arg9)))
        (m ((c.tc : Thread nD τ).loc main_arg1)) (m ((c.tc : Thread nD τ).loc main_arg2)) (m ((c.tc : Thread nD τ).loc main_arg6)) (m ((c.tc : Thread nD τ).loc main_arg10)) := by
  refine (KerHost2.codings_eq (W4 m ρ c)).trans ?_
  rw [(carried4 m ρ c).v9, (carried4 m ρ c).v10, (carried4 m ρ c).v32, (carried4 m ρ c).v34, (carried4 m ρ c).v35,
    (carried4 m ρ c).v57, (carried4 m ρ c).a6, (carried4 m ρ c).a10, coded_eq m ρ c]
  rfl

/-- The result: the kernel's value function of the launch contents of the thirteen arguments. -/
theorem value : W6 m ρ c (Proc.devRef .tc main_v136 : DevRef τ sig)
    = kerVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W6_arr m ρ c 3).trans ?_
  refine (Cert.KernelIdeal.RegionValue.region2 (V5 m ρ) c).trans ?_
  unfold kerVal
  refine congr3 (fun x w b => Cert.Spec.lsm (n := 100000) (b := 40) (Cert.Spec.logits (n := 100000) (a := 80) (b := 40) x w b)) ?_ ?_ ?_
  · exact codings_eq m ρ c
  · exact (KerHost2.keep_arg11 (W4 m ρ c)).trans (carried4 m ρ c).a11
  · exact (KerHost2.biasRow_eq (W4 m ρ c)).trans (congrArg biasRow (carried4 m ρ c).a12)

end Cert.KernelIdeal.KerValue

end
-- ==== Proof.BridgeProj.lean ====
/-
  One product for two: the matrix product of x with the two first-layer weights laid side by side has, in its columns
  0 … 15, the product x · W11 and, in its columns 16 … 31, the product x · W21. Entry (p, q) of x · [W11 | W21] is the sum
  over k of x(p, k) · [W11 | W21](k, q), and column q of the side-by-side matrix is column q of W11 for q < 16 and column
  q − 16 of W21 otherwise; the host's product is the same sum. No entry needs to be finite: the two sides are the same
  sum, term by term.
-/
import proofs.«135999_j48524540510799_1_alg».proof.Proof.KerStages
import proofs.«135999_j48524540510799_1_alg».proof.Proof.LibPlainDot
import Idealize.ShloMosaic.Lib.Pipeline.Value
import Idealize.ShloMosaic.Lib.ValueIdx
import Idealize.ShloMosaic.Lib.IdealHost

noncomputable section

open scoped BigOperators

namespace Cert.BridgeProj

open Idealize.ShloMosaic Idealize.ShloMosaic.ValueIdx Cert.KerStages Cert.Stages

variable [Cert.KernelIdeal.Facts₀] [Cert.ReferenceIdeal.Facts₀]

/-- Columns 0 … 15 of x · [W11 | W21] are x · W11. -/
theorem left16_proj (x : (⟨Cert.KernelIdeal.S100000x512, .f32⟩ : BufTy).Contents (Elt Ideal)) (w11 w21 : (⟨Cert.KernelIdeal.S512x16, .f32⟩ : BufTy).Contents (Elt Ideal)) :
    left16 (proj x w11 w21) = dotIn (F := Ideal) x w11 := by
  funext j
  obtain ⟨p, q, rfl⟩ : ∃ (p : Fin 100000) (q : Fin 16), j = ix2 p q := ⟨j 0, j 1, eq_ix2 j⟩
  have hq : q.val < 32 := by omega
  unfold left16
  refine (extractStridedSlice_apply ![0, 0] _ _ (ix2 p q) (ix2 p (⟨q.val, hq⟩ : Fin 32)) (fun a => by
    match a with
    | ⟨0, _⟩ => exact (Nat.zero_add _).symm
    | ⟨1, _⟩ => exact (Nat.zero_add _).symm)).trans ?_
  refine Eq.trans ?_ (Cert.LibPlainDot.dotGeneral_apply (n := 100000) (a := 512) (b := 16) none x w11 p q).symm
  show (∑ k : Fin 512, x (ix2 p k) * wcat w11 w21 (ix2 k (⟨q.val, hq⟩ : Fin 32))) = _
  refine Finset.sum_congr rfl fun k _ => ?_
  refine congrArg (x (ix2 p k) * ·) ?_
  unfold wcat
  exact concatenate_pair_apply_left (1 : Fin 2) w11 w21 _ (ix2 k (⟨q.val, hq⟩ : Fin 32)) rfl (ix2 k q) (fun b => by
    match b with
    | ⟨0, _⟩ => rfl
    | ⟨1, _⟩ => rfl)

/-- Columns 16 … 31 of x · [W11 | W21] are x · W21. -/
theorem right16_proj (x : (⟨Cert.KernelIdeal.S100000x512, .f32⟩ : BufTy).Contents (Elt Ideal)) (w11 w21 : (⟨Cert.KernelIdeal.S512x16, .f32⟩ : BufTy).Contents (Elt Ideal)) :
    right16 (proj x w11 w21) = dotIn (F := Ideal) x w21 := by
  funext j
  obtain ⟨p, q, rfl⟩ : ∃ (p : Fin 100000) (q : Fin 16), j = ix2 p q := ⟨j 0, j 1, eq_ix2 j⟩
  have hq : 16 + q.val < 32 := by omega
  unfold right16
  refine (extractStridedSlice_apply ![0, 16] _ _ (ix2 p q) (ix2 p (⟨16 + q.val, hq⟩ : Fin 32)) (fun a => by
    match a with
    | ⟨0, _⟩ => exact (Nat.zero_add _).symm
    | ⟨1, _⟩ => rfl)).trans ?_
  refine Eq.trans ?_ (Cert.LibPlainDot.dotGeneral_apply (n := 100000) (a := 512) (b := 16) none x w21 p q).symm
  show (∑ k : Fin 512, x (ix2 p k) * wcat w11 w21 (ix2 k (⟨16 + q.val, hq⟩ : Fin 32))) = _
  refine Finset.sum_congr rfl fun k _ => ?_
  refine congrArg (x (ix2 p k) * ·) ?_
  unfold wcat
  exact concatenate_pair_apply_right (1 : Fin 2) w11 w21 _ (ix2 k (⟨16 + q.val, hq⟩ : Fin 32)) rfl rfl (ix2 k q) (fun b hb => by
    match b with
    | ⟨0, _⟩ => rfl
    | ⟨1, _⟩ => exact (hb (Fin.ext rfl)).elim) (by show q.val + 16 = 16 + q.val; omega)

end Cert.BridgeProj

end
-- ==== Proof.BridgeCoded.lean ====
/-
  Two products for one: the matrix product of the two activated halves laid side by side with the 32 × 80 matrix that has
  W12 and W22 on its diagonal and zeros off it has, in its columns 0 … 39, the product of the first half with W12 and, in
  its columns 40 … 79, the product of the second half with W22. Entry (p, q) is a sum over 32 positions; it splits into the
  first 16 and the last 16; on one of the two halves every term is a product with an entry of a zero block, and x · 0 = 0 for
  EVERY extended real x (the infinities included), so that half vanishes and no entry needs to be finite.
  The unit is the same function on both sides: where y > 0 both give y; elsewhere the kernel gives e^y − 1 and the
  reference 1 · expm1(y) = 1 · (e^y − 1).
-/
import proofs.«135999_j48524540510799_1_alg».proof.Proof.KerStages
import proofs.«135999_j48524540510799_1_alg».proof.Proof.LibPlainDot
import Idealize.ShloMosaic.Lib.Pipeline.Value
import Idealize.ShloMosaic.Lib.ValueIdx
import Idealize.ShloMosaic.Lib.IdealHost

noncomputable section

open scoped BigOperators

namespace Cert.BridgeCoded

open Idealize.ShloMosaic Idealize.ShloMosaic.ValueIdx Cert.KerStages Cert.Stages

variable [Cert.KernelIdeal.Facts₀] [Cert.ReferenceIdeal.Facts₀]

/-- The reference's unit at an entry is the kernel's. -/
theorem eluR_apply (x : (⟨Cert.KernelIdeal.S100000x16, .f32⟩ : BufTy).Contents (Elt Ideal)) (i : Cert.KernelIdeal.S100000x16.Idx) :
    eluR (F := Ideal) x i = Cert.Spec.eluK (x i) := by
  show Scalar.select (Ideal.cmp .ogt (x i) (Ideal.ofBits .f32 0x00000000#32)) (x i)
        (Ideal.ofBits .f32 0x3F800000#32
          * (Ideal.exp (Scalar.select (Ideal.cmp .ogt (x i) (Ideal.ofBits .f32 0x00000000#32)) (Ideal.ofBits .f32 0x00000000#32) (x i)) - 1))
      = Scalar.select (Ideal.cmp .ogt (x i) (Ideal.ofBits .f32 0x00000000#32)) (x i)
          (Ideal.exp (x i) - Ideal.ofBits .f32 0x3F800000#32)
  by_cases hc : Ideal.cmp .ogt (x i) (Ideal.ofBits .f32 0x00000000#32) = 1#1
  · rw [hc, select_one, select_one]
  · rw [eq_zero_of_ne_one hc, select_zero, select_zero, select_zero, Ideal.ofBits_one_f32, one_mul]

/-- The zero block is zero. -/
theorem zeroBlk_apply (i : Cert.KernelIdeal.S16x40.Idx) : zeroBlk i = 0 := by
  show Ideal.ofBits .f32 0x00000000#32 = 0
  exact Ideal.ofBits_zero_f32

/-- Side by side, columns 0 … 15 are the first array's. -/
theorem cat16_left (a b : (⟨Cert.KernelIdeal.S100000x16, .f32⟩ : BufTy).Contents (Elt Ideal)) (p : Fin 100000) (k32 : Fin 32) (k : Fin 16) (hk : k32.val = k.val) :
    cat16 a b (ix2 p k32) = a (ix2 p k) := by
  unfold cat16
  exact concatenate_pair_apply_left (1 : Fin 2) a b _ (ix2 p k32) rfl (ix2 p k) (fun c => by
    match c with
    | ⟨0, _⟩ => rfl
    | ⟨1, _⟩ => exact hk.symm)

/-- Side by side, columns 16 … 31 are the second array's. -/
theorem cat16_right (a b : (⟨Cert.KernelIdeal.S100000x16, .f32⟩ : BufTy).Contents (Elt Ideal)) (p : Fin 100000) (k32 : Fin 32) (k : Fin 16) (hk : k32.val = 16 + k.val) :
    cat16 a b (ix2 p k32) = b (ix2 p k) := by
  unfold cat16
  exact concatenate_pair_apply_right (1 : Fin 2) a b _ (ix2 p k32) rfl rfl (ix2 p k) (fun c hc => by
    match c with
    | ⟨0, _⟩ => rfl
    | ⟨1, _⟩ => exact (hc (Fin.ext rfl)).elim) (by show k.val + 16 = k32.val; omega)

/-- The upper half of the block-diagonal weight is [W12 | 0]. -/
theorem wbd_upper (w12 w22 : (⟨Cert.KernelIdeal.S16x40, .f32⟩ : BufTy).Contents (Elt Ideal)) (r32 : Fin 32) (r : Fin 16) (hr : r32.val = r.val) (c : Fin 80) :
    wbd w12 w22 (ix2 r32 c)
      = (concatenate Cert.KernelIdeal.S16x80 1 [⟨Cert.KernelIdeal.S16x40, w12⟩, ⟨Cert.KernelIdeal.S16x40, zeroBlk⟩]
          Cert.KernelIdeal.Facts₀.concatenates_S16x40_S16x40_S16x80_d1 : (⟨Cert.KernelIdeal.S16x80, .f32⟩ : BufTy).Contents (Elt Ideal)) (ix2 r c) := by
  unfold wbd
  exact concatenate_pair_apply_left (s₁ := Cert.KernelIdeal.S16x80) (s₂ := Cert.KernelIdeal.S16x80) (0 : Fin 2) _ _ _ (ix2 r32 c) rfl (ix2 r c) (fun d => by
    match d with
    | ⟨0, _⟩ => exact hr.symm
    | ⟨1, _⟩ => rfl)

/-- The lower half is [0 | W22]. -/
theorem wbd_lower (w12 w22 : (⟨Cert.KernelIdeal.S16x40, .f32⟩ : BufTy).Contents (Elt Ideal)) (r32 : Fin 32) (r : Fin 16) (hr : r32.val = 16 + r.val) (c : Fin 80) :
    wbd w12 w22 (ix2 r32 c)
      = (concatenate Cert.KernelIdeal.S16x80 1 [⟨Cert.KernelIdeal.S16x40, zeroBlk⟩, ⟨Cert.KernelIdeal.S16x40, w22⟩]
          Cert.KernelIdeal.Facts₀.concatenates_S16x40_S16x40_S16x80_d1 : (⟨Cert.KernelIdeal.S16x80, .f32⟩ : BufTy).Contents (Elt Ideal)) (ix2 r c) := by
  unfold wbd
  exact concatenate_pair_apply_right (s₁ := Cert.KernelIdeal.S16x80) (s₂ := Cert.KernelIdeal.S16x80) (0 : Fin 2) _ _ _ (ix2 r32 c) rfl rfl (ix2 r c) (fun d hd => by
    match d with
    | ⟨0, _⟩ => exact (hd (Fin.ext rfl)).elim
    | ⟨1, _⟩ => rfl) (by show r.val + 16 = r32.val; omega)

/-- A row of two 16 × 40 blocks side by side: columns 0 … 39 are the first block's. -/
theorem row_left (u v : (⟨Cert.KernelIdeal.S16x40, .f32⟩ : BufTy).Contents (Elt Ideal)) (r : Fin 16) (c80 : Fin 80) (c : Fin 40) (hc : c80.val = c.val) :
    (concatenate Cert.KernelIdeal.S16x80 1 [⟨Cert.KernelIdeal.S16x40, u⟩, ⟨Cert.KernelIdeal.S16x40, v⟩]
        Cert.KernelIdeal.Facts₀.concatenates_S16x40_S16x40_S16x80_d1 : (⟨Cert.KernelIdeal.S16x80, .f32⟩ : BufTy).Contents (Elt Ideal)) (ix2 r c80) = u (ix2 r c) :=
  concatenate_pair_apply_left (1 : Fin 2) u v _ (ix2 r c80) rfl (ix2 r c) (fun d => by
    match d with
    | ⟨0, _⟩ => rfl
    | ⟨1, _⟩ => exact hc.symm)

/-- … and columns 40 … 79 the second block's. -/
theorem row_right (u v : (⟨Cert.KernelIdeal.S16x40, .f32⟩ : BufTy).Contents (Elt Ideal)) (r : Fin 16) (c80 : Fin 80) (c : Fin 40) (hc : c80.val = 40 + c.val) :
    (concatenate Cert.KernelIdeal.S16x80 1 [⟨Cert.KernelIdeal.S16x40, u⟩, ⟨Cert.KernelIdeal.S16x40, v⟩]
        Cert.KernelIdeal.Facts₀.concatenates_S16x40_S16x40_S16x80_d1 : (⟨Cert.KernelIdeal.S16x80, .f32⟩ : BufTy).Contents (Elt Ideal)) (ix2 r c80) = v (ix2 r c) :=
  concatenate_pair_apply_right (1 : Fin 2) u v _ (ix2 r c80) rfl rfl (ix2 r c) (fun d hd => by
    match d with
    | ⟨0, _⟩ => rfl
    | ⟨1, _⟩ => exact (hd (Fin.ext rfl)).elim) (by show c.val + 40 = c80.val; omega)

/-- Entry (p, c) of the second product: the sum over the 32 positions, the first 16 and the last 16 apart. -/
theorem coded_apply (a b : (⟨Cert.KernelIdeal.S100000x16, .f32⟩ : BufTy).Contents (Elt Ideal)) (w12 w22 : (⟨Cert.KernelIdeal.S16x40, .f32⟩ : BufTy).Contents (Elt Ideal)) (p : Fin 100000) (c : Fin 80) :
    coded (cat16 a b) w12 w22 (ix2 p c)
      = (∑ k : Fin 16, Cert.Spec.eluK (a (ix2 p k)) * wbd w12 w22 (ix2 (Fin.castAdd 16 k) c))
        + ∑ k : Fin 16, Cert.Spec.eluK (b (ix2 p k)) * wbd w12 w22 (ix2 (Fin.natAdd 16 k) c) := by
  show (∑ k : Fin (16 + 16), Cert.Spec.eluK (cat16 a b (ix2 p k)) * wbd w12 w22 (ix2 k c)) = _
  rw [Fin.sum_univ_add]
  refine congrArg₂ (· + ·) (Finset.sum_congr rfl fun k _ => ?_) (Finset.sum_congr rfl fun k _ => ?_)
  · rw [cat16_left a b p (Fin.castAdd 16 k) k rfl]
  · rw [cat16_right a b p (Fin.natAdd 16 k) k rfl]

/-- Columns 0 … 39 of the second product are the activated first half times W12. -/
theorem left40_coded (a b : (⟨Cert.KernelIdeal.S100000x16, .f32⟩ : BufTy).Contents (Elt Ideal)) (w12 w22 : (⟨Cert.KernelIdeal.S16x40, .f32⟩ : BufTy).Contents (Elt Ideal)) :
    left40 (coded (cat16 a b) w12 w22) = dotMid (F := Ideal) (eluR (F := Ideal) a) w12 := by
  funext j
  obtain ⟨p, q, rfl⟩ : ∃ (p : Fin 100000) (q : Fin 40), j = ix2 p q := ⟨j 0, j 1, eq_ix2 j⟩
  have hq : q.val < 80 := by omega
  unfold left40
  refine (extractStridedSlice_apply ![0, 0] _ _ (ix2 p q) (ix2 p (⟨q.val, hq⟩ : Fin 80)) (fun d => by
    match d with
    | ⟨0, _⟩ => exact (Nat.zero_add _).symm
    | ⟨1, _⟩ => exact (Nat.zero_add _).symm)).trans ?_
  refine Eq.trans ?_ (Cert.LibPlainDot.dotGeneral_apply (n := 100000) (a := 16) (b := 40) none (eluR (F := Ideal) a) w12 p q).symm
  rw [coded_apply]
  have h2 : (∑ k : Fin 16, Cert.Spec.eluK (b (ix2 p k)) * wbd w12 w22 (ix2 (Fin.natAdd 16 k) (⟨q.val, hq⟩ : Fin 80))) = 0 :=
    Finset.sum_eq_zero fun k _ => by
      rw [wbd_lower w12 w22 (Fin.natAdd 16 k) k rfl, row_left zeroBlk w22 k _ q rfl, zeroBlk_apply, mul_zero]
  rw [h2, add_zero]
  refine Finset.sum_congr rfl fun k _ => ?_
  rw [wbd_upper w12 w22 (Fin.castAdd 16 k) k rfl, row_left w12 zeroBlk k _ q rfl, eluR_apply]

/-- Columns 40 … 79 of the second product are the activated second half times W22. -/
theorem right40_coded (a b : (⟨Cert.KernelIdeal.S100000x16, .f32⟩ : BufTy).Contents (Elt Ideal)) (w12 w22 : (⟨Cert.KernelIdeal.S16x40, .f32⟩ : BufTy).Contents (Elt Ideal)) :
    right40 (coded (cat16 a b) w12 w22) = dotMid (F := Ideal) (eluR (F := Ideal) b) w22 := by
  funext j
  obtain ⟨p, q, rfl⟩ : ∃ (p : Fin 100000) (q : Fin 40), j = ix2 p q := ⟨j 0, j 1, eq_ix2 j⟩
  have hq : 40 + q.val < 80 := by omega
  unfold right40
  refine (extractStridedSlice_apply ![0, 40] _ _ (ix2 p q) (ix2 p (⟨40 + q.val, hq⟩ : Fin 80)) (fun d => by
    match d with
    | ⟨0, _⟩ => exact (Nat.zero_add _).symm
    | ⟨1, _⟩ => rfl)).trans ?_
  refine Eq.trans ?_ (Cert.LibPlainDot.dotGeneral_apply (n := 100000) (a := 16) (b := 40) none (eluR (F := Ideal) b) w22 p q).symm
  rw [coded_apply]
  have h1 : (∑ k : Fin 16, Cert.Spec.eluK (a (ix2 p k)) * wbd w12 w22 (ix2 (Fin.castAdd 16 k) (⟨40 + q.val, hq⟩ : Fin 80))) = 0 :=
    Finset.sum_eq_zero fun k _ => by
      rw [wbd_upper w12 w22 (Fin.castAdd 16 k) k rfl, row_right w12 zeroBlk k _ q rfl, zeroBlk_apply, mul_zero]
  rw [h1, zero_add]
  refine Finset.sum_congr rfl fun k _ => ?_
  rw [wbd_lower w12 w22 (Fin.natAdd 16 k) k rfl, row_right zeroBlk w22 k _ q rfl, eluR_apply]

end Cert.BridgeCoded

end
-- ==== Proof.BridgeLogits.lean ====
/-
  The combining affine map, written two ways. With the two codings c1, c2 laid side by side as X = [c1 | c2]
  (100000 × 80), entry (p, q) of X · Wc + bc is the sum over k < 80 of X(p, k) · Wc(k, q), plus bc(q). One side
  adds the bias as a single row — the vector bc viewed as a 1 × 40 matrix, whose entry (0, q) is bc(q) — to every
  row of the product; the other side first spreads bc along a new leading axis of extent 1 and then along the 100000
  rows, whose entry (p, q) is again bc(q), and adds that array to the host's product, which is the same sum. No entry
  needs to be finite: the two sides are the same expression, entry by entry.
-/
import proofs.«135999_j48524540510799_1_alg».proof.Proof.KerStages
import proofs.«135999_j48524540510799_1_alg».proof.Proof.LibPlainDot
import Idealize.ShloMosaic.Lib.Pipeline.Value
import Idealize.ShloMosaic.Lib.ValueIdx
import Idealize.ShloMosaic.Lib.IdealHost

noncomputable section

open scoped BigOperators

namespace Cert.BridgeLogits

open Idealize.ShloMosaic Idealize.ShloMosaic.ValueIdx Cert.KerStages Cert.Stages

variable [Cert.KernelIdeal.Facts₀] [Cert.ReferenceIdeal.Facts₀]

/-- The bias vector viewed as one row reads bc(q) at (0, q): the row-major position of (0, q) in a 1 × 40 matrix is
    q, the position of q in the vector. -/
theorem biasRow_apply (bc : (⟨Cert.KernelIdeal.S40, .f32⟩ : BufTy).Contents (Elt Ideal)) (u : Fin 1) (q : Fin 40) :
    biasRow bc (ix2 u q) = bc (ix1 q) := by
  unfold biasRow
  refine shapeCast_apply bc _ (ix2 u q) (ix1 q) ?_
  rw [Shape.rowMajor_val_one, Shape.rowMajor_val_two]
  show q.val = u.val * 40 + q.val
  have hu : u.val = 0 := by omega
  omega

/-- The bias vector spread along a new leading unit axis and then along the 100000 rows reads bc(q) at (p, q). -/
theorem biasAll_apply (bc : (⟨Cert.ReferenceIdeal.S40, .f32⟩ : BufTy).Contents (Elt Ideal)) (p : Fin 100000) (q : Fin 40) :
    broadcastInDim Cert.ReferenceIdeal.S100000x40 ![0, 1] Cert.ReferenceIdeal.Facts₀.bcast_S1x40_S100000x40_0_1
      (broadcastInDim Cert.ReferenceIdeal.S1x40 ![1] Cert.ReferenceIdeal.Facts₀.bcast_S40_S1x40_1 bc : (⟨Cert.ReferenceIdeal.S1x40, .f32⟩ : BufTy).Contents (Elt Ideal))
      (ix2 p q) = bc (ix1 q) := by
  refine (broadcastInDim_apply _ _ _ (ix2 p q) (ix2 (0 : Fin 1) q) (fun a => by
    match a with
    | ⟨0, _⟩ => rfl
    | ⟨1, _⟩ => rfl)).trans ?_
  exact broadcastInDim_apply _ _ bc (ix2 (0 : Fin 1) q) (ix1 q) (fun a => by
    match a with
    | ⟨0, _⟩ => rfl)

/-- [c1 | c2] · Wc plus the bias row on every row is the host's product plus the bias spread over the rows. -/
theorem logits_eq (c1 c2 : (⟨Cert.KernelIdeal.S100000x40, .f32⟩ : BufTy).Contents (Elt Ideal)) (wc : (⟨Cert.KernelIdeal.S80x40, .f32⟩ : BufTy).Contents (Elt Ideal)) (bc : (⟨Cert.KernelIdeal.S40, .f32⟩ : BufTy).Contents (Elt Ideal)) :
    Cert.Spec.logits (n := 100000) (a := 80) (b := 40) (cat40 c1 c2) wc (biasRow bc) = combineR (F := Ideal) c1 c2 wc bc := by
  funext j
  obtain ⟨p, q, rfl⟩ : ∃ (p : Fin 100000) (q : Fin 40), j = ix2 p q := ⟨j 0, j 1, eq_ix2 j⟩
  unfold combineR
  refine Eq.trans ?_ (addf_apply _ _ (ix2 p q)).symm
  show (∑ k : Fin 80, cat40 c1 c2 (ix2 p k) * wc (ix2 k q)) + biasRow bc (ix2 (0 : Fin 1) q) = _
  refine congrArg₂ (· + ·) ?_ ?_
  · refine Eq.trans ?_ (Cert.LibPlainDot.dotGeneral_apply (n := 100000) (a := 80) (b := 40) none _ wc p q).symm
    rfl
  · exact (biasRow_apply bc 0 q).trans (biasAll_apply bc p q).symm

end Cert.BridgeLogits

end
-- ==== Proof.BridgeLsm.lean ====
/-
  The row-wise log-softmax, spelled twice. The host spells it with whole-array operations: the row maxima as a
  reduction over the lanes from −∞ (joined once more with −∞), kept as a column and repeated along the lanes; the
  shifted rows z − max; their exponentials summed over the lanes from 0, the logarithm of that column repeated
  along the lanes; the difference. Read at entry (p, q):

      shifted(p, q) = z(p, q) − M_p,   M_p = max (−∞) (fold of max from −∞ over row p) = fold of max from −∞ over row p,
      result(p, q)  = shifted(p, q) − log (0 + sum over l of e^(shifted(p, l))),

  which is the specification's (z(p, q) − M_p) − log (sum over l of e^(z(p, l) − M_p)) term by term. No entry needs
  to be finite: joining a fold of max from −∞ with −∞ again changes nothing, and 0 + s = s.
-/
import proofs.«135999_j48524540510799_1_alg».proof.Proof.KerStages
import proofs.«135999_j48524540510799_1_alg».proof.Proof.LibPlainDot
import Idealize.ShloMosaic.Lib.Pipeline.Value
import Idealize.ShloMosaic.Lib.ValueIdx
import Idealize.ShloMosaic.Lib.IdealHost

noncomputable section

open scoped BigOperators

namespace Cert.BridgeLsm

open Idealize.ShloMosaic Idealize.ShloMosaic.ValueIdx Cert.KerStages Cert.Stages

variable [Cert.KernelIdeal.Facts₀] [Cert.ReferenceIdeal.Facts₀]

open Cert.ReferenceIdeal.Facts₀

/-- Dropping the lane axis of a 100000 × 40 array leaves the 100000 rows. -/
theorem lanes : Cert.ReferenceIdeal.S100000x40.Reduces [1] Cert.ReferenceIdeal.S100000 := by decide

/-- The source index of lane l of row p, as the lane reduction names it, is (p, l). -/
theorem lift_row (p : Fin 100000) (l : Fin 40) : lanes.lift (ix1 p) l = ix2 p l :=
  funext fun c => Fin.ext (by match c with | ⟨0, _⟩ => rfl | ⟨1, _⟩ => rfl)

/-- A 100000 × 1 column repeated along the 40 lanes reads, at (p, q), the column at (p, 0). -/
theorem alongLanes_apply {α : Type} (v : Cert.ReferenceIdeal.S100000x1.Idx → α) (p : Fin 100000) (q : Fin 40) :
    broadcastInDim Cert.ReferenceIdeal.S100000x40 ![0, 1] bcast_S100000x1_S100000x40_0_1 v (ix2 p q) = v (ix2 p (0 : Fin 1)) :=
  broadcastInDim_apply _ _ v (ix2 p q) (ix2 p (0 : Fin 1)) fun a => by
    match a with
    | ⟨0, _⟩ => rfl
    | ⟨1, _⟩ => rfl

/-- A vector of 100000 entries kept as a column reads, at (p, u), the vector at p. -/
theorem asColumn_apply {α : Type} (m : Cert.ReferenceIdeal.S100000.Idx → α) (p : Fin 100000) (u : Fin 1) :
    broadcastInDim Cert.ReferenceIdeal.S100000x1 ![0] bcast_S100000_S100000x1_0 m (ix2 p u) = m (ix1 p) :=
  broadcastInDim_apply _ _ m (ix2 p u) (ix1 p) fun a => by
    match a with
    | ⟨0, _⟩ => rfl

/-- Joining a fold of `max` from N with N once more changes nothing. -/
theorem max_fold_self {ι : Type} (s : Finset ι) (N : EReal) (f : ι → EReal) : max N (s.fold max N f) = s.fold max N f :=
  max_eq_right ((Finset.le_fold_max N).mpr (Or.inl le_rfl))

/-- The host's exponential and logarithm of an array, at an entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The host's maximum over the lanes of row p, from −∞: the fold of `max` from −∞ over the row's 40 entries. -/
theorem hostReduceMax_apply (z : (⟨Cert.KernelIdeal.S100000x40, .f32⟩ : BufTy).Contents (Elt Ideal)) (p : Fin 100000) :
    Host.reduce (FloatOps.maximumf (F := Ideal) (φ := .f32)) z (constant (F := Ideal) Cert.ReferenceIdeal.S_ .f32 0xFF800000#32)
        reducesTo_S100000x40_S100000_d1 h_S_ (ix1 p)
      = Cert.Spec.rowMax (n := 100000) (b := 40) z p := by
  refine (Host.reduce_eq_fold_single (FloatOps.maximumf (F := Ideal) (φ := .f32)) z
    (constant (F := Ideal) Cert.ReferenceIdeal.S_ .f32 0xFF800000#32) reducesTo_S100000x40_S100000_d1 lanes h_S_ (ix1 p)).trans ?_
  have e : (z ∘ lanes.lift (ix1 p)) = fun l : Fin 40 => z (ix2 p l) := funext fun l => congrArg z (lift_row p l)
  rw [e]
  rfl

/-- The host's row maximum, joined once more with −∞, is row p's maximum. -/
theorem hostRowMax_apply (z : (⟨Cert.KernelIdeal.S100000x40, .f32⟩ : BufTy).Contents (Elt Ideal)) (p : Fin 100000) :
    (maximumf (broadcastInDim Cert.ReferenceIdeal.S100000 ![] bcast_S_S100000 (constant (F := Ideal) Cert.ReferenceIdeal.S_ .f32 0xFF800000#32) : (⟨Cert.ReferenceIdeal.S100000, .f32⟩ : BufTy).Contents (Elt Ideal))
      (Host.reduce (FloatOps.maximumf (F := Ideal) (φ := .f32)) z (constant (F := Ideal) Cert.ReferenceIdeal.S_ .f32 0xFF800000#32) reducesTo_S100000x40_S100000_d1 h_S_)
      : (⟨Cert.ReferenceIdeal.S100000, .f32⟩ : BufTy).Contents (Elt Ideal)) (ix1 p)
      = Cert.Spec.rowMax (n := 100000) (b := 40) z p := by
  refine (maximumf_apply _ _ (ix1 p)).trans ?_
  refine (congrArg₂ max (broadcastInDim_scalar_apply bcast_S_S100000 _ (ix1 p)) (hostReduceMax_apply z p)).trans ?_
  exact max_fold_self _ _ _

/-- Entry (p, q) of the host's shifted rows: z(p, q) minus row p's maximum. -/
theorem shiftR_apply (z : (⟨Cert.KernelIdeal.S100000x40, .f32⟩ : BufTy).Contents (Elt Ideal)) (p : Fin 100000) (q : Fin 40) :
    shiftR (F := Ideal) z (ix2 p q) = z (ix2 p q) - Cert.Spec.rowMax (n := 100000) (b := 40) z p := by
  unfold shiftR
  refine (subf_apply _ _ (ix2 p q)).trans ?_
  refine congrArg (z (ix2 p q) - ·) ?_
  refine (alongLanes_apply _ p q).trans ?_
  refine (asColumn_apply _ p 0).trans ?_
  exact hostRowMax_apply z p

/-- The host's sum over the lanes of row p, from 0, of any 100000 × 40 array: the sum of the row's 40 entries. -/
theorem hostRowSum_gen (x : FVec Ideal Cert.ReferenceIdeal.S100000x40 .f32) (p : Fin 100000) :
    Host.reduceAdd x (constant (F := Ideal) Cert.ReferenceIdeal.S_ .f32 0x00000000#32) reducesTo_S100000x40_S100000_d1 h_S_ (ix1 p)
      = ∑ l : Fin 40, x (ix2 p l) := by
  refine (hostReduceAdd_apply x _ reducesTo_S100000x40_S100000_d1 h_S_ (ix1 p)).trans ?_
  refine (Ideal.hostReduceAdd_single reducesTo_S100000x40_S100000_d1 lanes x _ (ix1 p)).trans ?_
  rw [constant_apply, Ideal.ofBits_zero_f32, zero_add]
  refine Finset.sum_congr rfl fun l _ => ?_
  rw [lift_row p l]

/-- The host's sum over the lanes of row p of the exponentials of the shifted rows, from 0. -/
theorem hostRowSum_apply (z : (⟨Cert.KernelIdeal.S100000x40, .f32⟩ : BufTy).Contents (Elt Ideal)) (p : Fin 100000) :
    Host.reduceAdd (Host.exp (shiftR (F := Ideal) z)) (constant (F := Ideal) Cert.ReferenceIdeal.S_ .f32 0x00000000#32)
        reducesTo_S100000x40_S100000_d1 h_S_ (ix1 p)
      = ∑ l : Fin 40, Ideal.exp (z (ix2 p l) - Cert.Spec.rowMax (n := 100000) (b := 40) z p) := by
  refine (hostRowSum_gen (Host.exp (shiftR (F := Ideal) z)) p).trans ?_
  refine Finset.sum_congr rfl fun l _ => ?_
  refine (hostExp_apply _ (ix2 p l)).trans ?_
  rw [shiftR_apply z p l]

/-- The two spellings of the row-wise log-softmax agree, entry by entry. -/
theorem lsm_eq (z : (⟨Cert.KernelIdeal.S100000x40, .f32⟩ : BufTy).Contents (Elt Ideal)) :
    Cert.Spec.lsm (n := 100000) (b := 40) z = lsmR (F := Ideal) z := by
  funext j
  obtain ⟨p, q, rfl⟩ : ∃ (p : Fin 100000) (q : Fin 40), j = ix2 p q := ⟨j 0, j 1, eq_ix2 j⟩
  symm
  unfold lsmR
  refine (subf_apply _ _ (ix2 p q)).trans ?_
  refine congrArg₂ (· - ·) (shiftR_apply z p q) ?_
  refine (alongLanes_apply _ p q).trans ?_
  refine (hostLog_apply _ (ix2 p (0 : Fin 1))).trans ?_
  refine congrArg Ideal.log ?_
  refine (asColumn_apply _ p 0).trans ?_
  exact hostRowSum_apply z p

end Cert.BridgeLsm

end
-- ==== Proof.Bridge.lean ====
/-
  The kernel's value is the reference's value, as functions of the thirteen arguments, over the extended reals.

  The two differ in their dense parts only: the kernel computes both graphs' first-layer products as one product with the
  two weights side by side and cuts it in two; it computes both second-layer products as one product with a block-diagonal
  weight and cuts it in two; and it fuses the combining affine map with the log-softmax. Each of the three is the
  reference's own expression entry by entry (BridgeProj, BridgeCoded, BridgeLogits and BridgeLsm); the aggregation stages
  between them are the same functions on both sides and are never opened. No law used needs a finite entry, so the
  precondition is not used.
-/
import proofs.«135999_j48524540510799_1_alg».proof.Proof.BridgeProj
import proofs.«135999_j48524540510799_1_alg».proof.Proof.BridgeCoded
import proofs.«135999_j48524540510799_1_alg».proof.Proof.BridgeLogits
import proofs.«135999_j48524540510799_1_alg».proof.Proof.BridgeLsm

noncomputable section

namespace Cert.Bridge

open Idealize.ShloMosaic Cert.KerStages Cert.Stages

variable [Cert.KernelIdeal.Facts₀] [Cert.ReferenceIdeal.Facts₀]

/-- The kernel's value function is the reference's. -/
theorem kerVal_eq_refVal (x : (⟨Cert.KernelIdeal.S100000x512, .f32⟩ : BufTy).Contents (Elt Ideal)) (adjA : (⟨Cert.KernelIdeal.S2x3200000, .i32⟩ : BufTy).Contents (Elt Ideal)) (adjB : (⟨Cert.KernelIdeal.S2x6400000, .i32⟩ : BufTy).Contents (Elt Ideal))
    (w11 : (⟨Cert.KernelIdeal.S512x16, .f32⟩ : BufTy).Contents (Elt Ideal)) (b11 : (⟨Cert.KernelIdeal.S16, .f32⟩ : BufTy).Contents (Elt Ideal)) (w12 : (⟨Cert.KernelIdeal.S16x40, .f32⟩ : BufTy).Contents (Elt Ideal)) (b12 : (⟨Cert.KernelIdeal.S40, .f32⟩ : BufTy).Contents (Elt Ideal))
    (w21 : (⟨Cert.KernelIdeal.S512x16, .f32⟩ : BufTy).Contents (Elt Ideal)) (b21 : (⟨Cert.KernelIdeal.S16, .f32⟩ : BufTy).Contents (Elt Ideal)) (w22 : (⟨Cert.KernelIdeal.S16x40, .f32⟩ : BufTy).Contents (Elt Ideal)) (b22 : (⟨Cert.KernelIdeal.S40, .f32⟩ : BufTy).Contents (Elt Ideal))
    (wc : (⟨Cert.KernelIdeal.S80x40, .f32⟩ : BufTy).Contents (Elt Ideal)) (bc : (⟨Cert.KernelIdeal.S40, .f32⟩ : BufTy).Contents (Elt Ideal)) :
    kerVal x adjA adjB w11 b11 w12 b12 w21 b21 w22 b22 wc bc
      = refVal (F := Ideal) x adjA adjB w11 b11 w12 b12 w21 b21 w22 b22 wc bc := by
  unfold kerVal refVal codings Cert.KerStages.hidden
  rw [Cert.BridgeProj.left16_proj, Cert.BridgeProj.right16_proj, Cert.BridgeCoded.left40_coded, Cert.BridgeCoded.right40_coded,
    Cert.BridgeLogits.logits_eq, Cert.BridgeLsm.lsm_eq]

end Cert.Bridge

end
-- ==== Proof.RefTerms.lean ====
/-
  Names for the few values that cross from one window of the reference to the next and are not one of the
  named stages — the two rows of each edge list as vectors, and a graph's inverse square-root degrees — and for
  the three concatenations the reference makes.
-/
import proofs.«135999_j48524540510799_1_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-- Row 0 of the first edge list (the edges' sources), as a vector of 3200000 node numbers. -/
abbrev rowA0 (adj : (⟨S2x3200000, .i32⟩ : BufTy).Contents (Elt F)) : (⟨S3200000, .i32⟩ : BufTy).Contents (Elt F) :=
  shapeCast S3200000 (extractStridedSlice S1x3200000 ![0, 0] adj slices_S2x3200000_S1x3200000_0_0) shapeCasts_S1x3200000_S3200000

/-- Row 1 of the first edge list (the edges' targets). -/
abbrev rowA1 (adj : (⟨S2x3200000, .i32⟩ : BufTy).Contents (Elt F)) : (⟨S3200000, .i32⟩ : BufTy).Contents (Elt F) :=
  shapeCast S3200000 (extractStridedSlice S1x3200000 ![1, 0] adj slices_S2x3200000_S1x3200000_1_0) shapeCasts_S1x3200000_S3200000

/-- Row 0 of the second edge list (the edges' sources), as a vector of 6400000 node numbers. -/
abbrev rowB0 (adj : (⟨S2x6400000, .i32⟩ : BufTy).Contents (Elt F)) : (⟨S6400000, .i32⟩ : BufTy).Contents (Elt F) :=
  shapeCast S6400000 (extractStridedSlice S1x6400000 ![0, 0] adj slices_S2x6400000_S1x6400000_0_0) shapeCasts_S1x6400000_S6400000

/-- Row 1 of the second edge list (the edges' targets). -/
abbrev rowB1 (adj : (⟨S2x6400000, .i32⟩ : BufTy).Contents (Elt F)) : (⟨S6400000, .i32⟩ : BufTy).Contents (Elt F) :=
  shapeCast S6400000 (extractStridedSlice S1x6400000 ![1, 0] adj slices_S2x6400000_S1x6400000_1_0) shapeCasts_S1x6400000_S6400000

/-- The all-ones vector over the second graph's 6500000 edges (what the degree count adds per edge). -/
abbrev onesB : (⟨S6500000, .f32⟩ : BufTy).Contents (Elt F) :=
  broadcastInDim S6500000 ![] bcast_S_S6500000 (constant S_ .f32 0x3F800000#32)

/-- The all-zeros vector over the 100000 nodes (what the degree count starts from). -/
abbrev zerosN : (⟨S100000, .f32⟩ : BufTy).Contents (Elt F) :=
  broadcastInDim S100000 ![] bcast_S_S100000 (constant S_ .f32 0x00000000#32)

/-- The second graph's inverse square-root degrees from its target list `d`: per node the number of edges
    ending in it (a scatter-add of ones at the targets), floored at one, to the power −1/2. -/
abbrev isdB (d : (⟨S6500000, .i32⟩ : BufTy).Contents (Elt F)) : (⟨S100000, .f32⟩ : BufTy).Contents (Elt F) :=
  Host.rsqrt (maximumf
    (Host.scatterAdd scatter_S100000_S6500000x1_S6500000_n_0_0_1 (zerosN (F := F))
      (broadcastInDim S6500000x1 ![0] bcast_S6500000_S6500000x1_0 d) (onesB (F := F)))
    (broadcastInDim S100000 ![] bcast_S_S100000 (constant S_ .f32 0x3F800000#32)))

/-- A row of the first edge list followed by the self-loops' node numbers: one list of 3300000. The programs' line
    packs the two operands into a list of pairs (shape, contents); named, they are plain arguments. -/
def catA (a : (⟨S3200000, .i32⟩ : BufTy).Contents (Elt F)) (b : (⟨S100000, .i32⟩ : BufTy).Contents (Elt F)) : (⟨S3300000, .i32⟩ : BufTy).Contents (Elt F) :=
  concatenate S3300000 0 [⟨S3200000, a⟩, ⟨S100000, b⟩] concatenates_S3200000_S100000_S3300000_d0

/-- A row of the second edge list followed by the self-loops' node numbers: one list of 6500000. -/
def catB (a : (⟨S6400000, .i32⟩ : BufTy).Contents (Elt F)) (b : (⟨S100000, .i32⟩ : BufTy).Contents (Elt F)) : (⟨S6500000, .i32⟩ : BufTy).Contents (Elt F) :=
  concatenate S6500000 0 [⟨S6400000, a⟩, ⟨S100000, b⟩] concatenates_S6400000_S100000_S6500000_d0

/-- Two 100000 × 40 arrays side by side: one 100000 × 80 array. -/
def catC (a b : (⟨S100000x40, .f32⟩ : BufTy).Contents (Elt F)) : (⟨S100000x80, .f32⟩ : BufTy).Contents (Elt F) :=
  concatenate S100000x80 1 [⟨S100000x40, a⟩, ⟨S100000x40, b⟩] concatenates_S100000x40_S100000x40_S100000x80_d1

end Cert.ReferenceIdeal.RefRun

end
-- ==== Proof.RefOps0.lean ====
/-
  The reference's first sixty operations, as a list, and its first window as that list run in order.

  The two edge lists are split into their source and target rows and each row is extended by the
  100000 self-loops; then the first-order first layer: the in-degree of every node (a scatter-add of
  ones at the targets, floored at one), its inverse square root gathered at both ends of every edge and
  multiplied into the edge weight, the product x · W1 gathered at the sources, scaled by the edge weight,
  scatter-added at the targets, and the bias row added.
-/
import proofs.«135999_j48524540510799_1_alg».proof.Proof.Gen.ReferenceIdeal
import proofs.«135999_j48524540510799_1_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60 of the reference, in order. -/
abbrev ops0 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    unary main_arg2 main_v4 ((extractStridedSlice S1x6400000 ![0, 0] · slices_S2x6400000_S1x6400000_0_0) : (⟨S2x6400000, .i32⟩ : BufTy).Contents (Elt F) → (⟨S1x6400000, .i32⟩ : BufTy).Contents (Elt F)),
    reshape main_v4 main_v5 rfl shapeCasts_S1x6400000_S6400000,
    unary main_arg2 main_v6 ((extractStridedSlice S1x6400000 ![1, 0] · slices_S2x6400000_S1x6400000_1_0) : (⟨S2x6400000, .i32⟩ : BufTy).Contents (Elt F) → (⟨S1x6400000, .i32⟩ : BufTy).Contents (Elt F)),
    reshape main_v6 main_v7 rfl shapeCasts_S1x6400000_S6400000,
    nullary main_v8 (iotaInDim S100000 32 0),
    binary main_v1 main_v8 main_v9 (catA : (⟨S3200000, .i32⟩ : BufTy).Contents (Elt F) → (⟨S100000, .i32⟩ : BufTy).Contents (Elt F) → (⟨S3300000, .i32⟩ : BufTy).Contents (Elt F)),
    binary main_v3 main_v8 main_v10 (catA : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v11 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v12 (broadcastInDim S100000 ![] bcast_S_S100000 : (⟨S_, .f32⟩ : BufTy).Contents (Elt F) → (⟨S100000, .f32⟩ : BufTy).Contents (Elt F)),
    unary main_v10 main_v13 (broadcastInDim S3300000x1 ![0] bcast_S3300000_S3300000x1_0 : (⟨S3300000, .i32⟩ : BufTy).Contents (Elt F) → (⟨S3300000x1, .i32⟩ : BufTy).Contents (Elt F)),
    ternary main_v12 main_v13 main_v11 main_v14 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x3F800000#32),
    unary main_cst_1 main_v15 (broadcastInDim S100000 ![] bcast_S_S100000 : (⟨S_, .f32⟩ : BufTy).Contents (Elt F) → (⟨S100000, .f32⟩ : BufTy).Contents (Elt F)),
    binary main_v14 main_v15 main_v16 (maximumf : (⟨S100000, .f32⟩ : BufTy).Contents (Elt F) → (⟨S100000, .f32⟩ : BufTy).Contents (Elt F) → (⟨S100000, .f32⟩ : BufTy).Contents (Elt F)),
    unary main_v16 main_v17 (Host.rsqrt : (⟨S100000, .f32⟩ : BufTy).Contents (Elt F) → (⟨S100000, .f32⟩ : BufTy).Contents (Elt F)),
    nullary main_c (constantI S_ 32 0#32),
    unary main_c main_v18 (broadcastInDim S3300000 ![] bcast_S_S3300000 : (⟨S_, .i32⟩ : BufTy).Contents (Elt F) → (⟨S3300000, .i32⟩ : BufTy).Contents (Elt F)),
    binary main_v9 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_2 (constantI S_ 32 100000#32),
    unary main_c_2 main_v20 (broadcastInDim S3300000 ![] bcast_S_S3300000 : (⟨S_, .i32⟩ : BufTy).Contents (Elt F) → (⟨S3300000, .i32⟩ : BufTy).Contents (Elt F)),
    binary main_v9 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v9 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v17 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_3 (constantI S_ 32 0#32),
    unary main_c_3 main_v25 (broadcastInDim S3300000 ![] bcast_S_S3300000 : (⟨S_, .i32⟩ : BufTy).Contents (Elt F) → (⟨S3300000, .i32⟩ : BufTy).Contents (Elt F)),
    binary main_v10 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v27 (broadcastInDim S3300000 ![] bcast_S_S3300000 : (⟨S_, .i32⟩ : BufTy).Contents (Elt F) → (⟨S3300000, .i32⟩ : BufTy).Contents (Elt F)),
    binary main_v10 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v10 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v17 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)),
    binary main_arg0 main_arg3 main_v33 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_5 (constantI S_ 32 0#32),
    unary main_c_5 main_v34 (broadcastInDim S3300000 ![] bcast_S_S3300000 : (⟨S_, .i32⟩ : BufTy).Contents (Elt F) → (⟨S3300000, .i32⟩ : BufTy).Contents (Elt F)),
    binary main_v9 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v36 (broadcastInDim S3300000 ![] bcast_S_S3300000 : (⟨S_, .i32⟩ : BufTy).Contents (Elt F) → (⟨S3300000, .i32⟩ : BufTy).Contents (Elt F)),
    binary main_v9 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v9 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v33 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v41 (broadcastInDim S3300000x1 ![0] bcast_S3300000_S3300000x1_0 : (⟨S3300000, .f32⟩ : BufTy).Contents (Elt F) → (⟨S3300000x1, .f32⟩ : BufTy).Contents (Elt F)),
    unary main_v41 main_v42 (broadcastInDim S3300000x16 ![0, 1] bcast_S3300000x1_S3300000x16_0_1 : (⟨S3300000x1, .f32⟩ : BufTy).Contents (Elt F) → (⟨S3300000x16, .f32⟩ : BufTy).Contents (Elt F)),
    binary main_v40 main_v42 main_v43 (mulf : (⟨S3300000x16, .f32⟩ : BufTy).Contents (Elt F) → (⟨S3300000x16, .f32⟩ : BufTy).Contents (Elt F) → (⟨S3300000x16, .f32⟩ : BufTy).Contents (Elt F)),
    nullary main_cst_7 (constant S_ .f32 0x00000000#32),
    unary main_cst_7 main_v44 (broadcastInDim S100000x16 ![] bcast_S_S100000x16 : (⟨S_, .f32⟩ : BufTy).Contents (Elt F) → (⟨S100000x16, .f32⟩ : BufTy).Contents (Elt F)),
    unary main_v10 main_v45 (broadcastInDim S3300000x1 ![0] bcast_S3300000_S3300000x1_0 : (⟨S3300000, .i32⟩ : BufTy).Contents (Elt F) → (⟨S3300000x1, .i32⟩ : BufTy).Contents (Elt F)),
    ternary main_v44 main_v45 main_v43 main_v46 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v47 (broadcastInDim S1x16 ![1] bcast_S16_S1x16_1 : (⟨S16, .f32⟩ : BufTy).Contents (Elt F) → (⟨S1x16, .f32⟩ : BufTy).Contents (Elt F)),
    unary main_v47 main_v48 (broadcastInDim S100000x16 ![0, 1] bcast_S1x16_S100000x16_0_1 : (⟨S1x16, .f32⟩ : BufTy).Contents (Elt F) → (⟨S100000x16, .f32⟩ : BufTy).Contents (Elt F)),
    binary main_v46 main_v48 main_v49 (addf : (⟨S100000x16, .f32⟩ : BufTy).Contents (Elt F) → (⟨S100000x16, .f32⟩ : BufTy).Contents (Elt F) → (⟨S100000x16, .f32⟩ : BufTy).Contents (Elt F)) ]

/-- The first window is these operations run in order: both sides are the same chain of steps, by computation
    (a named concatenation unfolds to the program's line). -/
theorem main_part0_eq (c : Dev nD) : main_part0 (F := F) c = seq ops0 := rfl

/-- Every operation of the list touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

end Cert.ReferenceIdeal.RefRun

end
-- ==== Proof.RefOps1.lean ====
/-
  The reference's operations 61 … 134, as a list, and its second window as that list run in order.

  The exponential linear unit of the first layer's result comes first: it is a function of the program whose
  body in turn calls the two selection functions, so its fifteen operations (the comparisons with zero, the
  selection of min(y, 0), e^· − 1, the final selection) stand here inline over that call's own buffers.
  Then the first-order second layer (degree, edge weights, the product with W2, gather, scale, scatter-add,
  bias), and the beginning of the second-order first layer (the second edge list extended by the self-loops).
-/
import proofs.«135999_j48524540510799_1_alg».proof.Proof.Gen.ReferenceIdeal
import proofs.«135999_j48524540510799_1_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 61 … 134 of the reference, in order (a called function's operations inline, over the call's buffers). -/
abbrev ops1 : List (HloOp τ sig (Elt F)) :=
  [ TRef.nullary main_call0.cst (constant S_ .f32 0x00000000#32),
    TRef.unary main_call0.cst main_call0.v0 (broadcastInDim S100000x16 ![] bcast_S_S100000x16),
    TRef.binary (.of main_v49 : TRef sig ⟨S100000x16, .f32⟩) main_call0.v0 main_call0.v1 (cmpf .ogt),
    TRef.nullary main_call0.cst_0 (constant S_ .f32 0x00000000#32),
    TRef.unary main_call0.cst_0 main_call0.v2 (broadcastInDim S100000x16 ![] bcast_S_S100000x16),
    TRef.binary (.of main_v49 : TRef sig ⟨S100000x16, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x16 ![] bcast_S_S100000x16),
    TRef.ternary main_call0.v3 main_call0.call0.v1 (.of main_v49 : TRef sig ⟨S100000x16, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x16 ![] bcast_S_S100000x16),
    TRef.binary main_call0.v6 main_call0.v5 main_call0.v7 mulf,
    TRef.ternary main_call0.v1 (.of main_v49 : TRef sig ⟨S100000x16, .f32⟩) main_call0.v7 main_call0.call1.v0 select,
    nullary main_v51 (iotaInDim S100000 32 0),
    binary main_v1 main_v51 main_v52 (catA : (⟨S3200000, .i32⟩ : BufTy).Contents (Elt F) → (⟨S100000, .i32⟩ : BufTy).Contents (Elt F) → (⟨S3300000, .i32⟩ : BufTy).Contents (Elt F)),
    binary main_v3 main_v51 main_v53 (catA : (⟨S3200000, .i32⟩ : BufTy).Contents (Elt F) → (⟨S100000, .i32⟩ : BufTy).Contents (Elt F) → (⟨S3300000, .i32⟩ : BufTy).Contents (Elt F)),
    nullary main_cst_8 (constant S_ .f32 0x3F800000#32),
    unary main_cst_8 main_v54 (broadcastInDim S3300000 ![] bcast_S_S3300000 : (⟨S_, .f32⟩ : BufTy).Contents (Elt F) → (⟨S3300000, .f32⟩ : BufTy).Contents (Elt F)),
    nullary main_cst_9 (constant S_ .f32 0x00000000#32),
    unary main_cst_9 main_v55 (broadcastInDim S100000 ![] bcast_S_S100000 : (⟨S_, .f32⟩ : BufTy).Contents (Elt F) → (⟨S100000, .f32⟩ : BufTy).Contents (Elt F)),
    unary main_v53 main_v56 (broadcastInDim S3300000x1 ![0] bcast_S3300000_S3300000x1_0 : (⟨S3300000, .i32⟩ : BufTy).Contents (Elt F) → (⟨S3300000x1, .i32⟩ : BufTy).Contents (Elt F)),
    ternary main_v55 main_v56 main_v54 main_v57 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_10 (constant S_ .f32 0x3F800000#32),
    unary main_cst_10 main_v58 (broadcastInDim S100000 ![] bcast_S_S100000 : (⟨S_, .f32⟩ : BufTy).Contents (Elt F) → (⟨S100000, .f32⟩ : BufTy).Contents (Elt F)),
    binary main_v57 main_v58 main_v59 (maximumf : (⟨S100000, .f32⟩ : BufTy).Contents (Elt F) → (⟨S100000, .f32⟩ : BufTy).Contents (Elt F) → (⟨S100000, .f32⟩ : BufTy).Contents (Elt F)),
    unary main_v59 main_v60 (Host.rsqrt : (⟨S100000, .f32⟩ : BufTy).Contents (Elt F) → (⟨S100000, .f32⟩ : BufTy).Contents (Elt F)),
    nullary main_c_11 (constantI S_ 32 0#32),
    unary main_c_11 main_v61 (broadcastInDim S3300000 ![] bcast_S_S3300000 : (⟨S_, .i32⟩ : BufTy).Contents (Elt F) → (⟨S3300000, .i32⟩ : BufTy).Contents (Elt F)),
    binary main_v52 main_v61 main_v62 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v63 (broadcastInDim S3300000 ![] bcast_S_S3300000 : (⟨S_, .i32⟩ : BufTy).Contents (Elt F) → (⟨S3300000, .i32⟩ : BufTy).Contents (Elt F)),
    binary main_v52 main_v63 main_v64 (addi : (⟨S3300000, .i32⟩ : BufTy).Contents (Elt F) → (⟨S3300000, .i32⟩ : BufTy).Contents (Elt F) → (⟨S3300000, .i32⟩ : BufTy).Contents (Elt F)),
    ternary main_v62 main_v64 main_v52 main_v65 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v65 main_v66 (broadcastInDim S3300000x1 ![0] bcast_S3300000_S3300000x1_0 : (⟨S3300000, .i32⟩ : BufTy).Contents (Elt F) → (⟨S3300000x1, .i32⟩ : BufTy).Contents (Elt F)),
    binary main_v60 main_v66 main_v67 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_13 (constantI S_ 32 0#32),
    unary main_c_13 main_v68 (broadcastInDim S3300000 ![] bcast_S_S3300000 : (⟨S_, .i32⟩ : BufTy).Contents (Elt F) → (⟨S3300000, .i32⟩ : BufTy).Contents (Elt F)),
    binary main_v53 main_v68 main_v69 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v70 (broadcastInDim S3300000 ![] bcast_S_S3300000 : (⟨S_, .i32⟩ : BufTy).Contents (Elt F) → (⟨S3300000, .i32⟩ : BufTy).Contents (Elt F)),
    binary main_v53 main_v70 main_v71 (addi : (⟨S3300000, .i32⟩ : BufTy).Contents (Elt F) → (⟨S3300000, .i32⟩ : BufTy).Contents (Elt F) → (⟨S3300000, .i32⟩ : BufTy).Contents (Elt F)),
    ternary main_v69 main_v71 main_v53 main_v72 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v72 main_v73 (broadcastInDim S3300000x1 ![0] bcast_S3300000_S3300000x1_0 : (⟨S3300000, .i32⟩ : BufTy).Contents (Elt F) → (⟨S3300000x1, .i32⟩ : BufTy).Contents (Elt F)),
    binary main_v60 main_v73 main_v74 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v67 main_v74 main_v75 (mulf : (⟨S3300000, .f32⟩ : BufTy).Contents (Elt F) → (⟨S3300000, .f32⟩ : BufTy).Contents (Elt F) → (⟨S3300000, .f32⟩ : BufTy).Contents (Elt F)),
    binary main_v50 main_arg5 main_v76 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_15 (constantI S_ 32 0#32),
    unary main_c_15 main_v77 (broadcastInDim S3300000 ![] bcast_S_S3300000 : (⟨S_, .i32⟩ : BufTy).Contents (Elt F) → (⟨S3300000, .i32⟩ : BufTy).Contents (Elt F)),
    binary main_v52 main_v77 main_v78 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v79 (broadcastInDim S3300000 ![] bcast_S_S3300000 : (⟨S_, .i32⟩ : BufTy).Contents (Elt F) → (⟨S3300000, .i32⟩ : BufTy).Contents (Elt F)),
    binary main_v52 main_v79 main_v80 (addi : (⟨S3300000, .i32⟩ : BufTy).Contents (Elt F) → (⟨S3300000, .i32⟩ : BufTy).Contents (Elt F) → (⟨S3300000, .i32⟩ : BufTy).Contents (Elt F)),
    ternary main_v78 main_v80 main_v52 main_v81 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v81 main_v82 (broadcastInDim S3300000x1 ![0] bcast_S3300000_S3300000x1_0 : (⟨S3300000, .i32⟩ : BufTy).Contents (Elt F) → (⟨S3300000x1, .i32⟩ : BufTy).Contents (Elt F)),
    binary main_v76 main_v82 main_v83 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v75 main_v84 (broadcastInDim S3300000x1 ![0] bcast_S3300000_S3300000x1_0 : (⟨S3300000, .f32⟩ : BufTy).Contents (Elt F) → (⟨S3300000x1, .f32⟩ : BufTy).Contents (Elt F)),
    unary main_v84 main_v85 (broadcastInDim S3300000x40 ![0, 1] bcast_S3300000x1_S3300000x40_0_1 : (⟨S3300000x1, .f32⟩ : BufTy).Contents (Elt F) → (⟨S3300000x40, .f32⟩ : BufTy).Contents (Elt F)),
    binary main_v83 main_v85 main_v86 (mulf : (⟨S3300000x40, .f32⟩ : BufTy).Contents (Elt F) → (⟨S3300000x40, .f32⟩ : BufTy).Contents (Elt F) → (⟨S3300000x40, .f32⟩ : BufTy).Contents (Elt F)),
    nullary main_cst_17 (constant S_ .f32 0x00000000#32),
    unary main_cst_17 main_v87 (broadcastInDim S100000x40 ![] bcast_S_S100000x40 : (⟨S_, .f32⟩ : BufTy).Contents (Elt F) → (⟨S100000x40, .f32⟩ : BufTy).Contents (Elt F)),
    unary main_v53 main_v88 (broadcastInDim S3300000x1 ![0] bcast_S3300000_S3300000x1_0 : (⟨S3300000, .i32⟩ : BufTy).Contents (Elt F) → (⟨S3300000x1, .i32⟩ : BufTy).Contents (Elt F)),
    ternary main_v87 main_v88 main_v86 main_v89 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg6 main_v90 (broadcastInDim S1x40 ![1] bcast_S40_S1x40_1 : (⟨S40, .f32⟩ : BufTy).Contents (Elt F) → (⟨S1x40, .f32⟩ : BufTy).Contents (Elt F)),
    unary main_v90 main_v91 (broadcastInDim S100000x40 ![0, 1] bcast_S1x40_S100000x40_0_1 : (⟨S1x40, .f32⟩ : BufTy).Contents (Elt F) → (⟨S100000x40, .f32⟩ : BufTy).Contents (Elt F)),
    binary main_v89 main_v91 main_v92 (addf : (⟨S100000x40, .f32⟩ : BufTy).Contents (Elt F) → (⟨S100000x40, .f32⟩ : BufTy).Contents (Elt F) → (⟨S100000x40, .f32⟩ : BufTy).Contents (Elt F)),
    nullary main_v93 (iotaInDim S100000 32 0),
    binary main_v5 main_v93 main_v94 (catB : (⟨S6400000, .i32⟩ : BufTy).Contents (Elt F) → (⟨S100000, .i32⟩ : BufTy).Contents (Elt F) → (⟨S6500000, .i32⟩ : BufTy).Contents (Elt F)),
    binary main_v7 main_v93 main_v95 (catB : (⟨S6400000, .i32⟩ : BufTy).Contents (Elt F) → (⟨S100000, .i32⟩ : BufTy).Contents (Elt F) → (⟨S6500000, .i32⟩ : BufTy).Contents (Elt F)),
    nullary main_cst_18 (constant S_ .f32 0x3F800000#32),
    unary main_cst_18 main_v96 (broadcastInDim S6500000 ![] bcast_S_S6500000 : (⟨S_, .f32⟩ : BufTy).Contents (Elt F) → (⟨S6500000, .f32⟩ : BufTy).Contents (Elt F)),
    nullary main_cst_19 (constant S_ .f32 0x00000000#32),
    unary main_cst_19 main_v97 (broadcastInDim S100000 ![] bcast_S_S100000 : (⟨S_, .f32⟩ : BufTy).Contents (Elt F) → (⟨S100000, .f32⟩ : BufTy).Contents (Elt F)) ]

/-- The second window is these operations run in order: with the called functions' definitions unfolded at the
    call and sequencing re-associated, both sides are the same chain of steps. -/
theorem main_part1_eq (c : Dev nD) : main_part1 (F := F) c = seq ops1 := by
  simp only [main_part1, fn_elu.body, fn_where.body, fn_where_0.body, seq, bind_assoc, pure_bind]
  rfl

/-- Every operation of the list touches TensorCore buffers only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., binary_bufs_sub .., nullary_bufs_sub .., unary_bufs_sub .., nullary_bufs_sub .., unary_bufs_sub ..⟩

end Cert.ReferenceIdeal.RefRun

end
-- ==== Proof.RefOps2.lean ====
/-
  The reference's operations 135 … 208, as a list, and its third window as that list run in order.

  The second-order first layer over the second edge list (degree, edge weights, the product x · W1',
  gather, scale, scatter-add, bias), its exponential linear unit — again the function's fifteen operations
  inline over this call's buffers —, and the beginning of the second-order second layer.
-/
import proofs.«135999_j48524540510799_1_alg».proof.Proof.Gen.ReferenceIdeal
import proofs.«135999_j48524540510799_1_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 135 … 208 of the reference, in order (a called function's operations inline, over the call's buffers). -/
abbrev ops2 : List (HloOp τ sig (Elt F)) :=
  [ unary main_v95 main_v98 (broadcastInDim S6500000x1 ![0] bcast_S6500000_S6500000x1_0 : (⟨S6500000, .i32⟩ : BufTy).Contents (Elt F) → (⟨S6500000x1, .i32⟩ : BufTy).Contents (Elt F)),
    ternary main_v97 main_v98 main_v96 main_v99 ((fun x i u => Host.scatterAdd scatter_S100000_S6500000x1_S6500000_n_0_0_1 x i u) : (⟨S100000, .f32⟩ : BufTy).Contents (Elt F) → (⟨S6500000x1, .i32⟩ : BufTy).Contents (Elt F) → (⟨S6500000, .f32⟩ : BufTy).Contents (Elt F) → (⟨S100000, .f32⟩ : BufTy).Contents (Elt F)),
    nullary main_cst_20 (constant S_ .f32 0x3F800000#32),
    unary main_cst_20 main_v100 (broadcastInDim S100000 ![] bcast_S_S100000 : (⟨S_, .f32⟩ : BufTy).Contents (Elt F) → (⟨S100000, .f32⟩ : BufTy).Contents (Elt F)),
    binary main_v99 main_v100 main_v101 (maximumf : (⟨S100000, .f32⟩ : BufTy).Contents (Elt F) → (⟨S100000, .f32⟩ : BufTy).Contents (Elt F) → (⟨S100000, .f32⟩ : BufTy).Contents (Elt F)),
    unary main_v101 main_v102 (Host.rsqrt : (⟨S100000, .f32⟩ : BufTy).Contents (Elt F) → (⟨S100000, .f32⟩ : BufTy).Contents (Elt F)),
    nullary main_c_21 (constantI S_ 32 0#32),
    unary main_c_21 main_v103 (broadcastInDim S6500000 ![] bcast_S_S6500000 : (⟨S_, .i32⟩ : BufTy).Contents (Elt F) → (⟨S6500000, .i32⟩ : BufTy).Contents (Elt F)),
    binary main_v94 main_v103 main_v104 (cmpi .slt : (⟨S6500000, .i32⟩ : BufTy).Contents (Elt F) → (⟨S6500000, .i32⟩ : BufTy).Contents (Elt F) → (⟨S6500000, .i1⟩ : BufTy).Contents (Elt F)),
    nullary main_c_22 (constantI S_ 32 100000#32),
    unary main_c_22 main_v105 (broadcastInDim S6500000 ![] bcast_S_S6500000 : (⟨S_, .i32⟩ : BufTy).Contents (Elt F) → (⟨S6500000, .i32⟩ : BufTy).Contents (Elt F)),
    binary main_v94 main_v105 main_v106 (addi : (⟨S6500000, .i32⟩ : BufTy).Contents (Elt F) → (⟨S6500000, .i32⟩ : BufTy).Contents (Elt F) → (⟨S6500000, .i32⟩ : BufTy).Contents (Elt F)),
    ternary main_v104 main_v106 main_v94 main_v107 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v107 main_v108 (broadcastInDim S6500000x1 ![0] bcast_S6500000_S6500000x1_0 : (⟨S6500000, .i32⟩ : BufTy).Contents (Elt F) → (⟨S6500000x1, .i32⟩ : BufTy).Contents (Elt F)),
    binary main_v102 main_v108 main_v109 ((fun x i => Host.gather gather_S100000_S6500000x1_S6500000_n_0_n_n_0_1_1 x i) : (⟨S100000, .f32⟩ : BufTy).Contents (Elt F) → (⟨S6500000x1, .i32⟩ : BufTy).Contents (Elt F) → (⟨S6500000, .f32⟩ : BufTy).Contents (Elt F)),
    nullary main_c_23 (constantI S_ 32 0#32),
    unary main_c_23 main_v110 (broadcastInDim S6500000 ![] bcast_S_S6500000 : (⟨S_, .i32⟩ : BufTy).Contents (Elt F) → (⟨S6500000, .i32⟩ : BufTy).Contents (Elt F)),
    binary main_v95 main_v110 main_v111 (cmpi .slt : (⟨S6500000, .i32⟩ : BufTy).Contents (Elt F) → (⟨S6500000, .i32⟩ : BufTy).Contents (Elt F) → (⟨S6500000, .i1⟩ : BufTy).Contents (Elt F)),
    nullary main_c_24 (constantI S_ 32 100000#32),
    unary main_c_24 main_v112 (broadcastInDim S6500000 ![] bcast_S_S6500000 : (⟨S_, .i32⟩ : BufTy).Contents (Elt F) → (⟨S6500000, .i32⟩ : BufTy).Contents (Elt F)),
    binary main_v95 main_v112 main_v113 (addi : (⟨S6500000, .i32⟩ : BufTy).Contents (Elt F) → (⟨S6500000, .i32⟩ : BufTy).Contents (Elt F) → (⟨S6500000, .i32⟩ : BufTy).Contents (Elt F)),
    ternary main_v111 main_v113 main_v95 main_v114 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v114 main_v115 (broadcastInDim S6500000x1 ![0] bcast_S6500000_S6500000x1_0 : (⟨S6500000, .i32⟩ : BufTy).Contents (Elt F) → (⟨S6500000x1, .i32⟩ : BufTy).Contents (Elt F)),
    binary main_v102 main_v115 main_v116 ((fun x i => Host.gather gather_S100000_S6500000x1_S6500000_n_0_n_n_0_1_1 x i) : (⟨S100000, .f32⟩ : BufTy).Contents (Elt F) → (⟨S6500000x1, .i32⟩ : BufTy).Contents (Elt F) → (⟨S6500000, .f32⟩ : BufTy).Contents (Elt F)),
    binary main_v109 main_v116 main_v117 (mulf : (⟨S6500000, .f32⟩ : BufTy).Contents (Elt F) → (⟨S6500000, .f32⟩ : BufTy).Contents (Elt F) → (⟨S6500000, .f32⟩ : BufTy).Contents (Elt F)),
    binary main_arg0 main_arg7 main_v118 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_25 (constantI S_ 32 0#32),
    unary main_c_25 main_v119 (broadcastInDim S6500000 ![] bcast_S_S6500000 : (⟨S_, .i32⟩ : BufTy).Contents (Elt F) → (⟨S6500000, .i32⟩ : BufTy).Contents (Elt F)),
    binary main_v94 main_v119 main_v120 (cmpi .slt : (⟨S6500000, .i32⟩ : BufTy).Contents (Elt F) → (⟨S6500000, .i32⟩ : BufTy).Contents (Elt F) → (⟨S6500000, .i1⟩ : BufTy).Contents (Elt F)),
    nullary main_c_26 (constantI S_ 32 100000#32),
    unary main_c_26 main_v121 (broadcastInDim S6500000 ![] bcast_S_S6500000 : (⟨S_, .i32⟩ : BufTy).Contents (Elt F) → (⟨S6500000, .i32⟩ : BufTy).Contents (Elt F)),
    binary main_v94 main_v121 main_v122 (addi : (⟨S6500000, .i32⟩ : BufTy).Contents (Elt F) → (⟨S6500000, .i32⟩ : BufTy).Contents (Elt F) → (⟨S6500000, .i32⟩ : BufTy).Contents (Elt F)),
    ternary main_v120 main_v122 main_v94 main_v123 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v123 main_v124 (broadcastInDim S6500000x1 ![0] bcast_S6500000_S6500000x1_0 : (⟨S6500000, .i32⟩ : BufTy).Contents (Elt F) → (⟨S6500000x1, .i32⟩ : BufTy).Contents (Elt F)),
    binary main_v118 main_v124 main_v125 ((fun x i => Host.gather gather_S100000x16_S6500000x1_S6500000x16_1_0_n_n_0_1_116 x i) : (⟨S100000x16, .f32⟩ : BufTy).Contents (Elt F) → (⟨S6500000x1, .i32⟩ : BufTy).Contents (Elt F) → (⟨S6500000x16, .f32⟩ : BufTy).Contents (Elt F)),
    unary main_v117 main_v126 (broadcastInDim S6500000x1 ![0] bcast_S6500000_S6500000x1_0 : (⟨S6500000, .f32⟩ : BufTy).Contents (Elt F) → (⟨S6500000x1, .f32⟩ : BufTy).Contents (Elt F)),
    unary main_v126 main_v127 (broadcastInDim S6500000x16 ![0, 1] bcast_S6500000x1_S6500000x16_0_1 : (⟨S6500000x1, .f32⟩ : BufTy).Contents (Elt F) → (⟨S6500000x16, .f32⟩ : BufTy).Contents (Elt F)),
    binary main_v125 main_v127 main_v128 (mulf : (⟨S6500000x16, .f32⟩ : BufTy).Contents (Elt F) → (⟨S6500000x16, .f32⟩ : BufTy).Contents (Elt F) → (⟨S6500000x16, .f32⟩ : BufTy).Contents (Elt F)),
    nullary main_cst_27 (constant S_ .f32 0x00000000#32),
    unary main_cst_27 main_v129 (broadcastInDim S100000x16 ![] bcast_S_S100000x16 : (⟨S_, .f32⟩ : BufTy).Contents (Elt F) → (⟨S100000x16, .f32⟩ : BufTy).Contents (Elt F)),
    unary main_v95 main_v130 (broadcastInDim S6500000x1 ![0] bcast_S6500000_S6500000x1_0 : (⟨S6500000, .i32⟩ : BufTy).Contents (Elt F) → (⟨S6500000x1, .i32⟩ : BufTy).Contents (Elt F)),
    ternary main_v129 main_v130 main_v128 main_v131 ((fun x i u => Host.scatterAdd scatter_S100000x16_S6500000x1_S6500000x16_1_0_0_1 x i u) : (⟨S100000x16, .f32⟩ : BufTy).Contents (Elt F) → (⟨S6500000x1, .i32⟩ : BufTy).Contents (Elt F) → (⟨S6500000x16, .f32⟩ : BufTy).Contents (Elt F) → (⟨S100000x16, .f32⟩ : BufTy).Contents (Elt F)),
    unary main_arg8 main_v132 (broadcastInDim S1x16 ![1] bcast_S16_S1x16_1 : (⟨S16, .f32⟩ : BufTy).Contents (Elt F) → (⟨S1x16, .f32⟩ : BufTy).Contents (Elt F)),
    unary main_v132 main_v133 (broadcastInDim S100000x16 ![0, 1] bcast_S1x16_S100000x16_0_1 : (⟨S1x16, .f32⟩ : BufTy).Contents (Elt F) → (⟨S100000x16, .f32⟩ : BufTy).Contents (Elt F)),
    binary main_v131 main_v133 main_v134 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x00000000#32),
    TRef.unary main_call1.cst main_call1.v0 (broadcastInDim S100000x16 ![] bcast_S_S100000x16),
    TRef.binary (.of main_v134 : TRef sig ⟨S100000x16, .f32⟩) main_call1.v0 main_call1.v1 (cmpf .ogt),
    TRef.nullary main_call1.cst_0 (constant S_ .f32 0x00000000#32),
    TRef.unary main_call1.cst_0 main_call1.v2 (broadcastInDim S100000x16 ![] bcast_S_S100000x16),
    TRef.binary (.of main_v134 : TRef sig ⟨S100000x16, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x16 ![] bcast_S_S100000x16),
    TRef.ternary main_call1.v3 main_call1.call0.v1 (.of main_v134 : TRef sig ⟨S100000x16, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x16 ![] bcast_S_S100000x16),
    TRef.binary main_call1.v6 main_call1.v5 main_call1.v7 mulf,
    TRef.ternary main_call1.v1 (.of main_v134 : TRef sig ⟨S100000x16, .f32⟩) main_call1.v7 main_call1.call1.v0 select,
    nullary main_v136 (iotaInDim S100000 32 0),
    binary main_v5 main_v136 main_v137 (catB : (⟨S6400000, .i32⟩ : BufTy).Contents (Elt F) → (⟨S100000, .i32⟩ : BufTy).Contents (Elt F) → (⟨S6500000, .i32⟩ : BufTy).Contents (Elt F)),
    binary main_v7 main_v136 main_v138 (catB : (⟨S6400000, .i32⟩ : BufTy).Contents (Elt F) → (⟨S100000, .i32⟩ : BufTy).Contents (Elt F) → (⟨S6500000, .i32⟩ : BufTy).Contents (Elt F)),
    nullary main_cst_28 (constant S_ .f32 0x3F800000#32),
    unary main_cst_28 main_v139 (broadcastInDim S6500000 ![] bcast_S_S6500000 : (⟨S_, .f32⟩ : BufTy).Contents (Elt F) → (⟨S6500000, .f32⟩ : BufTy).Contents (Elt F)),
    nullary main_cst_29 (constant S_ .f32 0x00000000#32),
    unary main_cst_29 main_v140 (broadcastInDim S100000 ![] bcast_S_S100000 : (⟨S_, .f32⟩ : BufTy).Contents (Elt F) → (⟨S100000, .f32⟩ : BufTy).Contents (Elt F)),
    unary main_v138 main_v141 (broadcastInDim S6500000x1 ![0] bcast_S6500000_S6500000x1_0 : (⟨S6500000, .i32⟩ : BufTy).Contents (Elt F) → (⟨S6500000x1, .i32⟩ : BufTy).Contents (Elt F)),
    ternary main_v140 main_v141 main_v139 main_v142 ((fun x i u => Host.scatterAdd scatter_S100000_S6500000x1_S6500000_n_0_0_1 x i u) : (⟨S100000, .f32⟩ : BufTy).Contents (Elt F) → (⟨S6500000x1, .i32⟩ : BufTy).Contents (Elt F) → (⟨S6500000, .f32⟩ : BufTy).Contents (Elt F) → (⟨S100000, .f32⟩ : BufTy).Contents (Elt F)),
    nullary main_cst_30 (constant S_ .f32 0x3F800000#32),
    unary main_cst_30 main_v143 (broadcastInDim S100000 ![] bcast_S_S100000 : (⟨S_, .f32⟩ : BufTy).Contents (Elt F) → (⟨S100000, .f32⟩ : BufTy).Contents (Elt F)),
    binary main_v142 main_v143 main_v144 (maximumf : (⟨S100000, .f32⟩ : BufTy).Contents (Elt F) → (⟨S100000, .f32⟩ : BufTy).Contents (Elt F) → (⟨S100000, .f32⟩ : BufTy).Contents (Elt F)),
    unary main_v144 main_v145 (Host.rsqrt : (⟨S100000, .f32⟩ : BufTy).Contents (Elt F) → (⟨S100000, .f32⟩ : BufTy).Contents (Elt F)),
    nullary main_c_31 (constantI S_ 32 0#32) ]

/-- The third window is these operations run in order: with the called functions' definitions unfolded at the
    call and sequencing re-associated, both sides are the same chain of steps. -/
theorem main_part2_eq (c : Dev nD) : main_part2 (F := F) c = seq ops2 := by
  simp only [main_part2, fn_elu.body, fn_where.body, fn_where_0.body, seq, bind_assoc, pure_bind]
  rfl

/-- Every operation of the list touches TensorCore buffers only. -/
theorem ops2_sub : (ops2 : List (HloOp τ sig (Elt F))).Forall fun op => op.bufs ⊆ tcRefs τ sig :=
  ⟨unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩

end Cert.ReferenceIdeal.RefRun

end
-- ==== Proof.RefOps3.lean ====
/-
  The reference's operations 209 … 266, as a list, and its last window as that list run in order.

  The rest of the second-order second layer, the two branches' results side by side (a concatenation along
  the columns), the final affine map, and the row-wise log-softmax: a function of the program, its fifteen
  operations (row maximum, shift, exponential, row sum, logarithm, subtraction) inline over its call's buffers.
-/
import proofs.«135999_j48524540510799_1_alg».proof.Proof.Gen.ReferenceIdeal
import proofs.«135999_j48524540510799_1_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 209 … 266 of the reference, in order (a called function's operations inline, over the call's buffers). -/
abbrev ops3 : List (HloOp τ sig (Elt F)) :=
  [ unary main_c_31 main_v146 (broadcastInDim S6500000 ![] bcast_S_S6500000 : (⟨S_, .i32⟩ : BufTy).Contents (Elt F) → (⟨S6500000, .i32⟩ : BufTy).Contents (Elt F)),
    binary main_v137 main_v146 main_v147 (cmpi .slt : (⟨S6500000, .i32⟩ : BufTy).Contents (Elt F) → (⟨S6500000, .i32⟩ : BufTy).Contents (Elt F) → (⟨S6500000, .i1⟩ : BufTy).Contents (Elt F)),
    nullary main_c_32 (constantI S_ 32 100000#32),
    unary main_c_32 main_v148 (broadcastInDim S6500000 ![] bcast_S_S6500000 : (⟨S_, .i32⟩ : BufTy).Contents (Elt F) → (⟨S6500000, .i32⟩ : BufTy).Contents (Elt F)),
    binary main_v137 main_v148 main_v149 (addi : (⟨S6500000, .i32⟩ : BufTy).Contents (Elt F) → (⟨S6500000, .i32⟩ : BufTy).Contents (Elt F) → (⟨S6500000, .i32⟩ : BufTy).Contents (Elt F)),
    ternary main_v147 main_v149 main_v137 main_v150 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v150 main_v151 (broadcastInDim S6500000x1 ![0] bcast_S6500000_S6500000x1_0 : (⟨S6500000, .i32⟩ : BufTy).Contents (Elt F) → (⟨S6500000x1, .i32⟩ : BufTy).Contents (Elt F)),
    binary main_v145 main_v151 main_v152 ((fun x i => Host.gather gather_S100000_S6500000x1_S6500000_n_0_n_n_0_1_1 x i) : (⟨S100000, .f32⟩ : BufTy).Contents (Elt F) → (⟨S6500000x1, .i32⟩ : BufTy).Contents (Elt F) → (⟨S6500000, .f32⟩ : BufTy).Contents (Elt F)),
    nullary main_c_33 (constantI S_ 32 0#32),
    unary main_c_33 main_v153 (broadcastInDim S6500000 ![] bcast_S_S6500000 : (⟨S_, .i32⟩ : BufTy).Contents (Elt F) → (⟨S6500000, .i32⟩ : BufTy).Contents (Elt F)),
    binary main_v138 main_v153 main_v154 (cmpi .slt : (⟨S6500000, .i32⟩ : BufTy).Contents (Elt F) → (⟨S6500000, .i32⟩ : BufTy).Contents (Elt F) → (⟨S6500000, .i1⟩ : BufTy).Contents (Elt F)),
    nullary main_c_34 (constantI S_ 32 100000#32),
    unary main_c_34 main_v155 (broadcastInDim S6500000 ![] bcast_S_S6500000 : (⟨S_, .i32⟩ : BufTy).Contents (Elt F) → (⟨S6500000, .i32⟩ : BufTy).Contents (Elt F)),
    binary main_v138 main_v155 main_v156 (addi : (⟨S6500000, .i32⟩ : BufTy).Contents (Elt F) → (⟨S6500000, .i32⟩ : BufTy).Contents (Elt F) → (⟨S6500000, .i32⟩ : BufTy).Contents (Elt F)),
    ternary main_v154 main_v156 main_v138 main_v157 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v157 main_v158 (broadcastInDim S6500000x1 ![0] bcast_S6500000_S6500000x1_0 : (⟨S6500000, .i32⟩ : BufTy).Contents (Elt F) → (⟨S6500000x1, .i32⟩ : BufTy).Contents (Elt F)),
    binary main_v145 main_v158 main_v159 ((fun x i => Host.gather gather_S100000_S6500000x1_S6500000_n_0_n_n_0_1_1 x i) : (⟨S100000, .f32⟩ : BufTy).Contents (Elt F) → (⟨S6500000x1, .i32⟩ : BufTy).Contents (Elt F) → (⟨S6500000, .f32⟩ : BufTy).Contents (Elt F)),
    binary main_v152 main_v159 main_v160 (mulf : (⟨S6500000, .f32⟩ : BufTy).Contents (Elt F) → (⟨S6500000, .f32⟩ : BufTy).Contents (Elt F) → (⟨S6500000, .f32⟩ : BufTy).Contents (Elt F)),
    binary main_v135 main_arg9 main_v161 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_35 (constantI S_ 32 0#32),
    unary main_c_35 main_v162 (broadcastInDim S6500000 ![] bcast_S_S6500000 : (⟨S_, .i32⟩ : BufTy).Contents (Elt F) → (⟨S6500000, .i32⟩ : BufTy).Contents (Elt F)),
    binary main_v137 main_v162 main_v163 (cmpi .slt : (⟨S6500000, .i32⟩ : BufTy).Contents (Elt F) → (⟨S6500000, .i32⟩ : BufTy).Contents (Elt F) → (⟨S6500000, .i1⟩ : BufTy).Contents (Elt F)),
    nullary main_c_36 (constantI S_ 32 100000#32),
    unary main_c_36 main_v164 (broadcastInDim S6500000 ![] bcast_S_S6500000 : (⟨S_, .i32⟩ : BufTy).Contents (Elt F) → (⟨S6500000, .i32⟩ : BufTy).Contents (Elt F)),
    binary main_v137 main_v164 main_v165 (addi : (⟨S6500000, .i32⟩ : BufTy).Contents (Elt F) → (⟨S6500000, .i32⟩ : BufTy).Contents (Elt F) → (⟨S6500000, .i32⟩ : BufTy).Contents (Elt F)),
    ternary main_v163 main_v165 main_v137 main_v166 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v166 main_v167 (broadcastInDim S6500000x1 ![0] bcast_S6500000_S6500000x1_0 : (⟨S6500000, .i32⟩ : BufTy).Contents (Elt F) → (⟨S6500000x1, .i32⟩ : BufTy).Contents (Elt F)),
    binary main_v161 main_v167 main_v168 ((fun x i => Host.gather gather_S100000x40_S6500000x1_S6500000x40_1_0_n_n_0_1_140 x i) : (⟨S100000x40, .f32⟩ : BufTy).Contents (Elt F) → (⟨S6500000x1, .i32⟩ : BufTy).Contents (Elt F) → (⟨S6500000x40, .f32⟩ : BufTy).Contents (Elt F)),
    unary main_v160 main_v169 (broadcastInDim S6500000x1 ![0] bcast_S6500000_S6500000x1_0 : (⟨S6500000, .f32⟩ : BufTy).Contents (Elt F) → (⟨S6500000x1, .f32⟩ : BufTy).Contents (Elt F)),
    unary main_v169 main_v170 (broadcastInDim S6500000x40 ![0, 1] bcast_S6500000x1_S6500000x40_0_1 : (⟨S6500000x1, .f32⟩ : BufTy).Contents (Elt F) → (⟨S6500000x40, .f32⟩ : BufTy).Contents (Elt F)),
    binary main_v168 main_v170 main_v171 (mulf : (⟨S6500000x40, .f32⟩ : BufTy).Contents (Elt F) → (⟨S6500000x40, .f32⟩ : BufTy).Contents (Elt F) → (⟨S6500000x40, .f32⟩ : BufTy).Contents (Elt F)),
    nullary main_cst_37 (constant S_ .f32 0x00000000#32),
    unary main_cst_37 main_v172 (broadcastInDim S100000x40 ![] bcast_S_S100000x40 : (⟨S_, .f32⟩ : BufTy).Contents (Elt F) → (⟨S100000x40, .f32⟩ : BufTy).Contents (Elt F)),
    unary main_v138 main_v173 (broadcastInDim S6500000x1 ![0] bcast_S6500000_S6500000x1_0 : (⟨S6500000, .i32⟩ : BufTy).Contents (Elt F) → (⟨S6500000x1, .i32⟩ : BufTy).Contents (Elt F)),
    ternary main_v172 main_v173 main_v171 main_v174 ((fun x i u => Host.scatterAdd scatter_S100000x40_S6500000x1_S6500000x40_1_0_0_1 x i u) : (⟨S100000x40, .f32⟩ : BufTy).Contents (Elt F) → (⟨S6500000x1, .i32⟩ : BufTy).Contents (Elt F) → (⟨S6500000x40, .f32⟩ : BufTy).Contents (Elt F) → (⟨S100000x40, .f32⟩ : BufTy).Contents (Elt F)),
    unary main_arg10 main_v175 (broadcastInDim S1x40 ![1] bcast_S40_S1x40_1 : (⟨S40, .f32⟩ : BufTy).Contents (Elt F) → (⟨S1x40, .f32⟩ : BufTy).Contents (Elt F)),
    unary main_v175 main_v176 (broadcastInDim S100000x40 ![0, 1] bcast_S1x40_S100000x40_0_1 : (⟨S1x40, .f32⟩ : BufTy).Contents (Elt F) → (⟨S100000x40, .f32⟩ : BufTy).Contents (Elt F)),
    binary main_v174 main_v176 main_v177 (addf : (⟨S100000x40, .f32⟩ : BufTy).Contents (Elt F) → (⟨S100000x40, .f32⟩ : BufTy).Contents (Elt F) → (⟨S100000x40, .f32⟩ : BufTy).Contents (Elt F)),
    binary main_v92 main_v177 main_v178 (catC : (⟨S100000x40, .f32⟩ : BufTy).Contents (Elt F) → (⟨S100000x40, .f32⟩ : BufTy).Contents (Elt F) → (⟨S100000x80, .f32⟩ : BufTy).Contents (Elt F)),
    binary main_v178 main_arg11 main_v179 ((fun l r => Host.dotGeneral dot_S100000x80_S80x40_S100000x40_1_0_0_1_n_n none l r) : (⟨S100000x80, .f32⟩ : BufTy).Contents (Elt F) → (⟨S80x40, .f32⟩ : BufTy).Contents (Elt F) → (⟨S100000x40, .f32⟩ : BufTy).Contents (Elt F)),
    unary main_arg12 main_v180 (broadcastInDim S1x40 ![1] bcast_S40_S1x40_1 : (⟨S40, .f32⟩ : BufTy).Contents (Elt F) → (⟨S1x40, .f32⟩ : BufTy).Contents (Elt F)),
    unary main_v180 main_v181 (broadcastInDim S100000x40 ![0, 1] bcast_S1x40_S100000x40_0_1 : (⟨S1x40, .f32⟩ : BufTy).Contents (Elt F) → (⟨S100000x40, .f32⟩ : BufTy).Contents (Elt F)),
    binary main_v179 main_v181 main_v182 (addf : (⟨S100000x40, .f32⟩ : BufTy).Contents (Elt F) → (⟨S100000x40, .f32⟩ : BufTy).Contents (Elt F) → (⟨S100000x40, .f32⟩ : BufTy).Contents (Elt F)),
    TRef.nullary main_call2.cst (constant S_ .f32 0xFF800000#32),
    TRef.binary (.of main_v182 : TRef sig ⟨S100000x40, .f32⟩) main_call2.cst main_call2.v0 (fun x v => Host.reduce FloatOps.maximumf x v reducesTo_S100000x40_S100000_d1 h_S_),
    TRef.nullary main_call2.cst_0 (constant S_ .f32 0xFF800000#32),
    TRef.unary main_call2.cst_0 main_call2.v1 (broadcastInDim S100000 ![] bcast_S_S100000),
    TRef.binary main_call2.v1 main_call2.v0 main_call2.v2 maximumf,
    TRef.unary main_call2.v2 main_call2.v3 (broadcastInDim S100000x1 ![0] bcast_S100000_S100000x1_0),
    TRef.unary main_call2.v3 main_call2.v4 (broadcastInDim S100000x40 ![0, 1] bcast_S100000x1_S100000x40_0_1),
    TRef.binary (.of main_v182 : TRef sig ⟨S100000x40, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S100000x40_S100000_d1 h_S_),
    TRef.unary main_call2.v7 main_call2.v8 (broadcastInDim S100000x1 ![0] bcast_S100000_S100000x1_0),
    TRef.unary main_call2.v8 main_call2.v9 Host.log,
    TRef.unary main_call2.v9 main_call2.v10 (broadcastInDim S100000x40 ![0, 1] bcast_S100000x1_S100000x40_0_1),
    TRef.binary main_call2.v5 main_call2.v10 main_call2.v11 subf ]

/-- The last window is these operations run in order: with the called function's definition unfolded at the
    call and sequencing re-associated, both sides are the same chain of steps. -/
theorem main_part3_eq (c : Dev nD) : main_part3 (F := F) c = seq ops3 := by
  simp only [main_part3, fn_log_softmax.body, seq, bind_assoc, pure_bind]
  rfl

/-- Every operation of the list touches TensorCore buffers only. -/
theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.RefRun

end
-- ==== Proof.RefRun.lean ====
/-
  The run of the reference: a host program of 266 tensor operations and no kernel.

  Its main function is four windows run in order, and each window is a list of operations run in order
  (the sibling modules), so the whole is the concatenation of the four lists run in order. No buffer of the
  signature is scoped and there is no semaphore, so the general statement for straight-line host programs
  applies: every weakly fair execution terminates, and each buffer ends at the fold of the operations'
  results over the contents the run was launched with.
-/
import proofs.«135999_j48524540510799_1_alg».proof.Proof.RefOps0
import proofs.«135999_j48524540510799_1_alg».proof.Proof.RefOps1
import proofs.«135999_j48524540510799_1_alg».proof.Proof.RefOps2
import proofs.«135999_j48524540510799_1_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All the reference's operations, in order: the four windows' lists one after the other. -/
abbrev ops : List (HloOp τ sig (Elt F)) :=
  ops0 ++ (ops1 ++ (ops2 ++ ops3))

/-- The main function is that list run in order: it runs its four windows in order, each window is its list
    run in order, and two lists run one after the other are their concatenation run as one. -/
theorem main_eq (c : Dev nD) : main (F := F) c = seq ops := by
  simp only [ops, seq_append, ← main_part0_eq c, ← main_part1_eq c, ← main_part2_eq c, ← main_part3_eq c]
  rfl

/-- No TensorCore buffer of the signature is scoped. -/
theorem scopedRefs_eq : (Finset.univ.filter fun b : Ref sig .tc => b.isScoped) = ∅ := by decide
/-- There is no semaphore, so none is scoped. -/
theorem scopedSems_eq : (Finset.univ.filter fun sm : SemLoc sig => sm.isScoped .tc) = ∅ := by decide

/-- Every operation touches TensorCore buffers only: each lies in one of the four lists, where this holds. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- At the compiled mesh, for any float values, from any memory with zero counters: every weakly fair execution
    of the main function on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ

end Cert.ReferenceIdeal.RefRun

end
-- ==== Proof.RefWrites.lean ====
/-
  Which buffers the reference's operations write, window by window, and that every other buffer keeps its
  contents through a window.

  Every operation writes exactly its own result buffer, so the buffers a window writes are a list of
  references read off its operations; a reference outside the list — decided by comparing references — is
  untouched by the window's fold.
-/
import proofs.«135999_j48524540510799_1_alg».proof.Proof.RefOps0
import proofs.«135999_j48524540510799_1_alg».proof.Proof.RefOps1
import proofs.«135999_j48524540510799_1_alg».proof.Proof.RefOps2
import proofs.«135999_j48524540510799_1_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the first window's operations write, in order: each operation writes its own result buffer. -/
abbrev ops0_W : List (Ref sig .tc) :=
  [main_v0, main_v1, main_v2, main_v3, main_v4, main_v5, main_v6, main_v7, main_v8, main_v9, main_v10, main_cst,
   main_v11, main_cst_0, main_v12, main_v13, main_v14, main_cst_1, main_v15, main_v16, main_v17, main_c, main_v18,
   main_v19, main_c_2, main_v20, main_v21, main_v22, main_v23, main_v24, main_c_3, main_v25, main_v26, main_c_4,
   main_v27, main_v28, main_v29, main_v30, main_v31, main_v32, main_v33, main_c_5, main_v34, main_v35, main_c_6,
   main_v36, main_v37, main_v38, main_v39, main_v40, main_v41, main_v42, main_v43, main_cst_7, main_v44, main_v45,
   main_v46, main_v47, main_v48, main_v49]

/-- Each operation of the first window writes one buffer, and it is in that list. -/
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the first window does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

/-- The buffers the second window's operations write, in order: each operation writes its own result buffer. -/
abbrev ops1_W : List (Ref sig .tc) :=
  [main_call0.cst.ref, main_call0.v0.ref, main_call0.v1.ref, main_call0.cst_0.ref, main_call0.v2.ref,
   main_call0.v3.ref, main_call0.cst_1.ref, main_call0.call0.v0.ref, main_call0.call0.v1.ref,
   main_call0.call0.v2.ref, main_call0.v5.ref, main_call0.cst_2.ref, main_call0.v6.ref, main_call0.v7.ref,
   main_call0.call1.v0.ref, main_v51, main_v52, main_v53, main_cst_8, main_v54, main_cst_9, main_v55, main_v56,
   main_v57, main_cst_10, main_v58, main_v59, main_v60, main_c_11, main_v61, main_v62, main_c_12, main_v63,
   main_v64, main_v65, main_v66, main_v67, main_c_13, main_v68, main_v69, main_c_14, main_v70, main_v71, main_v72,
   main_v73, main_v74, main_v75, main_v76, main_c_15, main_v77, main_v78, main_c_16, main_v79, main_v80, main_v81,
   main_v82, main_v83, main_v84, main_v85, main_v86, main_cst_17, main_v87, main_v88, main_v89, main_v90, main_v91,
   main_v92, main_v93, main_v94, main_v95, main_cst_18, main_v96, main_cst_19, main_v97]

/-- Each operation of the second window writes one buffer, and it is in that list. -/
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the second window does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

/-- The buffers the third window's operations write, in order: each operation writes its own result buffer. -/
abbrev ops2_W : List (Ref sig .tc) :=
  [main_v98, main_v99, main_cst_20, main_v100, main_v101, main_v102, main_c_21, main_v103, main_v104, main_c_22,
   main_v105, main_v106, main_v107, main_v108, main_v109, main_c_23, main_v110, main_v111, main_c_24, main_v112,
   main_v113, main_v114, main_v115, main_v116, main_v117, main_v118, main_c_25, main_v119, main_v120, main_c_26,
   main_v121, main_v122, main_v123, main_v124, main_v125, main_v126, main_v127, main_v128, main_cst_27, main_v129,
   main_v130, main_v131, main_v132, main_v133, main_v134, main_call1.cst.ref, main_call1.v0.ref, main_call1.v1.ref,
   main_call1.cst_0.ref, main_call1.v2.ref, main_call1.v3.ref, main_call1.cst_1.ref, main_call1.call0.v0.ref,
   main_call1.call0.v1.ref, main_call1.call0.v2.ref, main_call1.v5.ref, main_call1.cst_2.ref, main_call1.v6.ref,
   main_call1.v7.ref, main_call1.call1.v0.ref, main_v136, main_v137, main_v138, main_cst_28, main_v139, main_cst_29,
   main_v140, main_v141, main_v142, main_cst_30, main_v143, main_v144, main_v145, main_c_31]

/-- Each operation of the third window writes one buffer, and it is in that list. -/
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the third window does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

/-- The buffers the last window's operations write, in order: each operation writes its own result buffer. -/
abbrev ops3_W : List (Ref sig .tc) :=
  [main_v146, main_v147, main_c_32, main_v148, main_v149, main_v150, main_v151, main_v152, main_c_33, main_v153,
   main_v154, main_c_34, main_v155, main_v156, main_v157, main_v158, main_v159, main_v160, main_v161, main_c_35,
   main_v162, main_v163, main_c_36, main_v164, main_v165, main_v166, main_v167, main_v168, main_v169, main_v170,
   main_v171, main_cst_37, main_v172, main_v173, main_v174, main_v175, main_v176, main_v177, main_v178, main_v179,
   main_v180, main_v181, main_v182, main_call2.cst.ref, main_call2.v0.ref, main_call2.cst_0.ref, main_call2.v1.ref,
   main_call2.v2.ref, main_call2.v3.ref, main_call2.v4.ref, main_call2.v5.ref, main_call2.v6.ref,
   main_call2.cst_1.ref, main_call2.v7.ref, main_call2.v8.ref, main_call2.v9.ref, main_call2.v10.ref,
   main_call2.v11.ref]

/-- Each operation of the last window writes one buffer, and it is in that list. -/
theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the last window does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.RefArgs.lean ====
/-
  No operation of the reference writes one of its thirteen arguments, so each argument's buffer holds at the end
  of the run what it held at the start.

  The run's fold over the whole list is the four windows' folds one after the other, and a buffer outside the
  list of buffers a window writes is kept by that window.
-/
import proofs.«135999_j48524540510799_1_alg».proof.Proof.RefRun
import proofs.«135999_j48524540510799_1_alg».proof.Proof.RefWrites
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over the whole list is the four windows' folds, one after the other. -/
theorem after_ops (V : Valuation τ sig (Elt F)) :
    after ops V = after ops3 (after ops2 (after ops1 (after ops0 V))) := by
  show after (ops0 ++ (ops1 ++ (ops2 ++ ops3))) V = _
  rw [after_append, after_append, after_append]

/-- A buffer none of the four windows writes keeps its contents through the whole run. -/
theorem keep (V : Valuation τ sig (Elt F)) (r : Ref sig .tc)
    (h0 : r ∉ ops0_W) (h1 : r ∉ ops1_W) (h2 : r ∉ ops2_W) (h3 : r ∉ ops3_W) :
    after ops V (Proc.devRef .tc r) = V (Proc.devRef .tc r) := by
  rw [after_ops, keep3 _ r h3, keep2 _ r h2, keep1 _ r h1, keep0 _ r h0]

/-- Argument 0 is written by no operation. -/
theorem arg0_eq (V : Valuation τ sig (Elt F)) :
    after ops V (main_arg0 : DevRef τ sig) = V (main_arg0 : DevRef τ sig) :=
  keep V main_arg0 (by decide) (by decide) (by decide) (by decide)

/-- Argument 1 is written by no operation. -/
theorem arg1_eq (V : Valuation τ sig (Elt F)) :
    after ops V (main_arg1 : DevRef τ sig) = V (main_arg1 : DevRef τ sig) :=
  keep V main_arg1 (by decide) (by decide) (by decide) (by decide)

/-- Argument 2 is written by no operation. -/
theorem arg2_eq (V : Valuation τ sig (Elt F)) :
    after ops V (main_arg2 : DevRef τ sig) = V (main_arg2 : DevRef τ sig) :=
  keep V main_arg2 (by decide) (by decide) (by decide) (by decide)

/-- Argument 3 is written by no operation. -/
theorem arg3_eq (V : Valuation τ sig (Elt F)) :
    after ops V (main_arg3 : DevRef τ sig) = V (main_arg3 : DevRef τ sig) :=
  keep V main_arg3 (by decide) (by decide) (by decide) (by decide)

/-- Argument 4 is written by no operation. -/
theorem arg4_eq (V : Valuation τ sig (Elt F)) :
    after ops V (main_arg4 : DevRef τ sig) = V (main_arg4 : DevRef τ sig) :=
  keep V main_arg4 (by decide) (by decide) (by decide) (by decide)

/-- Argument 5 is written by no operation. -/
theorem arg5_eq (V : Valuation τ sig (Elt F)) :
    after ops V (main_arg5 : DevRef τ sig) = V (main_arg5 : DevRef τ sig) :=
  keep V main_arg5 (by decide) (by decide) (by decide) (by decide)

/-- Argument 6 is written by no operation. -/
theorem arg6_eq (V : Valuation τ sig (Elt F)) :
    after ops V (main_arg6 : DevRef τ sig) = V (main_arg6 : DevRef τ sig) :=
  keep V main_arg6 (by decide) (by decide) (by decide) (by decide)

/-- Argument 7 is written by no operation. -/
theorem arg7_eq (V : Valuation τ sig (Elt F)) :
    after ops V (main_arg7 : DevRef τ sig) = V (main_arg7 : DevRef τ sig) :=
  keep V main_arg7 (by decide) (by decide) (by decide) (by decide)

/-- Argument 8 is written by no operation. -/
theorem arg8_eq (V : Valuation τ sig (Elt F)) :
    after ops V (main_arg8 : DevRef τ sig) = V (main_arg8 : DevRef τ sig) :=
  keep V main_arg8 (by decide) (by decide) (by decide) (by decide)

/-- Argument 9 is written by no operation. -/
theorem arg9_eq (V : Valuation τ sig (Elt F)) :
    after ops V (main_arg9 : DevRef τ sig) = V (main_arg9 : DevRef τ sig) :=
  keep V main_arg9 (by decide) (by decide) (by decide) (by decide)

/-- Argument 10 is written by no operation. -/
theorem arg10_eq (V : Valuation τ sig (Elt F)) :
    after ops V (main_arg10 : DevRef τ sig) = V (main_arg10 : DevRef τ sig) :=
  keep V main_arg10 (by decide) (by decide) (by decide) (by decide)

/-- Argument 11 is written by no operation. -/
theorem arg11_eq (V : Valuation τ sig (Elt F)) :
    after ops V (main_arg11 : DevRef τ sig) = V (main_arg11 : DevRef τ sig) :=
  keep V main_arg11 (by decide) (by decide) (by decide) (by decide)

/-- Argument 12 is written by no operation. -/
theorem arg12_eq (V : Valuation τ sig (Elt F)) :
    after ops V (main_arg12 : DevRef τ sig) = V (main_arg12 : DevRef τ sig) :=
  keep V main_arg12 (by decide) (by decide) (by decide) (by decide)

end Cert.ReferenceIdeal.RefRun

end
-- ==== Proof.RefClaims.lean ====
/-
  The reference's run, read two ways.

  The reference is a straight-line host program: its run terminates and leaves every buffer at the fold of its
  operations' results over the contents it was launched with. None of the operations writes one of the thirteen
  arguments, so each argument ends as it was launched — that is the frame claim, with every other buffer's final
  contents dropped. And if the fold leaves the result buffer at the reference's value — one function of the
  thirteen arguments' contents — then the run ends with the result buffer at that function of the LAUNCH contents
  of the arguments, the arguments unchanged.
-/
import proofs.«135999_j48524540510799_1_alg».proof.Defs
import proofs.«135999_j48524540510799_1_alg».proof.Proof.Gen.ReferenceIdeal
import proofs.«135999_j48524540510799_1_alg».proof.Proof.Gen.Pre_finite_inputs
import proofs.«135999_j48524540510799_1_alg».proof.Proof.RefRun
import proofs.«135999_j48524540510799_1_alg».proof.Proof.RefArgs
import proofs.«135999_j48524540510799_1_alg».proof.Proof.Stages

noncomputable section

namespace Cert.Proof.RefClaims

open Cert.Stages Cert.ReferenceIdeal Cert.ReferenceIdeal.Gen Cert.ReferenceIdeal.RefRun
open Idealize.ShloMosaic Idealize.ShloMosaic.TcCoe Idealize.SL.Sem Idealize.ShloMosaic.StableHlo

/-- The frame of the reference: every weakly fair run from a memory satisfying the precondition terminates with the
    thirteen arguments as launched — the run's post-condition at the arguments, each kept by the whole fold. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main (F := Ideal) m ρ)

/-- The run with its result named: if the operations' fold leaves the result buffer at the reference's value of the
    arguments' contents (`hout`), every run ends with the result buffer at that value of the launch contents of the
    arguments, and the arguments unchanged. -/
theorem value_run
    (hout : ∀ V : Valuation τ sig (Elt Ideal),
      after (ops (F := Ideal)) V (main_v183 : DevRef τ sig) = refVal (F := Ideal) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v183) = refVal (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c main_v183).trans (hout (launchContents m c)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main (F := Ideal) m ρ)

end Cert.Proof.RefClaims

end
-- ==== Proof.RefVal0.lean ====
/-
  What the reference's first window leaves in the buffers later windows read, from any contents `V`.

  The four rows of the two edge lists as vectors, and the first layer of the first graph's branch:
  x · W1 aggregated over the graph with its bias. Each is read off the fold of the window's sixty operations
  (an operation's result at its own buffer is its function of its operands' contents, at any other buffer
  what was there), and the composed term is the named stage by unfolding the stage's definition.
-/
import proofs.«135999_j48524540510799_1_alg».proof.Proof.RefOps0
import proofs.«135999_j48524540510799_1_alg».proof.Proof.RefTerms
import proofs.«135999_j48524540510799_1_alg».proof.Proof.Stages

noncomputable section

namespace Cert.ReferenceIdeal.RefRun

open Cert.Stages Cert.ReferenceIdeal Cert.ReferenceIdeal.Gen Idealize.ShloMosaic Idealize.ShloMosaic.TcCoe Idealize.SL.Sem Idealize.ShloMosaic.StableHlo

variable {F : FTy → Type} [FloatOps F]

/-- The first edge list's sources. -/
theorem w0_v1 (V : Valuation τ sig (Elt F)) :
    after ops0 V (main_v1 : DevRef τ sig) = rowA0 (V (main_arg1 : DevRef τ sig)) := by
  simp only [ops0]
  after_results_simp
  all_goals rfl

/-- The first edge list's targets. -/
theorem w0_v3 (V : Valuation τ sig (Elt F)) :
    after ops0 V (main_v3 : DevRef τ sig) = rowA1 (V (main_arg1 : DevRef τ sig)) := by
  simp only [ops0]
  after_results_simp
  all_goals rfl

/-- The second edge list's sources. -/
theorem w0_v5 (V : Valuation τ sig (Elt F)) :
    after ops0 V (main_v5 : DevRef τ sig) = rowB0 (V (main_arg2 : DevRef τ sig)) := by
  simp only [ops0]
  after_results_simp
  all_goals rfl

/-- The second edge list's targets. -/
theorem w0_v7 (V : Valuation τ sig (Elt F)) :
    after ops0 V (main_v7 : DevRef τ sig) = rowB1 (V (main_arg2 : DevRef τ sig)) := by
  simp only [ops0]
  after_results_simp
  all_goals rfl

attribute [local irreducible] Host.gather Host.reduce in
set_option maxRecDepth 16384 in
set_option maxHeartbeats 4000000 in
/-- The first graph's first layer: the product x · W1 aggregated over the graph, plus the bias. The gathers and
    the reductions stay folded: the equation never looks inside them. -/
theorem w0_v49 (V : Valuation τ sig (Elt F)) :
    after ops0 V (main_v49 : DevRef τ sig)
      = gcnA16 (V (main_arg1 : DevRef τ sig)) (dotIn (V (main_arg0 : DevRef τ sig)) (V (main_arg3 : DevRef τ sig))) (V (main_arg4 : DevRef τ sig)) := by
  simp only [ops0]
  after_results_simp
  all_goals rfl

end Cert.ReferenceIdeal.RefRun

end
-- ==== Proof.RefVal1.lean ====
/-
  What the reference's second window leaves in the buffers later windows read, from any contents `W` whose
  edge-list rows are the rows of given edge lists.

  The second layer of the first graph's branch — the exponential linear unit of the first layer's result, times
  W2, aggregated over the graph with its bias —, the second graph's source and target lists with the self-loops
  appended, and the all-ones and all-zeros vectors its degree count uses. Each is read off the fold of the
  window's operations and is the named stage by unfolding the stage's definition.
-/
import proofs.«135999_j48524540510799_1_alg».proof.Proof.RefOps1
import proofs.«135999_j48524540510799_1_alg».proof.Proof.RefTerms
import proofs.«135999_j48524540510799_1_alg».proof.Proof.Stages

noncomputable section

namespace Cert.ReferenceIdeal.RefRun

open Cert.Stages Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.reduce in
set_option maxRecDepth 16384 in
set_option maxHeartbeats 4000000 in
/-- The first graph's second layer, from the first layer's result. -/
theorem w1_v92 (W : Valuation τ sig (Elt F)) (adjA : (⟨S2x3200000, .i32⟩ : BufTy).Contents (Elt F))
    (h1 : W (main_v1 : DevRef τ sig) = rowA0 adjA) (h3 : W (main_v3 : DevRef τ sig) = rowA1 adjA) :
    after ops1 W (main_v92 : DevRef τ sig)
      = gcnA40 adjA (dotMid (eluR (W (main_v49 : DevRef τ sig))) (W (main_arg5 : DevRef τ sig))) (W (main_arg6 : DevRef τ sig)) := by
  simp only [ops1]
  after_results_simp
  simp only [h1, h3]
  all_goals rfl

/-- The second graph's sources, self-loops appended. -/
theorem w1_v94 (W : Valuation τ sig (Elt F)) (adjB : (⟨S2x6400000, .i32⟩ : BufTy).Contents (Elt F))
    (h5 : W (main_v5 : DevRef τ sig) = rowB0 adjB) :
    after ops1 W (main_v94 : DevRef τ sig) = srcB adjB := by
  simp only [ops1]
  after_results_simp
  simp only [h5]
  all_goals rfl

/-- The second graph's targets, self-loops appended. -/
theorem w1_v95 (W : Valuation τ sig (Elt F)) (adjB : (⟨S2x6400000, .i32⟩ : BufTy).Contents (Elt F))
    (h7 : W (main_v7 : DevRef τ sig) = rowB1 adjB) :
    after ops1 W (main_v95 : DevRef τ sig) = dstB adjB := by
  simp only [ops1]
  after_results_simp
  simp only [h7]
  all_goals rfl

/-- The all-ones vector over the second graph's edges. -/
theorem w1_v96 (W : Valuation τ sig (Elt F)) :
    after ops1 W (main_v96 : DevRef τ sig) = onesB := by
  simp only [ops1]
  after_results_simp
  all_goals rfl

/-- The all-zeros vector over the nodes. -/
theorem w1_v97 (W : Valuation τ sig (Elt F)) :
    after ops1 W (main_v97 : DevRef τ sig) = zerosN := by
  simp only [ops1]
  after_results_simp
  all_goals rfl

end Cert.ReferenceIdeal.RefRun

end
-- ==== Proof.RefVal2.lean ====
/-
  What the reference's third window leaves in the buffers the last window reads, from any contents `W` that
  hold the second graph's edge lists and the degree count's constant vectors.

  The exponential linear unit of the second graph's first layer, the graph's source and target lists once more
  (the program recomputes them for every layer), its inverse square-root degrees, and the integer zero the index
  normalisation compares with.
-/
import proofs.«135999_j48524540510799_1_alg».proof.Proof.RefOps2
import proofs.«135999_j48524540510799_1_alg».proof.Proof.RefTerms
import proofs.«135999_j48524540510799_1_alg».proof.Proof.Stages

noncomputable section

namespace Cert.ReferenceIdeal.RefRun

open Cert.Stages Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.reduce in
set_option maxRecDepth 16384 in
set_option maxHeartbeats 4000000 in
/-- The second graph's first layer and its exponential linear unit. -/
theorem w2_v135 (W : Valuation τ sig (Elt F)) (adjB : (⟨S2x6400000, .i32⟩ : BufTy).Contents (Elt F))
    (h94 : W (main_v94 : DevRef τ sig) = srcB adjB) (h95 : W (main_v95 : DevRef τ sig) = dstB adjB)
    (h96 : W (main_v96 : DevRef τ sig) = onesB) (h97 : W (main_v97 : DevRef τ sig) = zerosN) :
    after ops2 W (main_v135 : DevRef τ sig)
      = eluR (gcnB16 adjB (dotIn (W (main_arg0 : DevRef τ sig)) (W (main_arg7 : DevRef τ sig))) (W (main_arg8 : DevRef τ sig))) := by
  simp only [ops2]
  after_results_simp
  simp only [h94, h95, h96, h97]
  all_goals rfl

/-- The second graph's sources, recomputed. -/
theorem w2_v137 (W : Valuation τ sig (Elt F)) (adjB : (⟨S2x6400000, .i32⟩ : BufTy).Contents (Elt F))
    (h5 : W (main_v5 : DevRef τ sig) = rowB0 adjB) :
    after ops2 W (main_v137 : DevRef τ sig) = srcB adjB := by
  simp only [ops2]
  after_results_simp
  simp only [h5]
  all_goals rfl

/-- The second graph's targets, recomputed. -/
theorem w2_v138 (W : Valuation τ sig (Elt F)) (adjB : (⟨S2x6400000, .i32⟩ : BufTy).Contents (Elt F))
    (h7 : W (main_v7 : DevRef τ sig) = rowB1 adjB) :
    after ops2 W (main_v138 : DevRef τ sig) = dstB adjB := by
  simp only [ops2]
  after_results_simp
  simp only [h7]
  all_goals rfl

attribute [local irreducible] Host.gather Host.reduce in
set_option maxRecDepth 16384 in
set_option maxHeartbeats 4000000 in
/-- The second graph's inverse square-root degrees, recomputed. -/
theorem w2_v145 (W : Valuation τ sig (Elt F)) (adjB : (⟨S2x6400000, .i32⟩ : BufTy).Contents (Elt F))
    (h7 : W (main_v7 : DevRef τ sig) = rowB1 adjB) :
    after ops2 W (main_v145 : DevRef τ sig) = isdB (dstB adjB) := by
  simp only [ops2]
  after_results_simp
  simp only [h7]
  all_goals rfl

/-- The integer zero. -/
theorem w2_c31 (W : Valuation τ sig (Elt F)) :
    after ops2 W (main_c_31 : DevRef τ sig) = constantI S_ 32 0#32 := by
  simp only [ops2]
  after_results_simp
  all_goals rfl

end Cert.ReferenceIdeal.RefRun

end
-- ==== Proof.RefCast.lean ====
/-
  A typed reference moves contents between the value's type and its buffer's type along the equation of the two
  types; there and back again is the identity.
-/
import Idealize.ShloMosaic.Lib.StableHlo

namespace Cert.ReferenceIdeal.RefRun

open Idealize.ShloMosaic Idealize.ShloMosaic.StableHlo

variable {sig : RefSig} {Val : EltTy → Type} {T : BufTy}

/-- Contents written into a typed reference's buffer and read back are the contents. -/
theorem ofBuf_toBuf (x : TRef sig T) (v : T.Contents Val) : x.ofBuf (x.toBuf v) = v := by
  obtain ⟨r, h, _, _⟩ := x
  subst h
  rfl

end Cert.ReferenceIdeal.RefRun
-- ==== Proof.RefVal3.lean ====
/-
  What the reference's last window leaves in its result buffer, from any contents `W` that hold the second
  graph's edge lists, its inverse square-root degrees and the integer zero.

  The second graph's second layer, the two branches' results combined by the final affine map, and the row-wise
  log-softmax of that.

  The log-softmax is a function of the program, so its operations move contents through typed references;
  a value written into such a reference's buffer and read back is the value, and these pairs are removed before
  the composed term is compared with the named stages.
-/
import proofs.«135999_j48524540510799_1_alg».proof.Proof.RefOps3
import proofs.«135999_j48524540510799_1_alg».proof.Proof.RefTerms
import proofs.«135999_j48524540510799_1_alg».proof.Proof.RefCast
import proofs.«135999_j48524540510799_1_alg».proof.Proof.Stages

noncomputable section

namespace Cert.ReferenceIdeal.RefRun

open Cert.Stages Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.reduce in
set_option maxRecDepth 16384 in
set_option maxHeartbeats 4000000 in
/-- The result: the log-softmax of the combined branches. -/
theorem w3_v183 (W : Valuation τ sig (Elt F)) (adjB : (⟨S2x6400000, .i32⟩ : BufTy).Contents (Elt F))
    (h137 : W (main_v137 : DevRef τ sig) = srcB adjB) (h138 : W (main_v138 : DevRef τ sig) = dstB adjB)
    (h145 : W (main_v145 : DevRef τ sig) = isdB (dstB adjB)) (hc : W (main_c_31 : DevRef τ sig) = constantI S_ 32 0#32) :
    after ops3 W (main_v183 : DevRef τ sig)
      = lsmR (combineR (W (main_v92 : DevRef τ sig))
          (gcnB40 adjB (dotMid (W (main_v135 : DevRef τ sig)) (W (main_arg9 : DevRef τ sig))) (W (main_arg10 : DevRef τ sig)))
          (W (main_arg11 : DevRef τ sig)) (W (main_arg12 : DevRef τ sig))) := by
  simp only [ops3]
  after_results_simp
  simp only [ofBuf_toBuf, h137, h138, h145, hc]
  all_goals rfl

end Cert.ReferenceIdeal.RefRun

end
-- ==== Proof.RefOut.lean ====
/-
  The reference's result, as the composition of the named stages applied to the arguments' contents.

  The run's fold is the four windows' folds one after the other. Each window's lemmas read its live results off
  the contents it starts from; a buffer a window does not write (an argument; a result that an earlier window
  left for a later one) goes through it unchanged. Threading the four windows gives the result buffer's final
  contents: per graph two aggregation layers with the exponential linear unit between them, the two branches
  combined by the final affine map, and the row-wise log-softmax.
-/
import proofs.«135999_j48524540510799_1_alg».proof.Proof.RefArgs
import proofs.«135999_j48524540510799_1_alg».proof.Proof.RefVal0
import proofs.«135999_j48524540510799_1_alg».proof.Proof.RefVal1
import proofs.«135999_j48524540510799_1_alg».proof.Proof.RefVal2
import proofs.«135999_j48524540510799_1_alg».proof.Proof.RefVal3
import Idealize.ShloMosaic.PureOps.Ideal

noncomputable section

namespace Cert.ReferenceIdeal.RefRun

open Cert.Stages Cert.ReferenceIdeal Cert.ReferenceIdeal.Gen Idealize.ShloMosaic Idealize.ShloMosaic.TcCoe Idealize.SL.Sem Idealize.ShloMosaic.StableHlo

variable {F : FTy → Type} [FloatOps F]

/-- A buffer the first two windows do not write still holds its launch contents after them. -/
theorem keep01 (V : Valuation τ sig (Elt F)) (r : Ref sig .tc) (h0 : r ∉ ops0_W) (h1 : r ∉ ops1_W) :
    after ops1 (after ops0 V) (Proc.devRef .tc r) = V (Proc.devRef .tc r) := by
  rw [keep1 _ r h1, keep0 _ r h0]

/-- A buffer the first three windows do not write still holds its launch contents after them. -/
theorem keep012 (V : Valuation τ sig (Elt F)) (r : Ref sig .tc) (h0 : r ∉ ops0_W) (h1 : r ∉ ops1_W) (h2 : r ∉ ops2_W) :
    after ops2 (after ops1 (after ops0 V)) (Proc.devRef .tc r) = V (Proc.devRef .tc r) := by
  rw [keep2 _ r h2, keep01 V r h0 h1]

/-- After the second window: the first graph's branch, two layers with the unit between them. -/
theorem val2_v92 (V : Valuation τ sig (Elt F)) :
    after ops1 (after ops0 V) (main_v92 : DevRef τ sig) = (gcnA40 (V (main_arg1 : DevRef τ sig)) (dotMid (eluR (gcnA16 (V (main_arg1 : DevRef τ sig)) (dotIn (V (main_arg0 : DevRef τ sig)) (V (main_arg3 : DevRef τ sig))) (V (main_arg4 : DevRef τ sig)))) (V (main_arg5 : DevRef τ sig))) (V (main_arg6 : DevRef τ sig))) := by
  rw [w1_v92 (after ops0 V) (V (main_arg1 : DevRef τ sig)) (w0_v1 V) (w0_v3 V), w0_v49 V,
    keep0 V main_arg5 (by decide), keep0 V main_arg6 (by decide)]

/-- After the second window the second edge list's rows are still in their buffers. -/
theorem val2_v5 (V : Valuation τ sig (Elt F)) :
    after ops1 (after ops0 V) (main_v5 : DevRef τ sig) = rowB0 (V (main_arg2 : DevRef τ sig)) :=
  (keep1 _ main_v5 (by decide)).trans (w0_v5 V)
theorem val2_v7 (V : Valuation τ sig (Elt F)) :
    after ops1 (after ops0 V) (main_v7 : DevRef τ sig) = rowB1 (V (main_arg2 : DevRef τ sig)) :=
  (keep1 _ main_v7 (by decide)).trans (w0_v7 V)

/-- After the third window: the second graph's first layer and its unit. -/
theorem val3_v135 (V : Valuation τ sig (Elt F)) :
    after ops2 (after ops1 (after ops0 V)) (main_v135 : DevRef τ sig) = (eluR (gcnB16 (V (main_arg2 : DevRef τ sig)) (dotIn (V (main_arg0 : DevRef τ sig)) (V (main_arg7 : DevRef τ sig))) (V (main_arg8 : DevRef τ sig)))) := by
  rw [w2_v135 (after ops1 (after ops0 V)) (V (main_arg2 : DevRef τ sig)) (w1_v94 _ _ (w0_v5 V)) (w1_v95 _ _ (w0_v7 V)) (w1_v96 _) (w1_v97 _),
    keep01 V main_arg0 (by decide) (by decide), keep01 V main_arg7 (by decide) (by decide),
    keep01 V main_arg8 (by decide) (by decide)]

/-- After the third window the first graph's branch is still in its buffer. -/
theorem val3_v92 (V : Valuation τ sig (Elt F)) :
    after ops2 (after ops1 (after ops0 V)) (main_v92 : DevRef τ sig) = (gcnA40 (V (main_arg1 : DevRef τ sig)) (dotMid (eluR (gcnA16 (V (main_arg1 : DevRef τ sig)) (dotIn (V (main_arg0 : DevRef τ sig)) (V (main_arg3 : DevRef τ sig))) (V (main_arg4 : DevRef τ sig)))) (V (main_arg5 : DevRef τ sig))) (V (main_arg6 : DevRef τ sig))) :=
  (keep2 _ main_v92 (by decide)).trans (val2_v92 V)

/-- The result buffer at the end of the run, generic in the float values. -/
theorem out_val (V : Valuation τ sig (Elt F)) :
    after ops V (main_v183 : DevRef τ sig) = refVal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops,
    w3_v183 (after ops2 (after ops1 (after ops0 V))) (V (main_arg2 : DevRef τ sig)) (w2_v137 _ _ (val2_v5 V)) (w2_v138 _ _ (val2_v7 V)) (w2_v145 _ _ (val2_v7 V)) (w2_c31 _),
    val3_v92 V, val3_v135 V,
    keep012 V main_arg9 (by decide) (by decide) (by decide), keep012 V main_arg10 (by decide) (by decide) (by decide),
    keep012 V main_arg11 (by decide) (by decide) (by decide), keep012 V main_arg12 (by decide) (by decide) (by decide)]
  rfl

/-- The result buffer at the end of the run, over the extended reals: the reference's value of the arguments. -/
theorem out_eq (V : Valuation τ sig (Elt Ideal)) :
    after ops V (main_v183 : DevRef τ sig) = refVal (F := Ideal) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) :=
  out_val V

end Cert.ReferenceIdeal.RefRun

end
-- ==== Proof.lean ====
/-
  The certificate of the two-order graph network: the Pallas kernel (three grid computations — a fused first-layer
  product, a fused unit-and-second-layer product, a fused combine-and-log-softmax — among host gathers and scatter-adds)
  against its jnp reference, over the extended reals.

  * The kernel's two frames are the generated frame certificates; the reference's frame is its run with everything but
    the arguments dropped. The ideal pass rewrote nothing, so `preserves` has nothing to state.
  * `algebraic`: the idealized kernel's run ends with its result at one function of the thirteen arguments
    (KerRun, KerValue: each grid computation's output array is a whole-array function of what it read — Region0/1/2 — and
    the host stretches between them are stage functions — KerHost0/1/2), the reference's run ends with its result at the
    reference's function (RefRun, RefOut), and the two functions are equal (Bridge): the fused products cut in two are the
    separate products, the zero blocks of the block-diagonal weight contribute x · 0 = 0, the two spellings of the unit agree,
    and the fused log-softmax is the reference's. The precondition is not needed.
-/
import proofs.«135999_j48524540510799_1_alg».proof.Defs
import proofs.«135999_j48524540510799_1_alg».proof.Proof.Gen.Kernel
import proofs.«135999_j48524540510799_1_alg».proof.Proof.Gen.Kernel.Frame
import proofs.«135999_j48524540510799_1_alg».proof.Proof.Gen.KernelIdeal
import proofs.«135999_j48524540510799_1_alg».proof.Proof.Gen.KernelIdeal.Frame
import proofs.«135999_j48524540510799_1_alg».proof.Proof.Gen.ReferenceIdeal
import proofs.«135999_j48524540510799_1_alg».proof.Proof.Gen.Pre_finite_inputs
import proofs.«135999_j48524540510799_1_alg».proof.Proof.KerRun
import proofs.«135999_j48524540510799_1_alg».proof.Proof.KerValue
import proofs.«135999_j48524540510799_1_alg».proof.Proof.Bridge
import proofs.«135999_j48524540510799_1_alg».proof.Proof.RefClaims
import proofs.«135999_j48524540510799_1_alg».proof.Proof.RefOut
import Idealize.ShloMosaic.Adequacy
import Idealize.ShloMosaic.Init

noncomputable section

namespace Cert.Proof

open Idealize.ShloMosaic Idealize.SL.Sem

/-- The word-level kernel's frame: the generated certificate. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: the generated certificate. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- From memories that agree on the arguments both idealized programs run, and both results are the kernel's value
    function of the arguments: the kernel's by its run and the walk back through its segments, the reference's by its run
    and the equality of the two value functions. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KerStages.kerVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run (Cert.KernelIdeal.defs (F := Ideal)) _ _).mono
      (fun r h c => ⟨(h c).1.trans (Cert.KernelIdeal.KerValue.value m ρ c), (h c).2⟩)
      (Cert.KernelIdeal.KerRun.run_value (F := Ideal) m ρ)
  · refine (θ_run (Cert.ReferenceIdeal.defs (F := Ideal)) _ _).mono (fun r h c => ⟨(h c).1.trans ?_, (h c).2⟩)
      (Cert.Proof.RefClaims.value_run Cert.ReferenceIdeal.RefRun.out_eq m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.Bridge.kerVal_eq_refVal _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame_ri, trivial, algebraic⟩

end Cert.Proof

end
